-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x16 : Shape := ⟨3, ![256, 2048, 16]⟩
abbrev S128x16 : Shape := ⟨2, ![128, 16]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S256x2048x16 : S_.BroadcastsInDim S256x2048x16 (![] : Fin 0 → Fin S256x2048x16.rank)
  reducesTo_S256x2048x16_S_d0_1_2 : S256x2048x16.ReducesTo [0, 1, 2] S_
  h_S_ : 0 < S_.numel
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128 .f32) (main_arg5 : FVec F S1x128 .f32) (main_arg6 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S256x2048x16 .f32) (main_arg1 : FVec F S128x16 .f32) (main_arg2 : FVec F S128 .f32) (main_arg3 : FVec F S128x256 .f32) (main_arg4 : FVec F S128 .f32) (main_arg5 : FVec F S1x128 .f32) (main_arg6 : FVec F S1 .f32) : IVec S_ 1 :=
  let main_v0 : FVec F S256x2048x16 .f32 := Host.absf main_arg0
  let main_cst : FVec F S_ .f32 := constant S_ .f32 0x7F800000#32
  let main_v1 : FVec F S256x2048x16 .f32 := broadcastInDim S256x2048x16 ![] bcast_S_S256x2048x16 main_cst
  let main_v2 : IVec S256x2048x16 1 := cmpf .olt main_v0 main_v1
  let main_c : IVec S_ 1 := constantI S_ 1 1#1
  let main_v3 : IVec S_ 1 := (fun x v => Host.reduce IntOp.andi x v reducesTo_S256x2048x16_S_d0_1_2 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S256x2048x16 : Shape := ⟨3, ![256, 2048, 16]⟩
abbrev S128x16 : Shape := ⟨2, ![128, 16]⟩
abbrev S128 : Shape := ⟨1, ![128]⟩
abbrev S128x256 : Shape := ⟨2, ![128, 256]⟩
abbrev S1x128 : Shape := ⟨2, ![1, 128]⟩
abbrev S1 : Shape := ⟨1, ![1]⟩
abbrev S16x128 : Shape := ⟨2, ![16, 128]⟩
abbrev S256x128 : Shape := ⟨2, ![256, 128]⟩
abbrev S128x1 : Shape := ⟨2, ![128, 1]⟩
abbrev S1x1 : Shape := ⟨2, ![1, 1]⟩
abbrev S524288x16 : Shape := ⟨2, ![524288, 16]⟩
abbrev S524288x128 : Shape := ⟨2, ![524288, 128]⟩
abbrev S4096x16 : Shape := ⟨2, ![4096, 16]⟩
abbrev S4096x128 : Shape := ⟨2, ![4096, 128]⟩
abbrev S256x2048x128 : Shape := ⟨3, ![256, 2048, 128]⟩
abbrev S262144x256 : Shape := ⟨2, ![262144, 256]⟩
abbrev S262144x128 : Shape := ⟨2, ![262144, 128]⟩
abbrev S4096x256 : Shape := ⟨2, ![4096, 256]⟩
abbrev S256x1024x128 : Shape := ⟨3, ![256, 1024, 128]⟩
abbrev S131072x256 : Shape := ⟨2, ![131072, 256]⟩
abbrev S131072x128 : Shape := ⟨2, ![131072, 128]⟩
abbrev S256x512x128 : Shape := ⟨3, ![256, 512, 128]⟩
abbrev S65536x256 : Shape := ⟨2, ![65536, 256]⟩
abbrev S65536x128 : Shape := ⟨2, ![65536, 128]⟩
abbrev S256x256x128 : Shape := ⟨3, ![256, 256, 128]⟩
abbrev S32768x256 : Shape := ⟨2, ![32768, 256]⟩
abbrev S32768x128 : Shape := ⟨2, ![32768, 128]⟩
abbrev S256x128x128 : Shape := ⟨3, ![256, 128, 128]⟩
abbrev S16384x256 : Shape := ⟨2, ![16384, 256]⟩
abbrev S16384x128 : Shape := ⟨2, ![16384, 128]⟩
abbrev S256x64x128 : Shape := ⟨3, ![256, 64, 128]⟩
abbrev S8192x256 : Shape := ⟨2, ![8192, 256]⟩
abbrev S8192x128 : Shape := ⟨2, ![8192, 128]⟩
abbrev S256x32x128 : Shape := ⟨3, ![256, 32, 128]⟩
abbrev S256x16x128 : Shape := ⟨3, ![256, 16, 128]⟩
abbrev S2048x256 : Shape := ⟨2, ![2048, 256]⟩
abbrev S2048x128 : Shape := ⟨2, ![2048, 128]⟩
abbrev S256x8x128 : Shape := ⟨3, ![256, 8, 128]⟩
abbrev S1024x256 : Shape := ⟨2, ![1024, 256]⟩
abbrev S1024x128 : Shape := ⟨2, ![1024, 128]⟩
abbrev S256x4x128 : Shape := ⟨3, ![256, 4, 128]⟩
abbrev S512x256 : Shape := ⟨2, ![512, 256]⟩
abbrev S512x128 : Shape := ⟨2, ![512, 128]⟩
abbrev S256x2x128 : Shape := ⟨3, ![256, 2, 128]⟩
abbrev S256x256 : Shape := ⟨2, ![256, 256]⟩
abbrev S256x1x128 : Shape := ⟨3, ![256, 1, 128]⟩
abbrev S256x1 : Shape := ⟨2, ![256, 1]⟩

abbrev nBuf : Space → Nat
  | .hbm => 51
  | .vmem => 66
  | .smem => 0
  | _ => 0

abbrev bufTy : (tb : Table) → Fin (tcTables nBuf tb) → BufTy
  | .hbm, ⟨0, _⟩ => ⟨S256x2048x16, .f32⟩
  | .hbm, ⟨1, _⟩ => ⟨S128x16, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S16x128, .f32⟩
  | .hbm, ⟨8, _⟩ => ⟨S1x128, .f32⟩
  | .hbm, ⟨9, _⟩ => ⟨S256x128, .f32⟩
  | .hbm, ⟨10, _⟩ => ⟨S1x128, .f32⟩
  | .hbm, ⟨11, _⟩ => ⟨S128x1, .f32⟩
  | .hbm, ⟨12, _⟩ => ⟨S1x1, .f32⟩
  | .hbm, ⟨13, _⟩ => ⟨S524288x16, .f32⟩
  | .hbm, ⟨14, _⟩ => ⟨S524288x128, .f32⟩
  | .hbm, ⟨15, _⟩ => ⟨S256x2048x128, .f32⟩
  | .hbm, ⟨16, _⟩ => ⟨S262144x256, .f32⟩
  | .hbm, ⟨17, _⟩ => ⟨S262144x128, .f32⟩
  | .hbm, ⟨18, _⟩ => ⟨S256x1024x128, .f32⟩
  | .hbm, ⟨19, _⟩ => ⟨S131072x256, .f32⟩
  | .hbm, ⟨20, _⟩ => ⟨S131072x128, .f32⟩
  | .hbm, ⟨21, _⟩ => ⟨S256x512x128, .f32⟩
  | .hbm, ⟨22, _⟩ => ⟨S65536x256, .f32⟩
  | .hbm, ⟨23, _⟩ => ⟨S65536x128, .f32⟩
  | .hbm, ⟨24, _⟩ => ⟨S256x256x128, .f32⟩
  | .hbm, ⟨25, _⟩ => ⟨S32768x256, .f32⟩
  | .hbm, ⟨26, _⟩ => ⟨S32768x128, .f32⟩
  | .hbm, ⟨27, _⟩ => ⟨S256x128x128, .f32⟩
  | .hbm, ⟨28, _⟩ => ⟨S16384x256, .f32⟩
  | .hbm, ⟨29, _⟩ => ⟨S16384x128, .f32⟩
  | .hbm, ⟨30, _⟩ => ⟨S256x64x128, .f32⟩
  | .hbm, ⟨31, _⟩ => ⟨S8192x256, .f32⟩
  | .hbm, ⟨32, _⟩ => ⟨S8192x128, .f32⟩
  | .hbm, ⟨33, _⟩ => ⟨S256x32x128, .f32⟩
  | .hbm, ⟨34, _⟩ => ⟨S4096x256, .f32⟩
  | .hbm, ⟨35, _⟩ => ⟨S4096x128, .f32⟩
  | .hbm, ⟨36, _⟩ => ⟨S256x16x128, .f32⟩
  | .hbm, ⟨37, _⟩ => ⟨S2048x256, .f32⟩
  | .hbm, ⟨38, _⟩ => ⟨S2048x128, .f32⟩
  | .hbm, ⟨39, _⟩ => ⟨S256x8x128, .f32⟩
  | .hbm, ⟨40, _⟩ => ⟨S1024x256, .f32⟩
  | .hbm, ⟨41, _⟩ => ⟨S1024x128, .f32⟩
  | .hbm, ⟨42, _⟩ => ⟨S256x4x128, .f32⟩
  | .hbm, ⟨43, _⟩ => ⟨S512x256, .f32⟩
  | .hbm, ⟨44, _⟩ => ⟨S512x128, .f32⟩
  | .hbm, ⟨45, _⟩ => ⟨S256x2x128, .f32⟩
  | .hbm, ⟨46, _⟩ => ⟨S256x256, .f32⟩
  | .hbm, ⟨47, _⟩ => ⟨S256x128, .f32⟩
  | .hbm, ⟨48, _⟩ => ⟨S256x1x128, .f32⟩
  | .hbm, ⟨49, _⟩ => ⟨S256x128, .f32⟩
  | .hbm, ⟨50, _⟩ => ⟨S256x1, .f32⟩
  | .local _ .vmem, ⟨0, _⟩ => ⟨S4096x16, .f32⟩
  | .local _ .vmem, ⟨1, _⟩ => ⟨S4096x16, .f32⟩
  | .local _ .vmem, ⟨2, _⟩ => ⟨S16x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S4096x256, .f32⟩
  | .local _ .vmem, ⟨7, _⟩ => ⟨S4096x256, .f32⟩
  | .local _ .vmem, ⟨8, _⟩ => ⟨S256x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x256, .f32⟩
  | .local _ .vmem, ⟨13, _⟩ => ⟨S4096x256, .f32⟩
  | .local _ .vmem, ⟨14, _⟩ => ⟨S256x128, .f32⟩
  | .local _ .vmem, ⟨15, _⟩ => ⟨S1x128, .f32⟩
  | .local _ .vmem, ⟨16, _⟩ => ⟨S4096x128, .f32⟩
  | .local _ .vmem, ⟨17, _⟩ => ⟨S4096x128, .f32⟩
  | .local _ .vmem, ⟨18, _⟩ => ⟨S4096x256, .f32⟩
  | .local _ .vmem, ⟨19, _⟩ => ⟨S4096x256, .f32⟩
  | .local _ .vmem, ⟨20, _⟩ => ⟨S256x128, .f32⟩
  | .local _ .vmem, ⟨21, _⟩ => ⟨S1x128, .f32⟩
  | .local _ .vmem, ⟨22, _⟩ => ⟨S4096x128, .f32⟩
  | .local _ .vmem, ⟨23, _⟩ => ⟨S4096x128, .f32⟩
  | .local _ .vmem, ⟨24, _⟩ => ⟨S4096x256, .f32⟩
  | .local _ .vmem, ⟨25, _⟩ => ⟨S4096x256, .f32⟩
  | .local _ .vmem, ⟨26, _⟩ => ⟨S256x128, .f32⟩
  | .local _ .vmem, ⟨27, _⟩ => ⟨S1x128, .f32⟩
  | .local _ .vmem, ⟨28, _⟩ => ⟨S4096x128, .f32⟩
  | .local _ .vmem, ⟨29, _⟩ => ⟨S4096x128, .f32⟩
  | .local _ .vmem, ⟨30, _⟩ => ⟨S4096x256, .f32⟩
  | .local _ .vmem, ⟨31, _⟩ => ⟨S4096x256, .f32⟩
  | .local _ .vmem, ⟨32, _⟩ => ⟨S256x128, .f32⟩
  | .local _ .vmem, ⟨33, _⟩ => ⟨S1x128, .f32⟩
  | .local _ .vmem, ⟨34, _⟩ => ⟨S4096x128, .f32⟩
  | .local _ .vmem, ⟨35, _⟩ => ⟨S4096x128, .f32⟩
  | .local _ .vmem, ⟨36, _⟩ => ⟨S4096x256, .f32⟩
  | .local _ .vmem, ⟨37, _⟩ => ⟨S4096x256, .f32⟩
  | .local _ .vmem, ⟨38, _⟩ => ⟨S256x128, .f32⟩
  | .local _ .vmem, ⟨39, _⟩ => ⟨S1x128, .f32⟩
  | .local _ .vmem, ⟨40, _⟩ => ⟨S4096x128, .f32⟩
  | .local _ .vmem, ⟨41, _⟩ => ⟨S4096x128, .f32⟩
  | .local _ .vmem, ⟨42, _⟩ => ⟨S4096x256, .f32⟩
  | .local _ .vmem, ⟨43, _⟩ => ⟨S256x128, .f32⟩
  | .local _ .vmem, ⟨44, _⟩ => ⟨S1x128, .f32⟩
  | .local _ .vmem, ⟨45, _⟩ => ⟨S4096x128, .f32⟩
  | .local _ .vmem, ⟨46, _⟩ => ⟨S2048x256, .f32⟩
  | .local _ .vmem, ⟨47, _⟩ => ⟨S256x128, .f32⟩
  | .local _ .vmem, ⟨48, _⟩ => ⟨S1x128, .f32⟩
  | .local _ .vmem, ⟨49, _⟩ => ⟨S2048x128, .f32⟩
  | .local _ .vmem, ⟨50, _⟩ => ⟨S1024x256, .f32⟩
  | .local _ .vmem, ⟨51, _⟩ => ⟨S256x128, .f32⟩
  | .local _ .vmem, ⟨52, _⟩ => ⟨S1x128, .f32⟩
  | .local _ .vmem, ⟨53, _⟩ => ⟨S1024x128, .f32⟩
  | .local _ .vmem, ⟨54, _⟩ => ⟨S512x256, .f32⟩
  | .local _ .vmem, ⟨55, _⟩ => ⟨S256x128, .f32⟩
  | .local _ .vmem, ⟨56, _⟩ => ⟨S1x128, .f32⟩
  | .local _ .vmem, ⟨57, _⟩ => ⟨S512x128, .f32⟩
  | .local _ .vmem, ⟨58, _⟩ => ⟨S256x256, .f32⟩
  | .local _ .vmem, ⟨59, _⟩ => ⟨S256x128, .f32⟩
  | .local _ .vmem, ⟨60, _⟩ => ⟨S1x128, .f32⟩
  | .local _ .vmem, ⟨61, _⟩ => ⟨S256x128, .f32⟩
  | .local _ .vmem, ⟨62, _⟩ => ⟨S256x128, .f32⟩
  | .local _ .vmem, ⟨63, _⟩ => ⟨S128x1, .f32⟩
  | .local _ .vmem, ⟨64, _⟩ => ⟨S1x1, .f32⟩
  | .local _ .vmem, ⟨65, _⟩ => ⟨S256x1, .f32⟩
  | _, _ => ⟨S256x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc8_stg0_0 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg3_0 : Ref sig .tc := ⟨.vmem, 49, rfl⟩
abbrev cc9_stg0_0 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg3_0 : Ref sig .tc := ⟨.vmem, 53, rfl⟩
abbrev cc10_stg0_0 : Ref sig .tc := ⟨.vmem, 54, rfl⟩
abbrev cc10_stg1_0 : Ref sig .tc := ⟨.vmem, 55, rfl⟩
abbrev cc10_stg2_0 : Ref sig .tc := ⟨.vmem, 56, rfl⟩
abbrev cc10_stg3_0 : Ref sig .tc := ⟨.vmem, 57, rfl⟩
abbrev cc11_stg0_0 : Ref sig .tc := ⟨.vmem, 58, rfl⟩
abbrev cc11_stg1_0 : Ref sig .tc := ⟨.vmem, 59, rfl⟩
abbrev cc11_stg2_0 : Ref sig .tc := ⟨.vmem, 60, rfl⟩
abbrev cc11_stg3_0 : Ref sig .tc := ⟨.vmem, 61, rfl⟩
abbrev cc12_stg0_0 : Ref sig .tc := ⟨.vmem, 62, rfl⟩
abbrev cc12_stg1_0 : Ref sig .tc := ⟨.vmem, 63, rfl⟩
abbrev cc12_stg2_0 : Ref sig .tc := ⟨.vmem, 64, rfl⟩
abbrev cc12_stg3_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem1_0 : DmaSem sig := 43
abbrev cc7_sem2_0 : DmaSem sig := 44
abbrev cc7_sem3_0 : DmaSem sig := 45
abbrev cc8_sem0_0 : DmaSem sig := 46
abbrev cc8_sem1_0 : DmaSem sig := 47
abbrev cc8_sem2_0 : DmaSem sig := 48
abbrev cc8_sem3_0 : DmaSem sig := 49
abbrev cc9_sem0_0 : DmaSem sig := 50
abbrev cc9_sem1_0 : DmaSem sig := 51
abbrev cc9_sem2_0 : DmaSem sig := 52
abbrev cc9_sem3_0 : DmaSem sig := 53
abbrev cc10_sem0_0 : DmaSem sig := 54
abbrev cc10_sem1_0 : DmaSem sig := 55
abbrev cc10_sem2_0 : DmaSem sig := 56
abbrev cc10_sem3_0 : DmaSem sig := 57
abbrev cc11_sem0_0 : DmaSem sig := 58
abbrev cc11_sem1_0 : DmaSem sig := 59
abbrev cc11_sem2_0 : DmaSem sig := 60
abbrev cc11_sem3_0 : DmaSem sig := 61
abbrev cc12_sem0_0 : DmaSem sig := 62
abbrev cc12_sem1_0 : DmaSem sig := 63
abbrev cc12_sem2_0 : DmaSem sig := 64
abbrev cc12_sem3_0 : DmaSem sig := 65

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4096x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S4096x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S4096x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S2048x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S2048x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S1024x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S256x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1024x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S512x256 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S256x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S256x256 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S256x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S256x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S256x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S128x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S256x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![true]

class Facts₀ : Prop where
  transposes_S128x16_S16x128_1_0 : S128x16.Transposes [1, 0] S16x128
  shapeCasts_S128_S1x128 : S128.ShapeCasts S1x128
  transposes_S128x256_S256x128_1_0 : S128x256.Transposes [1, 0] S256x128
  transposes_S1x128_S128x1_1_0 : S1x128.Transposes [1, 0] S128x1
  shapeCasts_S1_S1x1 : S1.ShapeCasts S1x1
  shapeCasts_S256x2048x16_S524288x16 : S256x2048x16.ShapeCasts S524288x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S524288x128_S256x2048x128 : S524288x128.ShapeCasts S256x2048x128
  shapeCasts_S256x2048x128_S262144x256 : S256x2048x128.ShapeCasts S262144x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S262144x128_S256x1024x128 : S262144x128.ShapeCasts S256x1024x128
  shapeCasts_S256x1024x128_S131072x256 : S256x1024x128.ShapeCasts S131072x256
  shapeCasts_S131072x128_S256x512x128 : S131072x128.ShapeCasts S256x512x128
  shapeCasts_S256x512x128_S65536x256 : S256x512x128.ShapeCasts S65536x256
  shapeCasts_S65536x128_S256x256x128 : S65536x128.ShapeCasts S256x256x128
  shapeCasts_S256x256x128_S32768x256 : S256x256x128.ShapeCasts S32768x256
  shapeCasts_S32768x128_S256x128x128 : S32768x128.ShapeCasts S256x128x128
  shapeCasts_S256x128x128_S16384x256 : S256x128x128.ShapeCasts S16384x256
  shapeCasts_S16384x128_S256x64x128 : S16384x128.ShapeCasts S256x64x128
  shapeCasts_S256x64x128_S8192x256 : S256x64x128.ShapeCasts S8192x256
  shapeCasts_S8192x128_S256x32x128 : S8192x128.ShapeCasts S256x32x128
  shapeCasts_S256x32x128_S4096x256 : S256x32x128.ShapeCasts S4096x256
  shapeCasts_S4096x128_S256x16x128 : S4096x128.ShapeCasts S256x16x128
  shapeCasts_S256x16x128_S2048x256 : S256x16x128.ShapeCasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S256x8x128 : S2048x128.ShapeCasts S256x8x128
  shapeCasts_S256x8x128_S1024x256 : S256x8x128.ShapeCasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S1024x128_S256x4x128 : S1024x128.ShapeCasts S256x4x128
  shapeCasts_S256x4x128_S512x256 : S256x4x128.ShapeCasts S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x128_S256x2x128 : S512x128.ShapeCasts S256x2x128
  shapeCasts_S256x2x128_S256x256 : S256x2x128.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x128_S256x128 : S1x128.Broadcasts S256x128
  shapeCasts_S256x128_S256x1x128 : S256x128.ShapeCasts S256x1x128
  shapeCasts_S256x1x128_S256x128 : S256x1x128.ShapeCasts S256x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S4096x16_S16x128_S4096x128_1_0_0_1_n_n_wf : DotDims.WF S4096x16 S16x128 S4096x128 [1] [0] [0] [1] [] []
  dot_S4096x256_S256x128_S4096x128_1_0_0_1_n_n_wf : DotDims.WF S4096x256 S256x128 S4096x128 [1] [0] [0] [1] [] []
  dot_S2048x256_S256x128_S2048x128_1_0_0_1_n_n_wf : DotDims.WF S2048x256 S256x128 S2048x128 [1] [0] [0] [1] [] []
  dot_S1024x256_S256x128_S1024x128_1_0_0_1_n_n_wf : DotDims.WF S1024x256 S256x128 S1024x128 [1] [0] [0] [1] [] []
  dot_S512x256_S256x128_S512x128_1_0_0_1_n_n_wf : DotDims.WF S512x256 S256x128 S512x128 [1] [0] [0] [1] [] []
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S524288x16.size a
  hwx0_0 : ∀ i : grid0.Coords, EltTy.bits .f32 = 32 ∨ (Rect.block (s := S524288x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S524288x128.size a
  hwx0_3 : ∀ i : grid0.Coords, EltTy.bits .f32 = 32 ∨ (Rect.block (s := S524288x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .f32 = 32 ∨ (Rect.block (s := S262144x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S262144x128.size a
  hwx1_3 : ∀ i : grid1.Coords, EltTy.bits .f32 = 32 ∨ (Rect.block (s := S262144x128) S4096x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S131072x256.size a
  hwx2_0 : ∀ i : grid2.Coords, EltTy.bits .f32 = 32 ∨ (Rect.block (s := S131072x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S131072x128.size a
  hwx2_3 : ∀ i : grid2.Coords, EltTy.bits .f32 = 32 ∨ (Rect.block (s := S131072x128) S4096x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S65536x256.size a
  hwx3_0 : ∀ i : grid3.Coords, EltTy.bits .f32 = 32 ∨ (Rect.block (s := S65536x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S65536x128.size a
  hwx3_3 : ∀ i : grid3.Coords, EltTy.bits .f32 = 32 ∨ (Rect.block (s := S65536x128) S4096x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x256.size a ≤ S32768x256.size a
  hwx4_0 : ∀ i : grid4.Coords, EltTy.bits .f32 = 32 ∨ (Rect.block (s := S32768x256) S4096x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x128.size a ≤ S32768x128.size a
  hwx4_3 : ∀ i : grid4.Coords, EltTy.bits .f32 = 32 ∨ (Rect.block (s := S32768x128) S4096x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x256.size a ≤ S16384x256.size a
  hwx5_0 : ∀ i : grid5.Coords, EltTy.bits .f32 = 32 ∨ (Rect.block (s := S16384x256) S4096x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x128.size a ≤ S16384x128.size a
  hwx5_3 : ∀ i : grid5.Coords, EltTy.bits .f32 = 32 ∨ (Rect.block (s := S16384x128) S4096x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x256.size a ≤ S8192x256.size a
  hwx6_0 : ∀ i : grid6.Coords, EltTy.bits .f32 = 32 ∨ (Rect.block (s := S8192x256) S4096x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x128.size a ≤ S8192x128.size a
  hwx6_3 : ∀ i : grid6.Coords, EltTy.bits .f32 = 32 ∨ (Rect.block (s := S8192x128) S4096x128.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S4096x256.size a ≤ S4096x256.size a
  hwx7_0 : ∀ i : grid7.Coords, EltTy.bits .f32 = 32 ∨ (Rect.block (s := S4096x256) S4096x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S4096x128.size a ≤ S4096x128.size a
  hwx7_3 : ∀ i : grid7.Coords, EltTy.bits .f32 = 32 ∨ (Rect.block (s := S4096x128) S4096x128.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S2048x256.size a ≤ S2048x256.size a
  hwx8_0 : ∀ i : grid8.Coords, EltTy.bits .f32 = 32 ∨ (Rect.block (s := S2048x256) S2048x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .f32 = 32 ∨ (Rect.block (s := S256x128) S256x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S2048x128.size a ≤ S2048x128.size a
  hwx8_3 : ∀ i : grid8.Coords, EltTy.bits .f32 = 32 ∨ (Rect.block (s := S2048x128) S2048x128.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S1024x256.size a ≤ S1024x256.size a
  hwx9_0 : ∀ i : grid9.Coords, EltTy.bits .f32 = 32 ∨ (Rect.block (s := S1024x256) S1024x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x128.size a ≤ S256x128.size a
  hwx9_1 : ∀ i : grid9.Coords, EltTy.bits .f32 = 32 ∨ (Rect.block (s := S256x128) S256x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S1024x128.size a ≤ S1024x128.size a
  hwx9_3 : ∀ i : grid9.Coords, EltTy.bits .f32 = 32 ∨ (Rect.block (s := S1024x128) S1024x128.size (cc9_transform_3 i) (hinb9_3 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S512x256.size a ≤ S512x256.size a
  hwx10_0 : ∀ i : grid10.Coords, EltTy.bits .f32 = 32 ∨ (Rect.block (s := S512x256) S512x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x128.size a ≤ S256x128.size a
  hwx10_1 : ∀ i : grid10.Coords, EltTy.bits .f32 = 32 ∨ (Rect.block (s := S256x128) S256x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S512x128.size a ≤ S512x128.size a
  hwx10_3 : ∀ i : grid10.Coords, EltTy.bits .f32 = 32 ∨ (Rect.block (s := S512x128) S512x128.size (cc10_transform_3 i) (hinb10_3 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S256x256.size a ≤ S256x256.size a
  hwx11_0 : ∀ i : grid11.Coords, EltTy.bits .f32 = 32 ∨ (Rect.block (s := S256x256) S256x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S256x128.size a ≤ S256x128.size a
  hwx11_1 : ∀ i : grid11.Coords, EltTy.bits .f32 = 32 ∨ (Rect.block (s := S256x128) S256x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S256x128.size a ≤ S256x128.size a
  hwx11_3 : ∀ i : grid11.Coords, EltTy.bits .f32 = 32 ∨ (Rect.block (s := S256x128) S256x128.size (cc11_transform_3 i) (hinb11_3 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S256x128.size a ≤ S256x128.size a
  hwx12_0 : ∀ i : grid12.Coords, EltTy.bits .f32 = 32 ∨ (Rect.block (s := S256x128) S256x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x1.size a ≤ S128x1.size a
  hwx12_1 : ∀ i : grid12.Coords, EltTy.bits .f32 = 32 ∨ (Rect.block (s := S128x1) S128x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hstage12_3 : ∀ j, (stage12_3 j).IsWhole
  nbuf12_3 : grid12.bufCount reads12_3 false = 1
  hreads12_3 : ∀ i i' : grid12.Coords, (∀ a, reads12_3 a = true → i a = i' a) → cc12_transform_3 i = cc12_transform_3 i'
  hinb12_3 : ∀ (i : grid12.Coords) a, (cc12_transform_3 i a + 1) * S256x1.size a ≤ S256x1.size a
  hwx12_3 : ∀ i : grid12.Coords, EltTy.bits .f32 = 32 ∨ (Rect.block (s := S256x1) S256x1.size (cc12_transform_3 i) (hinb12_3 i)).WholeWords (EltTy.packing .f32)

variable [Facts₀]

def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v6) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v15) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S4096x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v18) S4096x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v3) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S4096x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v21) S4096x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v2) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v3) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v22) S4096x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v24) S4096x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v2) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v3) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v25) S4096x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v27) S4096x256.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v2) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v3) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v28) S4096x128.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v30) S2048x256.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v2) S256x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v3) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v31) S2048x128.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v33) S1024x256.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v2) S256x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v3) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v34) S1024x128.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v36) S512x256.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v2) S256x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v3) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v37) S512x128.size cc10_transform_3 reads10_3 true false 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v39) S256x256.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v2) S256x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v3) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v40) S256x128.size cc11_transform_3 reads11_3 true false 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v42) S256x128.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_v4) S128x1.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v5) S1x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v43) S256x1.size cc12_transform_3 reads12_3 true false 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S256x2048x16 : Shape := ⟨3, ![256, 2048, 16]⟩
abbrev S128x16 : Shape := ⟨2, ![128, 16]⟩
abbrev S128 : Shape := ⟨1, ![128]⟩
abbrev S128x256 : Shape := ⟨2, ![128, 256]⟩
abbrev S1x128 : Shape := ⟨2, ![1, 128]⟩
abbrev S1 : Shape := ⟨1, ![1]⟩
abbrev S256x2048x128 : Shape := ⟨3, ![256, 2048, 128]⟩
abbrev S1x1x128 : Shape := ⟨3, ![1, 1, 128]⟩
abbrev S_ : Shape := ⟨0, ![]⟩
abbrev S256x1024x256 : Shape := ⟨3, ![256, 1024, 256]⟩
abbrev S256x1024x128 : Shape := ⟨3, ![256, 1024, 128]⟩
abbrev S256x512x256 : Shape := ⟨3, ![256, 512, 256]⟩
abbrev S256x512x128 : Shape := ⟨3, ![256, 512, 128]⟩
abbrev S256x256x256 : Shape := ⟨3, ![256, 256, 256]⟩
abbrev S256x256x128 : Shape := ⟨3, ![256, 256, 128]⟩
abbrev S256x128x256 : Shape := ⟨3, ![256, 128, 256]⟩
abbrev S256x128x128 : Shape := ⟨3, ![256, 128, 128]⟩
abbrev S256x64x256 : Shape := ⟨3, ![256, 64, 256]⟩
abbrev S256x64x128 : Shape := ⟨3, ![256, 64, 128]⟩
abbrev S256x32x256 : Shape := ⟨3, ![256, 32, 256]⟩
abbrev S256x32x128 : Shape := ⟨3, ![256, 32, 128]⟩
abbrev S256x16x256 : Shape := ⟨3, ![256, 16, 256]⟩
abbrev S256x16x128 : Shape := ⟨3, ![256, 16, 128]⟩
abbrev S256x8x256 : Shape := ⟨3, ![256, 8, 256]⟩
abbrev S256x8x128 : Shape := ⟨3, ![256, 8, 128]⟩
abbrev S256x4x256 : Shape := ⟨3, ![256, 4, 256]⟩
abbrev S256x4x128 : Shape := ⟨3, ![256, 4, 128]⟩
abbrev S256x2x256 : Shape := ⟨3, ![256, 2, 256]⟩
abbrev S256x2x128 : Shape := ⟨3, ![256, 2, 128]⟩
abbrev S256x1x256 : Shape := ⟨3, ![256, 1, 256]⟩
abbrev S256x1x128 : Shape := ⟨3, ![256, 1, 128]⟩
abbrev S256x128 : Shape := ⟨2, ![256, 128]⟩
abbrev S256x1 : Shape := ⟨2, ![256, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S256x2048x16, .f32⟩
  | .hbm, ⟨1, _⟩ => ⟨S128x16, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S256x2048x128, .f32⟩
  | .hbm, ⟨8, _⟩ => ⟨S1x1x128, .f32⟩
  | .hbm, ⟨9, _⟩ => ⟨S256x2048x128, .f32⟩
  | .hbm, ⟨10, _⟩ => ⟨S256x2048x128, .f32⟩
  | .hbm, ⟨11, _⟩ => ⟨S_, .f32⟩
  | .hbm, ⟨12, _⟩ => ⟨S256x2048x128, .f32⟩
  | .hbm, ⟨13, _⟩ => ⟨S256x2048x128, .f32⟩
  | .hbm, ⟨14, _⟩ => ⟨S256x1024x256, .f32⟩
  | .hbm, ⟨15, _⟩ => ⟨S256x1024x128, .f32⟩
  | .hbm, ⟨16, _⟩ => ⟨S1x1x128, .f32⟩
  | .hbm, ⟨17, _⟩ => ⟨S256x1024x128, .f32⟩
  | .hbm, ⟨18, _⟩ => ⟨S256x1024x128, .f32⟩
  | .hbm, ⟨19, _⟩ => ⟨S_, .f32⟩
  | .hbm, ⟨20, _⟩ => ⟨S256x1024x128, .f32⟩
  | .hbm, ⟨21, _⟩ => ⟨S256x1024x128, .f32⟩
  | .hbm, ⟨22, _⟩ => ⟨S256x512x256, .f32⟩
  | .hbm, ⟨23, _⟩ => ⟨S256x512x128, .f32⟩
  | .hbm, ⟨24, _⟩ => ⟨S1x1x128, .f32⟩
  | .hbm, ⟨25, _⟩ => ⟨S256x512x128, .f32⟩
  | .hbm, ⟨26, _⟩ => ⟨S256x512x128, .f32⟩
  | .hbm, ⟨27, _⟩ => ⟨S_, .f32⟩
  | .hbm, ⟨28, _⟩ => ⟨S256x512x128, .f32⟩
  | .hbm, ⟨29, _⟩ => ⟨S256x512x128, .f32⟩
  | .hbm, ⟨30, _⟩ => ⟨S256x256x256, .f32⟩
  | .hbm, ⟨31, _⟩ => ⟨S256x256x128, .f32⟩
  | .hbm, ⟨32, _⟩ => ⟨S1x1x128, .f32⟩
  | .hbm, ⟨33, _⟩ => ⟨S256x256x128, .f32⟩
  | .hbm, ⟨34, _⟩ => ⟨S256x256x128, .f32⟩
  | .hbm, ⟨35, _⟩ => ⟨S_, .f32⟩
  | .hbm, ⟨36, _⟩ => ⟨S256x256x128, .f32⟩
  | .hbm, ⟨37, _⟩ => ⟨S256x256x128, .f32⟩
  | .hbm, ⟨38, _⟩ => ⟨S256x128x256, .f32⟩
  | .hbm, ⟨39, _⟩ => ⟨S256x128x128, .f32⟩
  | .hbm, ⟨40, _⟩ => ⟨S1x1x128, .f32⟩
  | .hbm, ⟨41, _⟩ => ⟨S256x128x128, .f32⟩
  | .hbm, ⟨42, _⟩ => ⟨S256x128x128, .f32⟩
  | .hbm, ⟨43, _⟩ => ⟨S_, .f32⟩
  | .hbm, ⟨44, _⟩ => ⟨S256x128x128, .f32⟩
  | .hbm, ⟨45, _⟩ => ⟨S256x128x128, .f32⟩
  | .hbm, ⟨46, _⟩ => ⟨S256x64x256, .f32⟩
  | .hbm, ⟨47, _⟩ => ⟨S256x64x128, .f32⟩
  | .hbm, ⟨48, _⟩ => ⟨S1x1x128, .f32⟩
  | .hbm, ⟨49, _⟩ => ⟨S256x64x128, .f32⟩
  | .hbm, ⟨50, _⟩ => ⟨S256x64x128, .f32⟩
  | .hbm, ⟨51, _⟩ => ⟨S_, .f32⟩
  | .hbm, ⟨52, _⟩ => ⟨S256x64x128, .f32⟩
  | .hbm, ⟨53, _⟩ => ⟨S256x64x128, .f32⟩
  | .hbm, ⟨54, _⟩ => ⟨S256x32x256, .f32⟩
  | .hbm, ⟨55, _⟩ => ⟨S256x32x128, .f32⟩
  | .hbm, ⟨56, _⟩ => ⟨S1x1x128, .f32⟩
  | .hbm, ⟨57, _⟩ => ⟨S256x32x128, .f32⟩
  | .hbm, ⟨58, _⟩ => ⟨S256x32x128, .f32⟩
  | .hbm, ⟨59, _⟩ => ⟨S_, .f32⟩
  | .hbm, ⟨60, _⟩ => ⟨S256x32x128, .f32⟩
  | .hbm, ⟨61, _⟩ => ⟨S256x32x128, .f32⟩
  | .hbm, ⟨62, _⟩ => ⟨S256x16x256, .f32⟩
  | .hbm, ⟨63, _⟩ => ⟨S256x16x128, .f32⟩
  | .hbm, ⟨64, _⟩ => ⟨S1x1x128, .f32⟩
  | .hbm, ⟨65, _⟩ => ⟨S256x16x128, .f32⟩
  | .hbm, ⟨66, _⟩ => ⟨S256x16x128, .f32⟩
  | .hbm, ⟨67, _⟩ => ⟨S_, .f32⟩
  | .hbm, ⟨68, _⟩ => ⟨S256x16x128, .f32⟩
  | .hbm, ⟨69, _⟩ => ⟨S256x16x128, .f32⟩
  | .hbm, ⟨70, _⟩ => ⟨S256x8x256, .f32⟩
  | .hbm, ⟨71, _⟩ => ⟨S256x8x128, .f32⟩
  | .hbm, ⟨72, _⟩ => ⟨S1x1x128, .f32⟩
  | .hbm, ⟨73, _⟩ => ⟨S256x8x128, .f32⟩
  | .hbm, ⟨74, _⟩ => ⟨S256x8x128, .f32⟩
  | .hbm, ⟨75, _⟩ => ⟨S_, .f32⟩
  | .hbm, ⟨76, _⟩ => ⟨S256x8x128, .f32⟩
  | .hbm, ⟨77, _⟩ => ⟨S256x8x128, .f32⟩
  | .hbm, ⟨78, _⟩ => ⟨S256x4x256, .f32⟩
  | .hbm, ⟨79, _⟩ => ⟨S256x4x128, .f32⟩
  | .hbm, ⟨80, _⟩ => ⟨S1x1x128, .f32⟩
  | .hbm, ⟨81, _⟩ => ⟨S256x4x128, .f32⟩
  | .hbm, ⟨82, _⟩ => ⟨S256x4x128, .f32⟩
  | .hbm, ⟨83, _⟩ => ⟨S_, .f32⟩
  | .hbm, ⟨84, _⟩ => ⟨S256x4x128, .f32⟩
  | .hbm, ⟨85, _⟩ => ⟨S256x4x128, .f32⟩
  | .hbm, ⟨86, _⟩ => ⟨S256x2x256, .f32⟩
  | .hbm, ⟨87, _⟩ => ⟨S256x2x128, .f32⟩
  | .hbm, ⟨88, _⟩ => ⟨S1x1x128, .f32⟩
  | .hbm, ⟨89, _⟩ => ⟨S256x2x128, .f32⟩
  | .hbm, ⟨90, _⟩ => ⟨S256x2x128, .f32⟩
  | .hbm, ⟨91, _⟩ => ⟨S_, .f32⟩
  | .hbm, ⟨92, _⟩ => ⟨S256x2x128, .f32⟩
  | .hbm, ⟨93, _⟩ => ⟨S256x2x128, .f32⟩
  | .hbm, ⟨94, _⟩ => ⟨S256x1x256, .f32⟩
  | .hbm, ⟨95, _⟩ => ⟨S256x1x128, .f32⟩
  | .hbm, ⟨96, _⟩ => ⟨S1x1x128, .f32⟩
  | .hbm, ⟨97, _⟩ => ⟨S256x1x128, .f32⟩
  | .hbm, ⟨98, _⟩ => ⟨S256x1x128, .f32⟩
  | .hbm, ⟨99, _⟩ => ⟨S_, .f32⟩
  | .hbm, ⟨100, _⟩ => ⟨S256x1x128, .f32⟩
  | .hbm, ⟨101, _⟩ => ⟨S256x1x128, .f32⟩
  | .hbm, ⟨102, _⟩ => ⟨S256x128, .f32⟩
  | .hbm, ⟨103, _⟩ => ⟨S256x1, .f32⟩
  | .hbm, ⟨104, _⟩ => ⟨S1x1, .f32⟩
  | .hbm, ⟨105, _⟩ => ⟨S256x1, .f32⟩
  | .hbm, ⟨106, _⟩ => ⟨S256x1, .f32⟩
  | _, _ => ⟨S256x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call2_cst : Ref sig .tc := ⟨.hbm, 27, rfl⟩
abbrev main_call2_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call3_cst : Ref sig .tc := ⟨.hbm, 35, rfl⟩
abbrev main_call3_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call4_cst : Ref sig .tc := ⟨.hbm, 43, rfl⟩
abbrev main_call4_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call5_cst : Ref sig .tc := ⟨.hbm, 51, rfl⟩
abbrev main_call5_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call6_cst : Ref sig .tc := ⟨.hbm, 59, rfl⟩
abbrev main_call6_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call7_cst : Ref sig .tc := ⟨.hbm, 67, rfl⟩
abbrev main_call7_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call8_cst : Ref sig .tc := ⟨.hbm, 75, rfl⟩
abbrev main_call8_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call9_cst : Ref sig .tc := ⟨.hbm, 83, rfl⟩
abbrev main_call9_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call10_cst : Ref sig .tc := ⟨.hbm, 91, rfl⟩
abbrev main_call10_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call11_cst : Ref sig .tc := ⟨.hbm, 99, rfl⟩
abbrev main_call11_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S256x2048x128_0_1_2 : S1x1x128.BroadcastsInDim S256x2048x128 (![0, 1, 2] : Fin 3 → Fin S256x2048x128.rank)
  bcast_S_S256x2048x128 : S_.BroadcastsInDim S256x2048x128 (![] : Fin 0 → Fin S256x2048x128.rank)
  shapeCasts_S256x2048x128_S256x1024x256 : S256x2048x128.ShapeCasts S256x1024x256
  bcast_S1x1x128_S256x1024x128_0_1_2 : S1x1x128.BroadcastsInDim S256x1024x128 (![0, 1, 2] : Fin 3 → Fin S256x1024x128.rank)
  bcast_S_S256x1024x128 : S_.BroadcastsInDim S256x1024x128 (![] : Fin 0 → Fin S256x1024x128.rank)
  shapeCasts_S256x1024x128_S256x512x256 : S256x1024x128.ShapeCasts S256x512x256
  bcast_S1x1x128_S256x512x128_0_1_2 : S1x1x128.BroadcastsInDim S256x512x128 (![0, 1, 2] : Fin 3 → Fin S256x512x128.rank)
  bcast_S_S256x512x128 : S_.BroadcastsInDim S256x512x128 (![] : Fin 0 → Fin S256x512x128.rank)
  shapeCasts_S256x512x128_S256x256x256 : S256x512x128.ShapeCasts S256x256x256
  bcast_S1x1x128_S256x256x128_0_1_2 : S1x1x128.BroadcastsInDim S256x256x128 (![0, 1, 2] : Fin 3 → Fin S256x256x128.rank)
  bcast_S_S256x256x128 : S_.BroadcastsInDim S256x256x128 (![] : Fin 0 → Fin S256x256x128.rank)
  shapeCasts_S256x256x128_S256x128x256 : S256x256x128.ShapeCasts S256x128x256
  bcast_S1x1x128_S256x128x128_0_1_2 : S1x1x128.BroadcastsInDim S256x128x128 (![0, 1, 2] : Fin 3 → Fin S256x128x128.rank)
  bcast_S_S256x128x128 : S_.BroadcastsInDim S256x128x128 (![] : Fin 0 → Fin S256x128x128.rank)
  shapeCasts_S256x128x128_S256x64x256 : S256x128x128.ShapeCasts S256x64x256
  bcast_S1x1x128_S256x64x128_0_1_2 : S1x1x128.BroadcastsInDim S256x64x128 (![0, 1, 2] : Fin 3 → Fin S256x64x128.rank)
  bcast_S_S256x64x128 : S_.BroadcastsInDim S256x64x128 (![] : Fin 0 → Fin S256x64x128.rank)
  shapeCasts_S256x64x128_S256x32x256 : S256x64x128.ShapeCasts S256x32x256
  bcast_S1x1x128_S256x32x128_0_1_2 : S1x1x128.BroadcastsInDim S256x32x128 (![0, 1, 2] : Fin 3 → Fin S256x32x128.rank)
  bcast_S_S256x32x128 : S_.BroadcastsInDim S256x32x128 (![] : Fin 0 → Fin S256x32x128.rank)
  shapeCasts_S256x32x128_S256x16x256 : S256x32x128.ShapeCasts S256x16x256
  bcast_S1x1x128_S256x16x128_0_1_2 : S1x1x128.BroadcastsInDim S256x16x128 (![0, 1, 2] : Fin 3 → Fin S256x16x128.rank)
  bcast_S_S256x16x128 : S_.BroadcastsInDim S256x16x128 (![] : Fin 0 → Fin S256x16x128.rank)
  shapeCasts_S256x16x128_S256x8x256 : S256x16x128.ShapeCasts S256x8x256
  bcast_S1x1x128_S256x8x128_0_1_2 : S1x1x128.BroadcastsInDim S256x8x128 (![0, 1, 2] : Fin 3 → Fin S256x8x128.rank)
  bcast_S_S256x8x128 : S_.BroadcastsInDim S256x8x128 (![] : Fin 0 → Fin S256x8x128.rank)
  shapeCasts_S256x8x128_S256x4x256 : S256x8x128.ShapeCasts S256x4x256
  bcast_S1x1x128_S256x4x128_0_1_2 : S1x1x128.BroadcastsInDim S256x4x128 (![0, 1, 2] : Fin 3 → Fin S256x4x128.rank)
  bcast_S_S256x4x128 : S_.BroadcastsInDim S256x4x128 (![] : Fin 0 → Fin S256x4x128.rank)
  shapeCasts_S256x4x128_S256x2x256 : S256x4x128.ShapeCasts S256x2x256
  bcast_S1x1x128_S256x2x128_0_1_2 : S1x1x128.BroadcastsInDim S256x2x128 (![0, 1, 2] : Fin 3 → Fin S256x2x128.rank)
  bcast_S_S256x2x128 : S_.BroadcastsInDim S256x2x128 (![] : Fin 0 → Fin S256x2x128.rank)
  shapeCasts_S256x2x128_S256x1x256 : S256x2x128.ShapeCasts S256x1x256
  bcast_S1x1x128_S256x1x128_0_1_2 : S1x1x128.BroadcastsInDim S256x1x128 (![0, 1, 2] : Fin 3 → Fin S256x1x128.rank)
  bcast_S_S256x1x128 : S_.BroadcastsInDim S256x1x128 (![] : Fin 0 → Fin S256x1x128.rank)
  shapeCasts_S256x1x128_S256x128 : S256x1x128.ShapeCasts S256x128
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S256x2048x16_S128x16_S256x2048x128_2_1_01_0_n_n_wf : DotDims.WF S256x2048x16 S128x16 S256x2048x128 [2] [1] [0, 1] [0] [] []
  dot_S256x1024x256_S128x256_S256x1024x128_2_1_01_0_n_n_wf : DotDims.WF S256x1024x256 S128x256 S256x1024x128 [2] [1] [0, 1] [0] [] []
  dot_S256x512x256_S128x256_S256x512x128_2_1_01_0_n_n_wf : DotDims.WF S256x512x256 S128x256 S256x512x128 [2] [1] [0, 1] [0] [] []
  dot_S256x256x256_S128x256_S256x256x128_2_1_01_0_n_n_wf : DotDims.WF S256x256x256 S128x256 S256x256x128 [2] [1] [0, 1] [0] [] []
  dot_S256x128x256_S128x256_S256x128x128_2_1_01_0_n_n_wf : DotDims.WF S256x128x256 S128x256 S256x128x128 [2] [1] [0, 1] [0] [] []
  dot_S256x64x256_S128x256_S256x64x128_2_1_01_0_n_n_wf : DotDims.WF S256x64x256 S128x256 S256x64x128 [2] [1] [0, 1] [0] [] []
  dot_S256x32x256_S128x256_S256x32x128_2_1_01_0_n_n_wf : DotDims.WF S256x32x256 S128x256 S256x32x128 [2] [1] [0, 1] [0] [] []
  dot_S256x16x256_S128x256_S256x16x128_2_1_01_0_n_n_wf : DotDims.WF S256x16x256 S128x256 S256x16x128 [2] [1] [0, 1] [0] [] []
  dot_S256x8x256_S128x256_S256x8x128_2_1_01_0_n_n_wf : DotDims.WF S256x8x256 S128x256 S256x8x128 [2] [1] [0, 1] [0] [] []
  dot_S256x4x256_S128x256_S256x4x128_2_1_01_0_n_n_wf : DotDims.WF S256x4x256 S128x256 S256x4x128 [2] [1] [0, 1] [0] [] []
  dot_S256x2x256_S128x256_S256x2x128_2_1_01_0_n_n_wf : DotDims.WF S256x2x256 S128x256 S256x2x128 [2] [1] [0, 1] [0] [] []
  dot_S256x1x256_S128x256_S256x1x128_2_1_01_0_n_n_wf : DotDims.WF S256x1x256 S128x256 S256x1x128 [2] [1] [0, 1] [0] [] []
  dot_S256x128_S1x128_S256x1_1_1_0_0_n_n_wf : DotDims.WF S256x128 S1x128 S256x1 [1] [1] [0] [0] [] []

variable [Facts₀]

def dot_S256x2048x16_S128x16_S256x2048x128_2_1_01_0_n_n : DotDims S256x2048x16 S128x16 S256x2048x128 where
  lhsContracting := [2]
  rhsContracting := [1]
  lhsNonContracting := [0, 1]
  rhsNonContracting := [0]
  lhsBatch := []
  rhsBatch := []
  wf := dot_S256x2048x16_S128x16_S256x2048x128_2_1_01_0_n_n_wf
def dot_S256x1024x256_S128x256_S256x1024x128_2_1_01_0_n_n : DotDims S256x1024x256 S128x256 S256x1024x128 where
  lhsContracting := [2]
  rhsContracting := [1]
  lhsNonContracting := [0, 1]
  rhsNonContracting := [0]
  lhsBatch := []
  rhsBatch := []
  wf := dot_S256x1024x256_S128x256_S256x1024x128_2_1_01_0_n_n_wf
def dot_S256x512x256_S128x256_S256x512x128_2_1_01_0_n_n : DotDims S256x512x256 S128x256 S256x512x128 where
  lhsContracting := [2]
  rhsContracting := [1]
  lhsNonContracting := [0, 1]
  rhsNonContracting := [0]
  lhsBatch := []
  rhsBatch := []
  wf := dot_S256x512x256_S128x256_S256x512x128_2_1_01_0_n_n_wf
def dot_S256x256x256_S128x256_S256x256x128_2_1_01_0_n_n : DotDims S256x256x256 S128x256 S256x256x128 where
  lhsContracting := [2]
  rhsContracting := [1]
  lhsNonContracting := [0, 1]
  rhsNonContracting := [0]
  lhsBatch := []
  rhsBatch := []
  wf := dot_S256x256x256_S128x256_S256x256x128_2_1_01_0_n_n_wf
def dot_S256x128x256_S128x256_S256x128x128_2_1_01_0_n_n : DotDims S256x128x256 S128x256 S256x128x128 where
  lhsContracting := [2]
  rhsContracting := [1]
  lhsNonContracting := [0, 1]
  rhsNonContracting := [0]
  lhsBatch := []
  rhsBatch := []
  wf := dot_S256x128x256_S128x256_S256x128x128_2_1_01_0_n_n_wf
def dot_S256x64x256_S128x256_S256x64x128_2_1_01_0_n_n : DotDims S256x64x256 S128x256 S256x64x128 where
  lhsContracting := [2]
  rhsContracting := [1]
  lhsNonContracting := [0, 1]
  rhsNonContracting := [0]
  lhsBatch := []
  rhsBatch := []
  wf := dot_S256x64x256_S128x256_S256x64x128_2_1_01_0_n_n_wf
def dot_S256x32x256_S128x256_S256x32x128_2_1_01_0_n_n : DotDims S256x32x256 S128x256 S256x32x128 where
  lhsContracting := [2]
  rhsContracting := [1]
  lhsNonContracting := [0, 1]
  rhsNonContracting := [0]
  lhsBatch := []
  rhsBatch := []
  wf := dot_S256x32x256_S128x256_S256x32x128_2_1_01_0_n_n_wf
def dot_S256x16x256_S128x256_S256x16x128_2_1_01_0_n_n : DotDims S256x16x256 S128x256 S256x16x128 where
  lhsContracting := [2]
  rhsContracting := [1]
  lhsNonContracting := [0, 1]
  rhsNonContracting := [0]
  lhsBatch := []
  rhsBatch := []
  wf := dot_S256x16x256_S128x256_S256x16x128_2_1_01_0_n_n_wf
def dot_S256x8x256_S128x256_S256x8x128_2_1_01_0_n_n : DotDims S256x8x256 S128x256 S256x8x128 where
  lhsContracting := [2]
  rhsContracting := [1]
  lhsNonContracting := [0, 1]
  rhsNonContracting := [0]
  lhsBatch := []
  rhsBatch := []
  wf := dot_S256x8x256_S128x256_S256x8x128_2_1_01_0_n_n_wf
def dot_S256x4x256_S128x256_S256x4x128_2_1_01_0_n_n : DotDims S256x4x256 S128x256 S256x4x128 where
  lhsContracting := [2]
  rhsContracting := [1]
  lhsNonContracting := [0, 1]
  rhsNonContracting := [0]
  lhsBatch := []
  rhsBatch := []
  wf := dot_S256x4x256_S128x256_S256x4x128_2_1_01_0_n_n_wf
def dot_S256x2x256_S128x256_S256x2x128_2_1_01_0_n_n : DotDims S256x2x256 S128x256 S256x2x128 where
  lhsContracting := [2]
  rhsContracting := [1]
  lhsNonContracting := [0, 1]
  rhsNonContracting := [0]
  lhsBatch := []
  rhsBatch := []
  wf := dot_S256x2x256_S128x256_S256x2x128_2_1_01_0_n_n_wf
def dot_S256x1x256_S128x256_S256x1x128_2_1_01_0_n_n : DotDims S256x1x256 S128x256 S256x1x128 where
  lhsContracting := [2]
  rhsContracting := [1]
  lhsNonContracting := [0, 1]
  rhsNonContracting := [0]
  lhsBatch := []
  rhsBatch := []
  wf := dot_S256x1x256_S128x256_S256x1x128_2_1_01_0_n_n_wf
def dot_S256x128_S1x128_S256x1_1_1_0_0_n_n : DotDims S256x128 S1x128 S256x1 where
  lhsContracting := [1]
  rhsContracting := [1]
  lhsNonContracting := [0]
  rhsNonContracting := [0]
  lhsBatch := []
  rhsBatch := []
  wf := dot_S256x128_S1x128_S256x1_1_1_0_0_n_n_wf

class Facts : Prop extends Facts₀ where

variable [Facts]
-- ==== Proof.TreeRun.lean ====
/-
  The idealized kernel's run with its result named.

  Every weakly fair execution of the program ends, nothing faulting, with the result buffer holding what the last
  of the thirteen launches left in its output array — the contents the chain of segment boundaries assigns to it —
  and with the seven argument arrays as launched. The boundary contents are a fold through the program: a stretch of
  host operations applies its operations to the contents before it, and a launch replaces its arrays by what its
  write-backs leave.
-/
import proofs.«117629_j40149354283017_1_alg».proof.Proof.Gen.KernelIdeal.Frame

set_option maxRecDepth 16384

noncomputable section

namespace Cert.KernelIdeal.TreeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v43) = W26 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v43 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c)⟩)

end Cert.KernelIdeal.TreeRun

end
-- ==== Proof.TreeSpec.lean ====
/-
  A tree of dense layers, entry by entry, over tables indexed by natural numbers.

  A table is a function of a row and a column. One dense layer sends a table X with K columns, a weight table W
  (indexed by output column, then shared coordinate) and a bias b to the table whose entry (r, d) is
  act (sum over k < K of X r k * W d k, plus b d). Pairing a table of 128 columns puts rows 2r and 2r+1 side by side
  as one row of 256 columns: this is what a row-major regrouping of [.., 2n, 128] as [.., n, 256] does. The tree is
  the embedding layer followed by eleven rounds of pair-then-layer, and a last layer without the rectifier.
  Arrays of rank 1, 2, 3 are read as tables by their coordinates.
-/
import Idealize.ShloMosaic.Lib.ValueIdx
import Idealize.ShloMosaic.PureOps.Ideal.Laws

noncomputable section

open scoped BigOperators

namespace Cert.TreeSpec

open Idealize.ShloMosaic

/-- One dense layer: entry (r, d) is `act` of the sum over the `K` shared coordinates of `X r k * W d k`, plus `b d`. -/
def layer (act : EReal → EReal) (K : ℕ) (X W : ℕ → ℕ → EReal) (b : ℕ → EReal) : ℕ → ℕ → EReal :=
  fun r d => act ((∑ k : Fin K, X r k.val * W d k.val) + b d)

/-- Rows 2r and 2r+1 of a table of 128 columns, side by side as row r of a table of 256 columns. -/
def pair (Y : ℕ → ℕ → EReal) : ℕ → ℕ → EReal := fun r k => Y (2 * r + k / 128) (k % 128)

/-- The rectifier's floor: the value of the f32 zero word. -/
def floor0 : EReal := Ideal.ofBits .f32 0x00000000#32

/-- The rectifier. -/
def relu (y : EReal) : EReal := max y floor0

/-- The table after the embedding layer (level 0) and after each further round of pairing and combining. -/
def level (L0 We : ℕ → ℕ → EReal) (be : ℕ → EReal) (Wc : ℕ → ℕ → EReal) (bc : ℕ → EReal) : ℕ → ℕ → ℕ → EReal
  | 0 => layer relu 16 L0 We be
  | l + 1 => layer relu 256 (pair (level L0 We be Wc bc l)) Wc bc

/-- The tree's result: the last level's one row per tree, projected without the rectifier. -/
def root (L0 We : ℕ → ℕ → EReal) (be : ℕ → EReal) (Wc : ℕ → ℕ → EReal) (bc : ℕ → EReal) (Wp : ℕ → ℕ → EReal) (bp : ℕ → EReal) :
    ℕ → ℕ → EReal :=
  layer id 128 (level L0 We be Wc bc 11) Wp bp

/-- A rank-1 array as a table of one index (zero outside its extent). -/
def tab1 {A : ℕ} (x : (⟨1, ![A]⟩ : Shape).Idx → EReal) (a : ℕ) : EReal :=
  if h : a < A then x (fun ax => match ax with | ⟨0, _⟩ => ⟨a, h⟩) else 0

/-- A rank-2 array as a table (zero outside its extents). -/
def tab2 {A B : ℕ} (x : (⟨2, ![A, B]⟩ : Shape).Idx → EReal) (a b : ℕ) : EReal :=
  if h : a < A ∧ b < B then x (fun ax => match ax with | ⟨0, _⟩ => ⟨a, h.1⟩ | ⟨1, _⟩ => ⟨b, h.2⟩) else 0

/-- A rank-3 array as a table of three indices (zero outside its extents). -/
def tab3 {A B C : ℕ} (x : (⟨3, ![A, B, C]⟩ : Shape).Idx → EReal) (a b c : ℕ) : EReal :=
  if h : a < A ∧ b < B ∧ c < C then x (fun ax => match ax with | ⟨0, _⟩ => ⟨a, h.1⟩ | ⟨1, _⟩ => ⟨b, h.2.1⟩ | ⟨2, _⟩ => ⟨c, h.2.2⟩) else 0

theorem tab1_apply {A : ℕ} (x : (⟨1, ![A]⟩ : Shape).Idx → EReal) (i : (⟨1, ![A]⟩ : Shape).Idx) (a : ℕ) (ha : (i 0).val = a) :
    tab1 x a = x i := by
  subst ha
  unfold tab1
  rw [dif_pos (show (i 0).val < A from (i 0).isLt)]
  exact congrArg x (funext fun ax => match ax with | ⟨0, _⟩ => rfl)

theorem tab2_apply {A B : ℕ} (x : (⟨2, ![A, B]⟩ : Shape).Idx → EReal) (i : (⟨2, ![A, B]⟩ : Shape).Idx) (a b : ℕ)
    (ha : (i 0).val = a) (hb : (i 1).val = b) : tab2 x a b = x i := by
  subst ha; subst hb
  unfold tab2
  rw [dif_pos (show (i 0).val < A ∧ (i 1).val < B from ⟨(i 0).isLt, (i 1).isLt⟩)]
  exact congrArg x (funext fun ax => match ax with | ⟨0, _⟩ => rfl | ⟨1, _⟩ => rfl)

theorem tab3_apply {A B C : ℕ} (x : (⟨3, ![A, B, C]⟩ : Shape).Idx → EReal) (i : (⟨3, ![A, B, C]⟩ : Shape).Idx) (a b c : ℕ)
    (ha : (i 0).val = a) (hb : (i 1).val = b) (hc : (i 2).val = c) : tab3 x a b c = x i := by
  subst ha; subst hb; subst hc
  unfold tab3
  rw [dif_pos (show (i 0).val < A ∧ (i 1).val < B ∧ (i 2).val < C from ⟨(i 0).isLt, (i 1).isLt, (i 2).isLt⟩)]
  exact congrArg x (funext fun ax => match ax with | ⟨0, _⟩ => rfl | ⟨1, _⟩ => rfl | ⟨2, _⟩ => rfl)

/-- The embedding's input table: row `b * 2048 + n` is leaf `n` of tree `b`. -/
def leafTable (leaves : (⟨3, ![256, 2048, 16]⟩ : Shape).Idx → EReal) : ℕ → ℕ → EReal :=
  fun r k => tab3 leaves (r / 2048) (r % 2048) k

end Cert.TreeSpec

end
-- ==== Proof.LibPlainDot.lean ====
/-
  Indices of a plain matrix product, built from an output index and a shared coordinate.

  For an M×K matrix times a K×N matrix, entry (r, c) of the product is the sum over k of l (r, k) · r (k, c).
  `lhsAt i k` is the left operand's index (i 0, k), `rhsAt i k` the right operand's (k, i 1), and `rowAt i` is
  (0, i 1): where a one-row matrix added to every row is read.
-/
import Idealize.ShloMosaic.Lib.ValueIdx

namespace Idealize.ShloMosaic.PlainDot

open Idealize.ShloMosaic

/-- The left operand's index for output index `i` and shared coordinate `k`: (i 0, k). -/
abbrev lhsAt {M K N : Nat} (i : (⟨2, ![M, N]⟩ : Shape).Idx) (k : Fin K) : (⟨2, ![M, K]⟩ : Shape).Idx :=
  fun a => match a with
  | ⟨0, _⟩ => ⟨(i 0).val, (i 0).isLt⟩
  | ⟨1, _⟩ => ⟨k.val, k.isLt⟩

/-- The right operand's index: (k, i 1). -/
abbrev rhsAt {M K N : Nat} (i : (⟨2, ![M, N]⟩ : Shape).Idx) (k : Fin K) : (⟨2, ![K, N]⟩ : Shape).Idx :=
  fun a => match a with
  | ⟨0, _⟩ => ⟨k.val, k.isLt⟩
  | ⟨1, _⟩ => ⟨(i 1).val, (i 1).isLt⟩

/-- Column `i 1` of a one-row matrix: (0, i 1). -/
abbrev rowAt {M N : Nat} (i : (⟨2, ![M, N]⟩ : Shape).Idx) : (⟨2, ![1, N]⟩ : Shape).Idx :=
  fun a => match a with
  | ⟨0, _⟩ => ⟨0, Nat.one_pos⟩
  | ⟨1, _⟩ => ⟨(i 1).val, (i 1).isLt⟩

end Idealize.ShloMosaic.PlainDot
-- ==== Proof.LibRowForms.lean ====
/-
  Rows, columns and a plain matrix product, read at an index.

  A column is an [a, 1] array and a row a [1, b] array. Scaling every row of a matrix by its own factor
  multiplies entry (p, q) by the column's entry (p, 0); adding one row to every row adds the row's entry (0, q).
  A product of an M×K by a K×N matrix has, at (r, c), the sum over k of l (r, k) · r (k, c), whatever record
  spells the contraction, provided the record's operand indices have those coordinates.
-/
import Idealize.ShloMosaic.Lib.ValueIdx
import Idealize.ShloMosaic.Lib.ValueLayout
import Idealize.ShloMosaic.Lib.Pipeline.Value
import Idealize.ShloMosaic.PureOps.Ideal.Laws
import proofs.«117629_j40149354283017_1_alg».proof.Proof.LibPlainDot

noncomputable section

open scoped BigOperators

namespace Idealize.ShloMosaic.PlainDot

open Idealize.ShloMosaic Idealize.ShloMosaic.ValueIdx

variable {α : Type}

/-- Row `i 0` of a one-column matrix: (i 0, 0). -/
abbrev colAt {M N : Nat} (i : (⟨2, ![M, N]⟩ : Shape).Idx) : (⟨2, ![M, 1]⟩ : Shape).Idx :=
  fun a => match a with
  | ⟨0, _⟩ => ⟨(i 0).val, (i 0).isLt⟩
  | ⟨1, _⟩ => ⟨0, Nat.one_pos⟩

/-- An [a, 1] column broadcast to [a, b] reads, at `j`, the column's entry in `j`'s row. -/
theorem broadcastTo_col_apply {a b : ℕ} (v : (⟨2, ![a, 1]⟩ : Shape).Idx → α) (h : (⟨2, ![a, 1]⟩ : Shape).Broadcasts ⟨2, ![a, b]⟩)
    (j : (⟨2, ![a, b]⟩ : Shape).Idx) : broadcastTo ⟨2, ![a, b]⟩ v h j = v (colAt j) := by
  refine broadcastTo_apply v h j (colAt j) fun ax => ?_
  match ax with
  | ⟨0, _⟩ =>
    show (j 0).val = if a = 1 then 0 else (j 0).val
    split
    · have := (j 0).isLt
      have h0 : (j 0).val < a := this
      omega
    · rfl
  | ⟨1, _⟩ => rfl

/-- A [1, b] row broadcast to [a, b] reads, at `j`, the row's entry in `j`'s column. -/
theorem broadcastTo_row_apply {a b : ℕ} (v : (⟨2, ![1, b]⟩ : Shape).Idx → α) (h : (⟨2, ![1, b]⟩ : Shape).Broadcasts ⟨2, ![a, b]⟩)
    (j : (⟨2, ![a, b]⟩ : Shape).Idx) : broadcastTo ⟨2, ![a, b]⟩ v h j = v (rowAt j) := by
  refine broadcastTo_apply v h j (rowAt j) fun ax => ?_
  match ax with
  | ⟨0, _⟩ => rfl
  | ⟨1, _⟩ =>
    show (j 1).val = if b = 1 then 0 else (j 1).val
    split
    · have := (j 1).isLt
      have h1 : (j 1).val < b := this
      omega
    · rfl

/-- An [a] vector cast to an [a, 1] column reads, at `j`, the vector at `j`'s row. -/
theorem shapeCast_keepdims_apply {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 ⟨(j 0).val, (j 0).isLt⟩) :=
  shapeCast_apply x h _ _ (by
    rw [Shape.rowMajor_val_two, Shape.rowMajor_val_one]
    have h1 : (j 1).val < 1 := (j 1).isLt
    show (j 0).val = (j 0).val * 1 + (j 1).val
    omega)

/-- The sum a plain product contracts over, re-indexed by the shared coordinate: for a record `D` whose one contracted
    axis has extent `K` and whose operand indices at output index `i` and contraction index `q` are (i 0, q) and (q, i 1). -/
theorem sum_contr_eq {M K N : ℕ} (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (l : (⟨2, ![M, K]⟩ : Shape).Idx → EReal) (r : (⟨2, ![K, N]⟩ : Shape).Idx → EReal) (i : (⟨2, ![M, N]⟩ : Shape).Idx) :
    ∑ q : D.contr.Idx, l (D.lhsIdx i q) * r (D.rhsIdx i q) = ∑ k : Fin K, l (lhsAt i k) * r (rhsAt i k) := by
  rw [← Equiv.sum_comp (contrEquiv1 D K hr hs).symm]
  refine Finset.sum_congr rfl fun k _ => ?_
  have hk := contrEquiv1_symm_val D K hr hs k
  have el : D.lhsIdx i ((contrEquiv1 D K hr hs).symm k) = lhsAt i k := funext fun a => Fin.ext (by
    match a with
    | ⟨0, _⟩ => exact hl0 _ _
    | ⟨1, _⟩ => exact (hl1 _ _).trans hk)
  have er : D.rhsIdx i ((contrEquiv1 D K hr hs).symm k) = rhsAt i k := funext fun a => Fin.ext (by
    match a with
    | ⟨0, _⟩ => exact (hr0 _ _).trans hk
    | ⟨1, _⟩ => exact hr1 _ _)
  rw [el, er]

/-! ## The host's `broadcast_in_dim` of a column, a row and a vector -/

/-- An [a, 1] column placed on both axes of [a, b] reads, at `j`, the column's entry in `j`'s row. -/
theorem broadcastInDim_col_apply {a b : ℕ} (h : (⟨2, ![a, 1]⟩ : Shape).BroadcastsInDim ⟨2, ![a, b]⟩ ![0, 1])
    (v : (⟨2, ![a, 1]⟩ : Shape).Idx → α) (j : (⟨2, ![a, b]⟩ : Shape).Idx) :
    broadcastInDim ⟨2, ![a, b]⟩ ![0, 1] h v j = v (colAt j) := by
  refine broadcastInDim_apply _ h v j (colAt j) fun ax => ?_
  match ax with
  | ⟨0, _⟩ =>
    show (j 0).val = if a = 1 then 0 else (j 0).val
    split
    · have h0 : (j 0).val < a := (j 0).isLt
      omega
    · rfl
  | ⟨1, _⟩ =>
    show 0 = if (1 : Nat) = 1 then 0 else (j 1).val
    rw [if_pos rfl]

/-- A [1, b] row placed on both axes of [a, b] reads, at `j`, the row's entry in `j`'s column. -/
theorem broadcastInDim_row_apply {a b : ℕ} (h : (⟨2, ![1, b]⟩ : Shape).BroadcastsInDim ⟨2, ![a, b]⟩ ![0, 1])
    (v : (⟨2, ![1, b]⟩ : Shape).Idx → α) (j : (⟨2, ![a, b]⟩ : Shape).Idx) :
    broadcastInDim ⟨2, ![a, b]⟩ ![0, 1] h v j = v (rowAt j) := by
  refine broadcastInDim_apply _ h v j (rowAt j) fun ax => ?_
  match ax with
  | ⟨0, _⟩ =>
    show 0 = if (1 : Nat) = 1 then 0 else (j 0).val
    rw [if_pos rfl]
  | ⟨1, _⟩ =>
    show (j 1).val = if b = 1 then 0 else (j 1).val
    split
    · have h1 : (j 1).val < b := (j 1).isLt
      omega
    · rfl

/-- An [a] vector placed on axis 0 of an [a, 1] column reads, at `j`, the vector at `j`'s row. -/
theorem broadcastInDim_keepdims_apply {a : ℕ} (h : (⟨1, ![a]⟩ : Shape).BroadcastsInDim ⟨2, ![a, 1]⟩ ![0])
    (v : (⟨1, ![a]⟩ : Shape).Idx → α) (j : (⟨2, ![a, 1]⟩ : Shape).Idx) :
    broadcastInDim ⟨2, ![a, 1]⟩ ![0] h v j = v (ix1 ⟨(j 0).val, (j 0).isLt⟩) := by
  refine broadcastInDim_apply _ h v j (ix1 ⟨(j 0).val, (j 0).isLt⟩) fun ax => ?_
  match ax with
  | ⟨0, _⟩ =>
    show (j 0).val = if a = 1 then 0 else (j 0).val
    split
    · have h0 : (j 0).val < a := (j 0).isLt
      omega
    · rfl

/-- A [b] vector placed on axis 1 of a [1, b] row reads, at `j`, the vector at `j`'s column. -/
theorem broadcastInDim_rowvec_apply {b : ℕ} (h : (⟨1, ![b]⟩ : Shape).BroadcastsInDim ⟨2, ![1, b]⟩ ![1])
    (v : (⟨1, ![b]⟩ : Shape).Idx → α) (j : (⟨2, ![1, b]⟩ : Shape).Idx) :
    broadcastInDim ⟨2, ![1, b]⟩ ![1] h v j = v (ix1 ⟨(j 1).val, (j 1).isLt⟩) := by
  refine broadcastInDim_apply _ h v j (ix1 ⟨(j 1).val, (j 1).isLt⟩) fun ax => ?_
  match ax with
  | ⟨0, _⟩ =>
    show (j 1).val = if b = 1 then 0 else (j 1).val
    split
    · have h1 : (j 1).val < b := (j 1).isLt
      omega
    · rfl

/-- A [b] vector cast to a [1, b] row reads, at `j`, the vector at `j`'s column. -/
theorem shapeCast_rowvec_apply {b : ℕ} (x : (⟨1, ![b]⟩ : Shape).Idx → α) (h : (⟨1, ![b]⟩ : Shape).ShapeCasts ⟨2, ![1, b]⟩)
    (j : (⟨2, ![1, b]⟩ : Shape).Idx) : shapeCast ⟨2, ![1, b]⟩ x h j = x (ix1 ⟨(j 1).val, (j 1).isLt⟩) :=
  shapeCast_apply x h _ _ (by
    rw [Shape.rowMajor_val_two, Shape.rowMajor_val_one]
    have h0 : (j 0).val < 1 := (j 0).isLt
    show (j 1).val = (j 0).val * b + (j 1).val
    have : (j 0).val = 0 := by omega
    rw [this, Nat.zero_mul, Nat.zero_add])

/-! ## Three layer shapes, entry by entry -/

/-- Rows scaled by a column, then a matrix product: entry (r, c) is the sum over k of (X (r, k) · s (r, 0)) · W (k, c). -/
def scaleDot {M K N : ℕ} (X : (⟨2, ![M, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (X (lhsAt i k) * s (colAt i)) * W (rhsAt i k)

/-- One activated entry: the aggregate scaled by its row's factor, plus the bias of its column, floored at `z`. -/
def actAt {M K : ℕ} (z : EReal) (A : (⟨2, ![M, K]⟩ : Shape).Idx → EReal) (d : (⟨2, ![M, 1]⟩ : Shape).Idx → EReal)
    (b : (⟨2, ![1, K]⟩ : Shape).Idx → EReal) (i : (⟨2, ![M, K]⟩ : Shape).Idx) : EReal :=
  max (A i * d (colAt i) + b (rowAt i)) z

/-- Activated rows scaled by a second column, then a matrix product. -/
def actScaleDot {M K N : ℕ} (z : EReal) (A : (⟨2, ![M, K]⟩ : Shape).Idx → EReal) (d : (⟨2, ![M, 1]⟩ : Shape).Idx → EReal)
    (b : (⟨2, ![1, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (actAt z A d b (lhsAt i k) * s (colAt i)) * W (rhsAt i k)

/-- Activated rows times a matrix, plus one row added to every row. -/
def actDotBias {M K N : ℕ} (z : EReal) (A : (⟨2, ![M, K]⟩ : Shape).Idx → EReal) (d : (⟨2, ![M, 1]⟩ : Shape).Idx → EReal)
    (b : (⟨2, ![1, K]⟩ : Shape).Idx → EReal) (W : (⟨2, ![K, N]⟩ : Shape).Idx → EReal)
    (o : (⟨2, ![1, N]⟩ : Shape).Idx → EReal) : (⟨2, ![M, N]⟩ : Shape).Idx → EReal :=
  fun i => (∑ k : Fin K, actAt z A d b (lhsAt i k) * W (rhsAt i k)) + o (rowAt i)

end Idealize.ShloMosaic.PlainDot

end
-- ==== Proof.DenseBody.lean ====
/-
  The body of each of the thirteen launches, read at an index.

  Every body loads a block of rows X, a weight matrix W and a one-row bias b, forms the matrix product of X and W into a
  zero accumulator, adds the bias to every row and (all launches but the last) takes the maximum with zero. At the
  extended reals the accumulator contributes nothing, so entry (r, d) of what the body stores is the sum over the
  shared coordinate k of X (r, k) · W (k, d), plus b (0, d), floored at zero where the rectifier is applied.
-/
import proofs.«117629_j40149354283017_1_alg».proof.Proof.Gen.KernelIdeal.Skeleton
import proofs.«117629_j40149354283017_1_alg».proof.Proof.TreeSpec
import proofs.«117629_j40149354283017_1_alg».proof.Proof.LibRowForms
import Idealize.ShloMosaic.Lib.ValueIdx
import Idealize.ShloMosaic.Lib.Pipeline.Value
import Idealize.ShloMosaic.PureOps.Ideal.Laws

noncomputable section

open scoped BigOperators

namespace Cert.KernelIdeal.DenseBody

open Idealize.ShloMosaic Idealize.ShloMosaic.PlainDot Idealize.ShloMosaic.ValueIdx Cert.KernelIdeal Cert.KernelIdeal.Gen Cert.TreeSpec

/-- The product's left operand is read in the output's row. -/
theorem d4096x16_l0 (i : S4096x128.Idx) (q : dot_S4096x16_S16x128_S4096x128_1_0_0_1_n_n.contr.Idx) : (dot_S4096x16_S16x128_S4096x128_1_0_0_1_n_n.lhsIdx i q 0).val = (i 0).val := by
  unfold DotDims.lhsIdx
  rw [dif_neg (show ¬(0 : Fin S4096x16.rank) ∈ dot_S4096x16_S16x128_S4096x128_1_0_0_1_n_n.lhsBatch by decide), dif_pos (show (0 : Fin S4096x16.rank) ∈ dot_S4096x16_S16x128_S4096x128_1_0_0_1_n_n.lhsNonContracting by decide)]
  rfl
/-- The product's right operand is read in the output's column. -/
theorem d4096x16_r1 (i : S4096x128.Idx) (q : dot_S4096x16_S16x128_S4096x128_1_0_0_1_n_n.contr.Idx) : (dot_S4096x16_S16x128_S4096x128_1_0_0_1_n_n.rhsIdx i q 1).val = (i 1).val := by
  unfold DotDims.rhsIdx
  rw [dif_neg (show ¬(1 : Fin S16x128.rank) ∈ dot_S4096x16_S16x128_S4096x128_1_0_0_1_n_n.rhsBatch by decide), dif_pos (show (1 : Fin S16x128.rank) ∈ dot_S4096x16_S16x128_S4096x128_1_0_0_1_n_n.rhsNonContracting by decide)]
  rfl

/-- The product's left operand is read in the output's row. -/
theorem d4096x256_l0 (i : S4096x128.Idx) (q : dot_S4096x256_S256x128_S4096x128_1_0_0_1_n_n.contr.Idx) : (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
/-- The product's right operand is read in the output's column. -/
theorem d4096x256_r1 (i : S4096x128.Idx) (q : dot_S4096x256_S256x128_S4096x128_1_0_0_1_n_n.contr.Idx) : (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The product's left operand is read in the output's row. -/
theorem d2048x256_l0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- The product's right operand is read in the output's column. -/
theorem d2048x256_r1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product's left operand is read in the output's row. -/
theorem d1024x256_l0 (i : S1024x128.Idx) (q : dot_S1024x256_S256x128_S1024x128_1_0_0_1_n_n.contr.Idx) : (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
/-- The product's right operand is read in the output's column. -/
theorem d1024x256_r1 (i : S1024x128.Idx) (q : dot_S1024x256_S256x128_S1024x128_1_0_0_1_n_n.contr.Idx) : (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The product's left operand is read in the output's row. -/
theorem d512x256_l0 (i : S512x128.Idx) (q : dot_S512x256_S256x128_S512x128_1_0_0_1_n_n.contr.Idx) : (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
/-- The product's right operand is read in the output's column. -/
theorem d512x256_r1 (i : S512x128.Idx) (q : dot_S512x256_S256x128_S512x128_1_0_0_1_n_n.contr.Idx) : (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- The product's left operand is read in the output's row. -/
theorem d256x256_l0 (i : S256x128.Idx) (q : dot_S256x256_S256x128_S256x128_1_0_0_1_n_n.contr.Idx) : (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
/-- The product's right operand is read in the output's column. -/
theorem d256x256_r1 (i : S256x128.Idx) (q : dot_S256x256_S256x128_S256x128_1_0_0_1_n_n.contr.Idx) : (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- The product's left operand is read in the output's row. -/
theorem d256x128_l0 (i : S256x1.Idx) (q : dot_S256x128_S128x1_S256x1_1_0_0_1_n_n.contr.Idx) : (dot_S256x128_S128x1_S256x1_1_0_0_1_n_n.lhsIdx i q 0).val = (i 0).val := by
  unfold DotDims.lhsIdx
  rw [dif_neg (show ¬(0 : Fin S256x128.rank) ∈ dot_S256x128_S128x1_S256x1_1_0_0_1_n_n.lhsBatch by decide), dif_pos (show (0 : Fin S256x128.rank) ∈ dot_S256x128_S128x1_S256x1_1_0_0_1_n_n.lhsNonContracting by decide)]
  rfl
/-- The product's right operand is read in the output's column. -/
theorem d256x128_r1 (i : S256x1.Idx) (q : dot_S256x128_S128x1_S256x1_1_0_0_1_n_n.contr.Idx) : (dot_S256x128_S128x1_S256x1_1_0_0_1_n_n.rhsIdx i q 1).val = (i 1).val := by
  unfold DotDims.rhsIdx
  rw [dif_neg (show ¬(1 : Fin S128x1.rank) ∈ dot_S256x128_S128x1_S256x1_1_0_0_1_n_n.rhsBatch by decide), dif_pos (show (1 : Fin S128x1.rank) ∈ dot_S256x128_S128x1_S256x1_1_0_0_1_n_n.rhsNonContracting by decide)]
  rfl

/-- Launch 0's stored value at (r, d): the rectifier of the sum over k of X (r, k) · W (k, d), plus b (0, d). -/
theorem pay0_apply (v0 : Vec Ideal S4096x16 .f32) (v2 : Vec Ideal S16x128 .f32) (v5 : Vec Ideal S1x128 .f32) (j : S4096x128.Idx) :
    k0_pay1 (F := Ideal) v0 v2 v5 j = relu ((∑ k : Fin 16, v0 (lhsAt j k) * v2 (rhsAt j k)) + v5 (rowAt j)) := by
  unfold k0_pay1
  rw [shapeCast_self, shapeCast_self, shapeCast_self]
  show max (FloatOps.matmul (F := Ideal) dot_S4096x16_S16x128_S4096x128_1_0_0_1_n_n none v0 v2 (constant (F := Ideal) S4096x128 .f32 0x00000000#32) j
      + broadcastTo S4096x128 v5 broadcasts_S1x128_S4096x128 j) (Ideal.ofBits .f32 0x00000000#32) = _
  rw [Ideal.matmul_constant_zero_apply, broadcastTo_row_apply]
  rw [sum_contr_eq dot_S4096x16_S16x128_S4096x128_1_0_0_1_n_n rfl rfl d4096x16_l0 (fun i q => dot_S4096x16_S16x128_S4096x128_1_0_0_1_n_n.lhsIdx_val_of_single rfl i q)
    (fun i q => dot_S4096x16_S16x128_S4096x128_1_0_0_1_n_n.rhsIdx_val_of_single rfl i q) d4096x16_r1]
  rfl

/-- Launch 1's stored value at (r, d): the rectifier of the sum over k of X (r, k) · W (k, d), plus b (0, d). -/
theorem pay1_apply (v0 : Vec Ideal S4096x256 .f32) (v2 : Vec Ideal S256x128 .f32) (v5 : Vec Ideal S1x128 .f32) (j : S4096x128.Idx) :
    k1_pay1 (F := Ideal) v0 v2 v5 j = relu ((∑ k : Fin 256, v0 (lhsAt j k) * v2 (rhsAt j k)) + v5 (rowAt j)) := by
  unfold k1_pay1
  rw [shapeCast_self, shapeCast_self, shapeCast_self]
  show max (FloatOps.matmul (F := Ideal) dot_S4096x256_S256x128_S4096x128_1_0_0_1_n_n none v0 v2 (constant (F := Ideal) S4096x128 .f32 0x00000000#32) j
      + broadcastTo S4096x128 v5 broadcasts_S1x128_S4096x128 j) (Ideal.ofBits .f32 0x00000000#32) = _
  rw [Ideal.matmul_constant_zero_apply, broadcastTo_row_apply]
  rw [sum_contr_eq dot_S4096x256_S256x128_S4096x128_1_0_0_1_n_n rfl rfl d4096x256_l0 (fun i q => dot_S4096x256_S256x128_S4096x128_1_0_0_1_n_n.lhsIdx_val_of_single rfl i q)
    (fun i q => dot_S4096x256_S256x128_S4096x128_1_0_0_1_n_n.rhsIdx_val_of_single rfl i q) d4096x256_r1]
  rfl

/-- Launch 2's stored value at (r, d): the rectifier of the sum over k of X (r, k) · W (k, d), plus b (0, d). -/
theorem pay2_apply (v0 : Vec Ideal S4096x256 .f32) (v2 : Vec Ideal S256x128 .f32) (v5 : Vec Ideal S1x128 .f32) (j : S4096x128.Idx) :
    k2_pay1 (F := Ideal) v0 v2 v5 j = relu ((∑ k : Fin 256, v0 (lhsAt j k) * v2 (rhsAt j k)) + v5 (rowAt j)) := by
  unfold k2_pay1
  rw [shapeCast_self, shapeCast_self, shapeCast_self]
  show max (FloatOps.matmul (F := Ideal) dot_S4096x256_S256x128_S4096x128_1_0_0_1_n_n none v0 v2 (constant (F := Ideal) S4096x128 .f32 0x00000000#32) j
      + broadcastTo S4096x128 v5 broadcasts_S1x128_S4096x128 j) (Ideal.ofBits .f32 0x00000000#32) = _
  rw [Ideal.matmul_constant_zero_apply, broadcastTo_row_apply]
  rw [sum_contr_eq dot_S4096x256_S256x128_S4096x128_1_0_0_1_n_n rfl rfl d4096x256_l0 (fun i q => dot_S4096x256_S256x128_S4096x128_1_0_0_1_n_n.lhsIdx_val_of_single rfl i q)
    (fun i q => dot_S4096x256_S256x128_S4096x128_1_0_0_1_n_n.rhsIdx_val_of_single rfl i q) d4096x256_r1]
  rfl

/-- Launch 3's stored value at (r, d): the rectifier of the sum over k of X (r, k) · W (k, d), plus b (0, d). -/
theorem pay3_apply (v0 : Vec Ideal S4096x256 .f32) (v2 : Vec Ideal S256x128 .f32) (v5 : Vec Ideal S1x128 .f32) (j : S4096x128.Idx) :
    k3_pay1 (F := Ideal) v0 v2 v5 j = relu ((∑ k : Fin 256, v0 (lhsAt j k) * v2 (rhsAt j k)) + v5 (rowAt j)) := by
  unfold k3_pay1
  rw [shapeCast_self, shapeCast_self, shapeCast_self]
  show max (FloatOps.matmul (F := Ideal) dot_S4096x256_S256x128_S4096x128_1_0_0_1_n_n none v0 v2 (constant (F := Ideal) S4096x128 .f32 0x00000000#32) j
      + broadcastTo S4096x128 v5 broadcasts_S1x128_S4096x128 j) (Ideal.ofBits .f32 0x00000000#32) = _
  rw [Ideal.matmul_constant_zero_apply, broadcastTo_row_apply]
  rw [sum_contr_eq dot_S4096x256_S256x128_S4096x128_1_0_0_1_n_n rfl rfl d4096x256_l0 (fun i q => dot_S4096x256_S256x128_S4096x128_1_0_0_1_n_n.lhsIdx_val_of_single rfl i q)
    (fun i q => dot_S4096x256_S256x128_S4096x128_1_0_0_1_n_n.rhsIdx_val_of_single rfl i q) d4096x256_r1]
  rfl

/-- Launch 4's stored value at (r, d): the rectifier of the sum over k of X (r, k) · W (k, d), plus b (0, d). -/
theorem pay4_apply (v0 : Vec Ideal S4096x256 .f32) (v2 : Vec Ideal S256x128 .f32) (v5 : Vec Ideal S1x128 .f32) (j : S4096x128.Idx) :
    k4_pay1 (F := Ideal) v0 v2 v5 j = relu ((∑ k : Fin 256, v0 (lhsAt j k) * v2 (rhsAt j k)) + v5 (rowAt j)) := by
  unfold k4_pay1
  rw [shapeCast_self, shapeCast_self, shapeCast_self]
  show max (FloatOps.matmul (F := Ideal) dot_S4096x256_S256x128_S4096x128_1_0_0_1_n_n none v0 v2 (constant (F := Ideal) S4096x128 .f32 0x00000000#32) j
      + broadcastTo S4096x128 v5 broadcasts_S1x128_S4096x128 j) (Ideal.ofBits .f32 0x00000000#32) = _
  rw [Ideal.matmul_constant_zero_apply, broadcastTo_row_apply]
  rw [sum_contr_eq dot_S4096x256_S256x128_S4096x128_1_0_0_1_n_n rfl rfl d4096x256_l0 (fun i q => dot_S4096x256_S256x128_S4096x128_1_0_0_1_n_n.lhsIdx_val_of_single rfl i q)
    (fun i q => dot_S4096x256_S256x128_S4096x128_1_0_0_1_n_n.rhsIdx_val_of_single rfl i q) d4096x256_r1]
  rfl

/-- Launch 5's stored value at (r, d): the rectifier of the sum over k of X (r, k) · W (k, d), plus b (0, d). -/
theorem pay5_apply (v0 : Vec Ideal S4096x256 .f32) (v2 : Vec Ideal S256x128 .f32) (v5 : Vec Ideal S1x128 .f32) (j : S4096x128.Idx) :
    k5_pay1 (F := Ideal) v0 v2 v5 j = relu ((∑ k : Fin 256, v0 (lhsAt j k) * v2 (rhsAt j k)) + v5 (rowAt j)) := by
  unfold k5_pay1
  rw [shapeCast_self, shapeCast_self, shapeCast_self]
  show max (FloatOps.matmul (F := Ideal) dot_S4096x256_S256x128_S4096x128_1_0_0_1_n_n none v0 v2 (constant (F := Ideal) S4096x128 .f32 0x00000000#32) j
      + broadcastTo S4096x128 v5 broadcasts_S1x128_S4096x128 j) (Ideal.ofBits .f32 0x00000000#32) = _
  rw [Ideal.matmul_constant_zero_apply, broadcastTo_row_apply]
  rw [sum_contr_eq dot_S4096x256_S256x128_S4096x128_1_0_0_1_n_n rfl rfl d4096x256_l0 (fun i q => dot_S4096x256_S256x128_S4096x128_1_0_0_1_n_n.lhsIdx_val_of_single rfl i q)
    (fun i q => dot_S4096x256_S256x128_S4096x128_1_0_0_1_n_n.rhsIdx_val_of_single rfl i q) d4096x256_r1]
  rfl

/-- Launch 6's stored value at (r, d): the rectifier of the sum over k of X (r, k) · W (k, d), plus b (0, d). -/
theorem pay6_apply (v0 : Vec Ideal S4096x256 .f32) (v2 : Vec Ideal S256x128 .f32) (v5 : Vec Ideal S1x128 .f32) (j : S4096x128.Idx) :
    k6_pay1 (F := Ideal) v0 v2 v5 j = relu ((∑ k : Fin 256, v0 (lhsAt j k) * v2 (rhsAt j k)) + v5 (rowAt j)) := by
  unfold k6_pay1
  rw [shapeCast_self, shapeCast_self, shapeCast_self]
  show max (FloatOps.matmul (F := Ideal) dot_S4096x256_S256x128_S4096x128_1_0_0_1_n_n none v0 v2 (constant (F := Ideal) S4096x128 .f32 0x00000000#32) j
      + broadcastTo S4096x128 v5 broadcasts_S1x128_S4096x128 j) (Ideal.ofBits .f32 0x00000000#32) = _
  rw [Ideal.matmul_constant_zero_apply, broadcastTo_row_apply]
  rw [sum_contr_eq dot_S4096x256_S256x128_S4096x128_1_0_0_1_n_n rfl rfl d4096x256_l0 (fun i q => dot_S4096x256_S256x128_S4096x128_1_0_0_1_n_n.lhsIdx_val_of_single rfl i q)
    (fun i q => dot_S4096x256_S256x128_S4096x128_1_0_0_1_n_n.rhsIdx_val_of_single rfl i q) d4096x256_r1]
  rfl

/-- Launch 7's stored value at (r, d): the rectifier of the sum over k of X (r, k) · W (k, d), plus b (0, d). -/
theorem pay7_apply (v0 : Vec Ideal S4096x256 .f32) (v2 : Vec Ideal S256x128 .f32) (v5 : Vec Ideal S1x128 .f32) (j : S4096x128.Idx) :
    k7_pay1 (F := Ideal) v0 v2 v5 j = relu ((∑ k : Fin 256, v0 (lhsAt j k) * v2 (rhsAt j k)) + v5 (rowAt j)) := by
  unfold k7_pay1
  rw [shapeCast_self, shapeCast_self, shapeCast_self]
  show max (FloatOps.matmul (F := Ideal) dot_S4096x256_S256x128_S4096x128_1_0_0_1_n_n none v0 v2 (constant (F := Ideal) S4096x128 .f32 0x00000000#32) j
      + broadcastTo S4096x128 v5 broadcasts_S1x128_S4096x128 j) (Ideal.ofBits .f32 0x00000000#32) = _
  rw [Ideal.matmul_constant_zero_apply, broadcastTo_row_apply]
  rw [sum_contr_eq dot_S4096x256_S256x128_S4096x128_1_0_0_1_n_n rfl rfl d4096x256_l0 (fun i q => dot_S4096x256_S256x128_S4096x128_1_0_0_1_n_n.lhsIdx_val_of_single rfl i q)
    (fun i q => dot_S4096x256_S256x128_S4096x128_1_0_0_1_n_n.rhsIdx_val_of_single rfl i q) d4096x256_r1]
  rfl

/-- Launch 8's stored value at (r, d): the rectifier of the sum over k of X (r, k) · W (k, d), plus b (0, d). -/
theorem pay8_apply (v0 : Vec Ideal S2048x256 .f32) (v2 : Vec Ideal S256x128 .f32) (v5 : Vec Ideal S1x128 .f32) (j : S2048x128.Idx) :
    k8_pay1 (F := Ideal) v0 v2 v5 j = relu ((∑ k : Fin 256, v0 (lhsAt j k) * v2 (rhsAt j k)) + v5 (rowAt j)) := by
  unfold k8_pay1
  rw [shapeCast_self, shapeCast_self, shapeCast_self]
  show max (FloatOps.matmul (F := Ideal) dot_S2048x256_S256x128_S2048x128_1_0_0_1_n_n none v0 v2 (constant (F := Ideal) S2048x128 .f32 0x00000000#32) j
      + broadcastTo S2048x128 v5 broadcasts_S1x128_S2048x128 j) (Ideal.ofBits .f32 0x00000000#32) = _
  rw [Ideal.matmul_constant_zero_apply, broadcastTo_row_apply]
  rw [sum_contr_eq dot_S2048x256_S256x128_S2048x128_1_0_0_1_n_n rfl rfl d2048x256_l0 (fun i q => dot_S2048x256_S256x128_S2048x128_1_0_0_1_n_n.lhsIdx_val_of_single rfl i q)
    (fun i q => dot_S2048x256_S256x128_S2048x128_1_0_0_1_n_n.rhsIdx_val_of_single rfl i q) d2048x256_r1]
  rfl

/-- Launch 9's stored value at (r, d): the rectifier of the sum over k of X (r, k) · W (k, d), plus b (0, d). -/
theorem pay9_apply (v0 : Vec Ideal S1024x256 .f32) (v2 : Vec Ideal S256x128 .f32) (v5 : Vec Ideal S1x128 .f32) (j : S1024x128.Idx) :
    k9_pay1 (F := Ideal) v0 v2 v5 j = relu ((∑ k : Fin 256, v0 (lhsAt j k) * v2 (rhsAt j k)) + v5 (rowAt j)) := by
  unfold k9_pay1
  rw [shapeCast_self, shapeCast_self, shapeCast_self]
  show max (FloatOps.matmul (F := Ideal) dot_S1024x256_S256x128_S1024x128_1_0_0_1_n_n none v0 v2 (constant (F := Ideal) S1024x128 .f32 0x00000000#32) j
      + broadcastTo S1024x128 v5 broadcasts_S1x128_S1024x128 j) (Ideal.ofBits .f32 0x00000000#32) = _
  rw [Ideal.matmul_constant_zero_apply, broadcastTo_row_apply]
  rw [sum_contr_eq dot_S1024x256_S256x128_S1024x128_1_0_0_1_n_n rfl rfl d1024x256_l0 (fun i q => dot_S1024x256_S256x128_S1024x128_1_0_0_1_n_n.lhsIdx_val_of_single rfl i q)
    (fun i q => dot_S1024x256_S256x128_S1024x128_1_0_0_1_n_n.rhsIdx_val_of_single rfl i q) d1024x256_r1]
  rfl

/-- Launch 10's stored value at (r, d): the rectifier of the sum over k of X (r, k) · W (k, d), plus b (0, d). -/
theorem pay10_apply (v0 : Vec Ideal S512x256 .f32) (v2 : Vec Ideal S256x128 .f32) (v5 : Vec Ideal S1x128 .f32) (j : S512x128.Idx) :
    k10_pay1 (F := Ideal) v0 v2 v5 j = relu ((∑ k : Fin 256, v0 (lhsAt j k) * v2 (rhsAt j k)) + v5 (rowAt j)) := by
  unfold k10_pay1
  rw [shapeCast_self, shapeCast_self, shapeCast_self]
  show max (FloatOps.matmul (F := Ideal) dot_S512x256_S256x128_S512x128_1_0_0_1_n_n none v0 v2 (constant (F := Ideal) S512x128 .f32 0x00000000#32) j
      + broadcastTo S512x128 v5 broadcasts_S1x128_S512x128 j) (Ideal.ofBits .f32 0x00000000#32) = _
  rw [Ideal.matmul_constant_zero_apply, broadcastTo_row_apply]
  rw [sum_contr_eq dot_S512x256_S256x128_S512x128_1_0_0_1_n_n rfl rfl d512x256_l0 (fun i q => dot_S512x256_S256x128_S512x128_1_0_0_1_n_n.lhsIdx_val_of_single rfl i q)
    (fun i q => dot_S512x256_S256x128_S512x128_1_0_0_1_n_n.rhsIdx_val_of_single rfl i q) d512x256_r1]
  rfl

/-- Launch 11's stored value at (r, d): the rectifier of the sum over k of X (r, k) · W (k, d), plus b (0, d). -/
theorem pay11_apply (v0 : Vec Ideal S256x256 .f32) (v2 : Vec Ideal S256x128 .f32) (v5 : Vec Ideal S1x128 .f32) (j : S256x128.Idx) :
    k11_pay1 (F := Ideal) v0 v2 v5 j = relu ((∑ k : Fin 256, v0 (lhsAt j k) * v2 (rhsAt j k)) + v5 (rowAt j)) := by
  unfold k11_pay1
  rw [shapeCast_self, shapeCast_self, shapeCast_self]
  show max (FloatOps.matmul (F := Ideal) dot_S256x256_S256x128_S256x128_1_0_0_1_n_n none v0 v2 (constant (F := Ideal) S256x128 .f32 0x00000000#32) j
      + broadcastTo S256x128 v5 broadcasts_S1x128_S256x128 j) (Ideal.ofBits .f32 0x00000000#32) = _
  rw [Ideal.matmul_constant_zero_apply, broadcastTo_row_apply]
  rw [sum_contr_eq dot_S256x256_S256x128_S256x128_1_0_0_1_n_n rfl rfl d256x256_l0 (fun i q => dot_S256x256_S256x128_S256x128_1_0_0_1_n_n.lhsIdx_val_of_single rfl i q)
    (fun i q => dot_S256x256_S256x128_S256x128_1_0_0_1_n_n.rhsIdx_val_of_single rfl i q) d256x256_r1]
  rfl

/-- Launch 12's stored value at (r, d): the sum over k of X (r, k) · W (k, d), plus b (0, d). -/
theorem pay12_apply (v0 : Vec Ideal S256x128 .f32) (v2 : Vec Ideal S128x1 .f32) (v5 : Vec Ideal S1x1 .f32) (j : S256x1.Idx) :
    k12_pay1 (F := Ideal) v0 v2 v5 j = id ((∑ k : Fin 128, v0 (lhsAt j k) * v2 (rhsAt j k)) + v5 (rowAt j)) := by
  unfold k12_pay1
  rw [shapeCast_self, shapeCast_self, shapeCast_self]
  show (FloatOps.matmul (F := Ideal) dot_S256x128_S128x1_S256x1_1_0_0_1_n_n none v0 v2 (constant (F := Ideal) S256x1 .f32 0x00000000#32) j
      + broadcastTo S256x1 v5 broadcasts_S1x1_S256x1 j) = _
  rw [Ideal.matmul_constant_zero_apply, broadcastTo_row_apply]
  rw [sum_contr_eq dot_S256x128_S128x1_S256x1_1_0_0_1_n_n rfl rfl d256x128_l0 (fun i q => dot_S256x128_S128x1_S256x1_1_0_0_1_n_n.lhsIdx_val_of_single rfl i q)
    (fun i q => dot_S256x128_S128x1_S256x1_1_0_0_1_n_n.rhsIdx_val_of_single rfl i q) d256x128_r1]
  rfl

end Cert.KernelIdeal.DenseBody

end
-- ==== Proof.Region0.lean ====
/-
  Launch 0 of the idealized kernel: the whole output array after the launch.

  The launch walks 128 grid points; point t loads rows 4096·t … 4096·t + 4095 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region0

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S524288x16.Idx → EReal) (W : S16x128.Idx → EReal) (b : S1x128.Idx → EReal) : S524288x128.Idx → EReal :=
  fun i => relu ((∑ k : Fin 16, X (lhsAt i k) * W (rhsAt i k)) + b (rowAt i))

/-- A block's entry j is the array's entry i once the block's three operands, read where entry j reads them, are the
    arrays read where entry i reads them. -/
theorem G_of_block (X : S524288x16.Idx → EReal) (W : S16x128.Idx → EReal) (b : S1x128.Idx → EReal)
    (x0 : S4096x16.Idx → EReal) (x1 : S16x128.Idx → EReal) (x2 : S1x128.Idx → EReal) (i : S524288x128.Idx) (j : S4096x128.Idx)
    (h0 : ∀ k : Fin 16, x0 (lhsAt j k) = X (lhsAt i k)) (h1 : ∀ k : Fin 16, x1 (rhsAt j k) = W (rhsAt i k)) (h2 : x2 (rowAt j) = b (rowAt i)) :
    relu ((∑ k : Fin 16, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S524288x16.Idx → EReal) (W : S16x128.Idx → EReal) (b : S1x128.Idx → EReal) (Xt Wt : ℕ → ℕ → EReal) (bt : ℕ → EReal) (i : S524288x128.Idx)
    (hX : ∀ k : Fin 16, X (lhsAt i k) = Xt (i 0).val k.val) (hW : ∀ k : Fin 16, W (rhsAt i k) = Wt (i 1).val k.val)
    (hb : b (rowAt i) = bt (i 1).val) : G X W b i = layer relu 16 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point t writes back is block t of the layer of the arrays the launch found. -/
theorem flushed_eq (c : Dev nD) (t : Fin cfg0.N) :
    (dat0 V c).flushed 3 t = ((cfg0.win 3).blk t).view.read (Elt Ideal) (G (V c main_v6) (V c main_v0) (V c main_v1)) := by
  show (cfg0.win 3).cut (grid0.coords t) ((dat0 V c).after 3 t) = _
  rw [after0_3]
  unfold out0_3
  rw [View.canon_unit_zero hz]
  simp only [View.ld_unit_zero (S := S4096x16) hz, View.ld_unit_zero (S := S16x128) hz, View.ld_unit_zero (S := S1x128) hz]
  obtain ⟨e0, e1, e2, e3, e4, e5, e6, e7⟩ := idx_facts t
  funext j
  have hj0 : (j 0).val < 4096 := (j 0).isLt
  have hj1 : (j 1).val < 128 := (j 1).isLt
  refine (pay0_apply _ _ _ j).trans (G_of_block (V c main_v6) (V c main_v0) (V c main_v1) _ _ _ (((cfg0.win 3).blk t).view.emb j) j ?_ ?_ ?_)
  · intro k
    show V c main_v6 (((cfg0.win 0).blk t).view.emb (lhsAt j k)) = V c main_v6 (lhsAt (((cfg0.win 3).blk t).view.emb j) k)
    refine congrArg _ (funext fun a => Fin.ext ?_)
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 16 + 1 * k.val = k.val; omega
  · intro k
    show V c main_v0 (((cfg0.win 1).blk t).view.emb (rhsAt j k)) = V c main_v0 (rhsAt (((cfg0.win 3).blk t).view.emb j) k)
    refine congrArg _ (funext fun a => Fin.ext ?_)
    match a with
    | ⟨0, _⟩ => show win0_1.index t (0 : Fin 2) * 16 + 1 * k.val = k.val; omega
    | ⟨1, _⟩ => show win0_1.index t (1 : Fin 2) * 128 + 1 * (j 1).val = win0_3.index t (1 : Fin 2) * 128 + 1 * (j 1).val; omega
  · show V c main_v1 (((cfg0.win 2).blk t).view.emb (rowAt j)) = V c main_v1 (rowAt (((cfg0.win 3).blk t).view.emb j))
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the output array is in point t's block iff each coordinate is in the block's range on its axis. -/
theorem mem_blk (t : Fin cfg0.N) (i : S524288x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v7).slice (win0_3.rect t)).set ↔ _
  rw [View.set_slice_whole, Rect.mem_set_unit]
  exact Iff.rfl

/-- Row r of the output is written by the point r / 4096. -/
theorem cover (i : S524288x128.Idx) : ∃ t : Fin cfg0.N, (cfg0.win 3).flush t = true ∧ i ∈ ((cfg0.win 3).blk t).view.set := by
  have hi0 : (i 0).val < 524288 := (i 0).isLt
  have hi1 : (i 1).val < 128 := (i 1).isLt
  have hN : cfg0.N = 128 := N_0
  have ht : (i 0).val / 4096 < cfg0.N := by rw [hN]; omega
  refine ⟨⟨(i 0).val / 4096, ht⟩, flush0_3 _, ?_⟩
  rw [mem_blk]
  obtain ⟨e0, e1, -⟩ := idx_facts ⟨(i 0).val / 4096, ht⟩
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win0_3.index ⟨(i 0).val / 4096, ht⟩ (1 : Fin 2) * 128 ≤ (i 1).val ∧ (i 1).val < win0_3.index ⟨(i 0).val / 4096, ht⟩ (1 : Fin 2) * 128 + 128
    rw [e1]
    omega

/-- The output array after the launch is the layer of the arrays the launch found. -/
theorem final (c : Dev nD) : (dat0 V c).arrAt 3 cfg0.N = G (V c main_v6) (V c main_v0) (V c main_v1) :=
  (dat0 V c).arrAt_eq_of_cover 3 (G (V c main_v6) (V c main_v0) (V c main_v1)) (fun t _ => flushed_eq V c t) cover

end Cert.KernelIdeal.Region0

end
-- ==== Proof.Region1.lean ====
/-
  Launch 1 of the idealized kernel: the whole output array after the launch.

  The launch walks 64 grid points; point t loads rows 4096·t … 4096·t + 4095 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region1

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S262144x256.Idx → EReal) (W : S256x128.Idx → EReal) (b : S1x128.Idx → EReal) : S262144x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S262144x256.Idx → EReal) (W : S256x128.Idx → EReal) (b : S1x128.Idx → EReal)
    (x0 : S4096x256.Idx → EReal) (x1 : S256x128.Idx → EReal) (x2 : S1x128.Idx → EReal) (i : S262144x128.Idx) (j : S4096x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S262144x256.Idx → EReal) (W : S256x128.Idx → EReal) (b : S1x128.Idx → EReal) (Xt Wt : ℕ → ℕ → EReal) (bt : ℕ → EReal) (i : S262144x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What point t writes back is block t of the layer of the arrays the launch found. -/
theorem flushed_eq (c : Dev nD) (t : Fin cfg1.N) :
    (dat1 V c).flushed 3 t = ((cfg1.win 3).blk t).view.read (Elt Ideal) (G (V c main_v9) (V c main_v2) (V c main_v3)) := by
  show (cfg1.win 3).cut (grid1.coords t) ((dat1 V c).after 3 t) = _
  rw [after1_3]
  unfold out1_3
  rw [View.canon_unit_zero hz]
  simp only [View.ld_unit_zero (S := S4096x256) hz, View.ld_unit_zero (S := S256x128) hz, View.ld_unit_zero (S := S1x128) hz]
  obtain ⟨e0, e1, e2, e3, e4, e5, e6, e7⟩ := idx_facts t
  funext j
  have hj0 : (j 0).val < 4096 := (j 0).isLt
  have hj1 : (j 1).val < 128 := (j 1).isLt
  refine (pay1_apply _ _ _ j).trans (G_of_block (V c main_v9) (V c main_v2) (V c main_v3) _ _ _ (((cfg1.win 3).blk t).view.emb j) j ?_ ?_ ?_)
  · intro k
    show V c main_v9 (((cfg1.win 0).blk t).view.emb (lhsAt j k)) = V c main_v9 (lhsAt (((cfg1.win 3).blk t).view.emb j) k)
    refine congrArg _ (funext fun a => Fin.ext ?_)
    match a with
    | ⟨0, _⟩ => show win1_0.index t (0 : Fin 2) * 4096 + 1 * (j 0).val = win1_3.index t (0 : Fin 2) * 4096 + 1 * (j 0).val; omega
    | ⟨1, _⟩ => show win1_0.index t (1 : Fin 2) * 256 + 1 * k.val = k.val; omega
  · intro k
    show V c main_v2 (((cfg1.win 1).blk t).view.emb (rhsAt j k)) = V c main_v2 (rhsAt (((cfg1.win 3).blk t).view.emb j) k)
    refine congrArg _ (funext fun a => Fin.ext ?_)
    match a with
    | ⟨0, _⟩ => show win1_1.index t (0 : Fin 2) * 256 + 1 * k.val = k.val; omega
    | ⟨1, _⟩ => show win1_1.index t (1 : Fin 2) * 128 + 1 * (j 1).val = win1_3.index t (1 : Fin 2) * 128 + 1 * (j 1).val; omega
  · show V c main_v3 (((cfg1.win 2).blk t).view.emb (rowAt j)) = V c main_v3 (rowAt (((cfg1.win 3).blk t).view.emb j))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the output array is in point t's block iff each coordinate is in the block's range on its axis. -/
theorem mem_blk (t : Fin cfg1.N) (i : S262144x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v10).slice (win1_3.rect t)).set ↔ _
  rw [View.set_slice_whole, Rect.mem_set_unit]
  exact Iff.rfl

/-- Row r of the output is written by the point r / 4096. -/
theorem cover (i : S262144x128.Idx) : ∃ t : Fin cfg1.N, (cfg1.win 3).flush t = true ∧ i ∈ ((cfg1.win 3).blk t).view.set := by
  have hi0 : (i 0).val < 262144 := (i 0).isLt
  have hi1 : (i 1).val < 128 := (i 1).isLt
  have hN : cfg1.N = 64 := N_1
  have ht : (i 0).val / 4096 < cfg1.N := by rw [hN]; omega
  refine ⟨⟨(i 0).val / 4096, ht⟩, flush1_3 _, ?_⟩
  rw [mem_blk]
  obtain ⟨e0, e1, -⟩ := idx_facts ⟨(i 0).val / 4096, ht⟩
  intro a
  match a with
  | ⟨0, _⟩ =>
    show win1_3.index ⟨(i 0).val / 4096, ht⟩ (0 : Fin 2) * 4096 ≤ (i 0).val ∧ (i 0).val < win1_3.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win1_3.index ⟨(i 0).val / 4096, ht⟩ (1 : Fin 2) * 128 ≤ (i 1).val ∧ (i 1).val < win1_3.index ⟨(i 0).val / 4096, ht⟩ (1 : Fin 2) * 128 + 128
    rw [e1]
    omega

/-- The output array after the launch is the layer of the arrays the launch found. -/
theorem final (c : Dev nD) : (dat1 V c).arrAt 3 cfg1.N = G (V c main_v9) (V c main_v2) (V c main_v3) :=
  (dat1 V c).arrAt_eq_of_cover 3 (G (V c main_v9) (V c main_v2) (V c main_v3)) (fun t _ => flushed_eq V c t) cover

end Cert.KernelIdeal.Region1

end
-- ==== Proof.Region2.lean ====
/-
  Launch 2 of the idealized kernel: the whole output array after the launch.

  The launch walks 32 grid points; point t loads rows 4096·t … 4096·t + 4095 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region2

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S131072x256.Idx → EReal) (W : S256x128.Idx → EReal) (b : S1x128.Idx → EReal) : S131072x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S131072x256.Idx → EReal) (W : S256x128.Idx → EReal) (b : S1x128.Idx → EReal)
    (x0 : S4096x256.Idx → EReal) (x1 : S256x128.Idx → EReal) (x2 : S1x128.Idx → EReal) (i : S131072x128.Idx) (j : S4096x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S131072x256.Idx → EReal) (W : S256x128.Idx → EReal) (b : S1x128.Idx → EReal) (Xt Wt : ℕ → ℕ → EReal) (bt : ℕ → EReal) (i : S131072x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What point t writes back is block t of the layer of the arrays the launch found. -/
theorem flushed_eq (c : Dev nD) (t : Fin cfg2.N) :
    (dat2 V c).flushed 3 t = ((cfg2.win 3).blk t).view.read (Elt Ideal) (G (V c main_v12) (V c main_v2) (V c main_v3)) := by
  show (cfg2.win 3).cut (grid2.coords t) ((dat2 V c).after 3 t) = _
  rw [after2_3]
  unfold out2_3
  rw [View.canon_unit_zero hz]
  simp only [View.ld_unit_zero (S := S4096x256) hz, View.ld_unit_zero (S := S256x128) hz, View.ld_unit_zero (S := S1x128) hz]
  obtain ⟨e0, e1, e2, e3, e4, e5, e6, e7⟩ := idx_facts t
  funext j
  have hj0 : (j 0).val < 4096 := (j 0).isLt
  have hj1 : (j 1).val < 128 := (j 1).isLt
  refine (pay2_apply _ _ _ j).trans (G_of_block (V c main_v12) (V c main_v2) (V c main_v3) _ _ _ (((cfg2.win 3).blk t).view.emb j) j ?_ ?_ ?_)
  · intro k
    show V c main_v12 (((cfg2.win 0).blk t).view.emb (lhsAt j k)) = V c main_v12 (lhsAt (((cfg2.win 3).blk t).view.emb j) k)
    refine congrArg _ (funext fun a => Fin.ext ?_)
    match a with
    | ⟨0, _⟩ => show win2_0.index t (0 : Fin 2) * 4096 + 1 * (j 0).val = win2_3.index t (0 : Fin 2) * 4096 + 1 * (j 0).val; omega
    | ⟨1, _⟩ => show win2_0.index t (1 : Fin 2) * 256 + 1 * k.val = k.val; omega
  · intro k
    show V c main_v2 (((cfg2.win 1).blk t).view.emb (rhsAt j k)) = V c main_v2 (rhsAt (((cfg2.win 3).blk t).view.emb j) k)
    refine congrArg _ (funext fun a => Fin.ext ?_)
    match a with
    | ⟨0, _⟩ => show win2_1.index t (0 : Fin 2) * 256 + 1 * k.val = k.val; omega
    | ⟨1, _⟩ => show win2_1.index t (1 : Fin 2) * 128 + 1 * (j 1).val = win2_3.index t (1 : Fin 2) * 128 + 1 * (j 1).val; omega
  · show V c main_v3 (((cfg2.win 2).blk t).view.emb (rowAt j)) = V c main_v3 (rowAt (((cfg2.win 3).blk t).view.emb j))
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega

/-- An index of the output array is in point t's block iff each coordinate is in the block's range on its axis. -/
theorem mem_blk (t : Fin cfg2.N) (i : S131072x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v13).slice (win2_3.rect t)).set ↔ _
  rw [View.set_slice_whole, Rect.mem_set_unit]
  exact Iff.rfl

/-- Row r of the output is written by the point r / 4096. -/
theorem cover (i : S131072x128.Idx) : ∃ t : Fin cfg2.N, (cfg2.win 3).flush t = true ∧ i ∈ ((cfg2.win 3).blk t).view.set := by
  have hi0 : (i 0).val < 131072 := (i 0).isLt
  have hi1 : (i 1).val < 128 := (i 1).isLt
  have hN : cfg2.N = 32 := N_2
  have ht : (i 0).val / 4096 < cfg2.N := by rw [hN]; omega
  refine ⟨⟨(i 0).val / 4096, ht⟩, flush2_3 _, ?_⟩
  rw [mem_blk]
  obtain ⟨e0, e1, -⟩ := idx_facts ⟨(i 0).val / 4096, ht⟩
  intro a
  match a with
  | ⟨0, _⟩ =>
    show win2_3.index ⟨(i 0).val / 4096, ht⟩ (0 : Fin 2) * 4096 ≤ (i 0).val ∧ (i 0).val < win2_3.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win2_3.index ⟨(i 0).val / 4096, ht⟩ (1 : Fin 2) * 128 ≤ (i 1).val ∧ (i 1).val < win2_3.index ⟨(i 0).val / 4096, ht⟩ (1 : Fin 2) * 128 + 128
    rw [e1]
    omega

/-- The output array after the launch is the layer of the arrays the launch found. -/
theorem final (c : Dev nD) : (dat2 V c).arrAt 3 cfg2.N = G (V c main_v12) (V c main_v2) (V c main_v3) :=
  (dat2 V c).arrAt_eq_of_cover 3 (G (V c main_v12) (V c main_v2) (V c main_v3)) (fun t _ => flushed_eq V c t) cover

end Cert.KernelIdeal.Region2

end
-- ==== Proof.Region3.lean ====
/-
  Launch 3 of the idealized kernel: the whole output array after the launch.

  The launch walks 16 grid points; point t loads rows 4096·t … 4096·t + 4095 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region3

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S65536x256.Idx → EReal) (W : S256x128.Idx → EReal) (b : S1x128.Idx → EReal) : S65536x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S65536x256.Idx → EReal) (W : S256x128.Idx → EReal) (b : S1x128.Idx → EReal)
    (x0 : S4096x256.Idx → EReal) (x1 : S256x128.Idx → EReal) (x2 : S1x128.Idx → EReal) (i : S65536x128.Idx) (j : S4096x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S65536x256.Idx → EReal) (W : S256x128.Idx → EReal) (b : S1x128.Idx → EReal) (Xt Wt : ℕ → ℕ → EReal) (bt : ℕ → EReal) (i : S65536x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- What point t writes back is block t of the layer of the arrays the launch found. -/
theorem flushed_eq (c : Dev nD) (t : Fin cfg3.N) :
    (dat3 V c).flushed 3 t = ((cfg3.win 3).blk t).view.read (Elt Ideal) (G (V c main_v15) (V c main_v2) (V c main_v3)) := by
  show (cfg3.win 3).cut (grid3.coords t) ((dat3 V c).after 3 t) = _
  rw [after3_3]
  unfold out3_3
  rw [View.canon_unit_zero hz]
  simp only [View.ld_unit_zero (S := S4096x256) hz, View.ld_unit_zero (S := S256x128) hz, View.ld_unit_zero (S := S1x128) hz]
  obtain ⟨e0, e1, e2, e3, e4, e5, e6, e7⟩ := idx_facts t
  funext j
  have hj0 : (j 0).val < 4096 := (j 0).isLt
  have hj1 : (j 1).val < 128 := (j 1).isLt
  refine (pay3_apply _ _ _ j).trans (G_of_block (V c main_v15) (V c main_v2) (V c main_v3) _ _ _ (((cfg3.win 3).blk t).view.emb j) j ?_ ?_ ?_)
  · intro k
    show V c main_v15 (((cfg3.win 0).blk t).view.emb (lhsAt j k)) = V c main_v15 (lhsAt (((cfg3.win 3).blk t).view.emb j) k)
    refine congrArg _ (funext fun a => Fin.ext ?_)
    match a with
    | ⟨0, _⟩ => show win3_0.index t (0 : Fin 2) * 4096 + 1 * (j 0).val = win3_3.index t (0 : Fin 2) * 4096 + 1 * (j 0).val; omega
    | ⟨1, _⟩ => show win3_0.index t (1 : Fin 2) * 256 + 1 * k.val = k.val; omega
  · intro k
    show V c main_v2 (((cfg3.win 1).blk t).view.emb (rhsAt j k)) = V c main_v2 (rhsAt (((cfg3.win 3).blk t).view.emb j) k)
    refine congrArg _ (funext fun a => Fin.ext ?_)
    match a with
    | ⟨0, _⟩ => show win3_1.index t (0 : Fin 2) * 256 + 1 * k.val = k.val; omega
    | ⟨1, _⟩ => show win3_1.index t (1 : Fin 2) * 128 + 1 * (j 1).val = win3_3.index t (1 : Fin 2) * 128 + 1 * (j 1).val; omega
  · show V c main_v3 (((cfg3.win 2).blk t).view.emb (rowAt j)) = V c main_v3 (rowAt (((cfg3.win 3).blk t).view.emb j))
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

/-- An index of the output array is in point t's block iff each coordinate is in the block's range on its axis. -/
theorem mem_blk (t : Fin cfg3.N) (i : S65536x128.Idx) :
    i ∈ ((cfg3.win 3).blk t).view.set ↔ ∀ a : Fin 2, win3_3.index t a * S4096x128.size a ≤ (i a).val ∧ (i a).val < win3_3.index t a * S4096x128.size a + S4096x128.size a := by
  show i ∈ ((View.whole main_v16).slice (win3_3.rect t)).set ↔ _
  rw [View.set_slice_whole, Rect.mem_set_unit]
  exact Iff.rfl

/-- Row r of the output is written by the point r / 4096. -/
theorem cover (i : S65536x128.Idx) : ∃ t : Fin cfg3.N, (cfg3.win 3).flush t = true ∧ i ∈ ((cfg3.win 3).blk t).view.set := by
  have hi0 : (i 0).val < 65536 := (i 0).isLt
  have hi1 : (i 1).val < 128 := (i 1).isLt
  have hN : cfg3.N = 16 := N_3
  have ht : (i 0).val / 4096 < cfg3.N := by rw [hN]; omega
  refine ⟨⟨(i 0).val / 4096, ht⟩, flush3_3 _, ?_⟩
  rw [mem_blk]
  obtain ⟨e0, e1, -⟩ := idx_facts ⟨(i 0).val / 4096, ht⟩
  intro a
  match a with
  | ⟨0, _⟩ =>
    show win3_3.index ⟨(i 0).val / 4096, ht⟩ (0 : Fin 2) * 4096 ≤ (i 0).val ∧ (i 0).val < win3_3.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win3_3.index ⟨(i 0).val / 4096, ht⟩ (1 : Fin 2) * 128 ≤ (i 1).val ∧ (i 1).val < win3_3.index ⟨(i 0).val / 4096, ht⟩ (1 : Fin 2) * 128 + 128
    rw [e1]
    omega

/-- The output array after the launch is the layer of the arrays the launch found. -/
theorem final (c : Dev nD) : (dat3 V c).arrAt 3 cfg3.N = G (V c main_v15) (V c main_v2) (V c main_v3) :=
  (dat3 V c).arrAt_eq_of_cover 3 (G (V c main_v15) (V c main_v2) (V c main_v3)) (fun t _ => flushed_eq V c t) cover

end Cert.KernelIdeal.Region3

end
-- ==== Proof.Region4.lean ====
/-
  Launch 4 of the idealized kernel: the whole output array after the launch.

  The launch walks 8 grid points; point t loads rows 4096·t … 4096·t + 4095 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region4

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S32768x256.Idx → EReal) (W : S256x128.Idx → EReal) (b : S1x128.Idx → EReal) : S32768x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S32768x256.Idx → EReal) (W : S256x128.Idx → EReal) (b : S1x128.Idx → EReal)
    (x0 : S4096x256.Idx → EReal) (x1 : S256x128.Idx → EReal) (x2 : S1x128.Idx → EReal) (i : S32768x128.Idx) (j : S4096x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S32768x256.Idx → EReal) (W : S256x128.Idx → EReal) (b : S1x128.Idx → EReal) (Xt Wt : ℕ → ℕ → EReal) (bt : ℕ → EReal) (i : S32768x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg4.N, win4_3.index t (0 : Fin 2) = t.val ∧ win4_3.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- What point t writes back is block t of the layer of the arrays the launch found. -/
theorem flushed_eq (c : Dev nD) (t : Fin cfg4.N) :
    (dat4 V c).flushed 3 t = ((cfg4.win 3).blk t).view.read (Elt Ideal) (G (V c main_v18) (V c main_v2) (V c main_v3)) := by
  show (cfg4.win 3).cut (grid4.coords t) ((dat4 V c).after 3 t) = _
  rw [after4_3]
  unfold out4_3
  rw [View.canon_unit_zero hz]
  simp only [View.ld_unit_zero (S := S4096x256) hz, View.ld_unit_zero (S := S256x128) hz, View.ld_unit_zero (S := S1x128) hz]
  obtain ⟨e0, e1, e2, e3, e4, e5, e6, e7⟩ := idx_facts t
  funext j
  have hj0 : (j 0).val < 4096 := (j 0).isLt
  have hj1 : (j 1).val < 128 := (j 1).isLt
  refine (pay4_apply _ _ _ j).trans (G_of_block (V c main_v18) (V c main_v2) (V c main_v3) _ _ _ (((cfg4.win 3).blk t).view.emb j) j ?_ ?_ ?_)
  · intro k
    show V c main_v18 (((cfg4.win 0).blk t).view.emb (lhsAt j k)) = V c main_v18 (lhsAt (((cfg4.win 3).blk t).view.emb j) k)
    refine congrArg _ (funext fun a => Fin.ext ?_)
    match a with
    | ⟨0, _⟩ => show win4_0.index t (0 : Fin 2) * 4096 + 1 * (j 0).val = win4_3.index t (0 : Fin 2) * 4096 + 1 * (j 0).val; omega
    | ⟨1, _⟩ => show win4_0.index t (1 : Fin 2) * 256 + 1 * k.val = k.val; omega
  · intro k
    show V c main_v2 (((cfg4.win 1).blk t).view.emb (rhsAt j k)) = V c main_v2 (rhsAt (((cfg4.win 3).blk t).view.emb j) k)
    refine congrArg _ (funext fun a => Fin.ext ?_)
    match a with
    | ⟨0, _⟩ => show win4_1.index t (0 : Fin 2) * 256 + 1 * k.val = k.val; omega
    | ⟨1, _⟩ => show win4_1.index t (1 : Fin 2) * 128 + 1 * (j 1).val = win4_3.index t (1 : Fin 2) * 128 + 1 * (j 1).val; omega
  · show V c main_v3 (((cfg4.win 2).blk t).view.emb (rowAt j)) = V c main_v3 (rowAt (((cfg4.win 3).blk t).view.emb j))
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * (j 1).val = win4_3.index t (1 : Fin 2) * 128 + 1 * (j 1).val; omega

/-- An index of the output array is in point t's block iff each coordinate is in the block's range on its axis. -/
theorem mem_blk (t : Fin cfg4.N) (i : S32768x128.Idx) :
    i ∈ ((cfg4.win 3).blk t).view.set ↔ ∀ a : Fin 2, win4_3.index t a * S4096x128.size a ≤ (i a).val ∧ (i a).val < win4_3.index t a * S4096x128.size a + S4096x128.size a := by
  show i ∈ ((View.whole main_v19).slice (win4_3.rect t)).set ↔ _
  rw [View.set_slice_whole, Rect.mem_set_unit]
  exact Iff.rfl

/-- Row r of the output is written by the point r / 4096. -/
theorem cover (i : S32768x128.Idx) : ∃ t : Fin cfg4.N, (cfg4.win 3).flush t = true ∧ i ∈ ((cfg4.win 3).blk t).view.set := by
  have hi0 : (i 0).val < 32768 := (i 0).isLt
  have hi1 : (i 1).val < 128 := (i 1).isLt
  have hN : cfg4.N = 8 := N_4
  have ht : (i 0).val / 4096 < cfg4.N := by rw [hN]; omega
  refine ⟨⟨(i 0).val / 4096, ht⟩, flush4_3 _, ?_⟩
  rw [mem_blk]
  obtain ⟨e0, e1, -⟩ := idx_facts ⟨(i 0).val / 4096, ht⟩
  intro a
  match a with
  | ⟨0, _⟩ =>
    show win4_3.index ⟨(i 0).val / 4096, ht⟩ (0 : Fin 2) * 4096 ≤ (i 0).val ∧ (i 0).val < win4_3.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win4_3.index ⟨(i 0).val / 4096, ht⟩ (1 : Fin 2) * 128 ≤ (i 1).val ∧ (i 1).val < win4_3.index ⟨(i 0).val / 4096, ht⟩ (1 : Fin 2) * 128 + 128
    rw [e1]
    omega

/-- The output array after the launch is the layer of the arrays the launch found. -/
theorem final (c : Dev nD) : (dat4 V c).arrAt 3 cfg4.N = G (V c main_v18) (V c main_v2) (V c main_v3) :=
  (dat4 V c).arrAt_eq_of_cover 3 (G (V c main_v18) (V c main_v2) (V c main_v3)) (fun t _ => flushed_eq V c t) cover

end Cert.KernelIdeal.Region4

end
-- ==== Proof.Region5.lean ====
/-
  Launch 5 of the idealized kernel: the whole output array after the launch.

  The launch walks 4 grid points; point t loads rows 4096·t … 4096·t + 4095 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region5

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S16384x256.Idx → EReal) (W : S256x128.Idx → EReal) (b : S1x128.Idx → EReal) : S16384x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S16384x256.Idx → EReal) (W : S256x128.Idx → EReal) (b : S1x128.Idx → EReal)
    (x0 : S4096x256.Idx → EReal) (x1 : S256x128.Idx → EReal) (x2 : S1x128.Idx → EReal) (i : S16384x128.Idx) (j : S4096x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S16384x256.Idx → EReal) (W : S256x128.Idx → EReal) (b : S1x128.Idx → EReal) (Xt Wt : ℕ → ℕ → EReal) (bt : ℕ → EReal) (i : S16384x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg5.N, win5_3.index t (0 : Fin 2) = t.val ∧ win5_3.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- What point t writes back is block t of the layer of the arrays the launch found. -/
theorem flushed_eq (c : Dev nD) (t : Fin cfg5.N) :
    (dat5 V c).flushed 3 t = ((cfg5.win 3).blk t).view.read (Elt Ideal) (G (V c main_v21) (V c main_v2) (V c main_v3)) := by
  show (cfg5.win 3).cut (grid5.coords t) ((dat5 V c).after 3 t) = _
  rw [after5_3]
  unfold out5_3
  rw [View.canon_unit_zero hz]
  simp only [View.ld_unit_zero (S := S4096x256) hz, View.ld_unit_zero (S := S256x128) hz, View.ld_unit_zero (S := S1x128) hz]
  obtain ⟨e0, e1, e2, e3, e4, e5, e6, e7⟩ := idx_facts t
  funext j
  have hj0 : (j 0).val < 4096 := (j 0).isLt
  have hj1 : (j 1).val < 128 := (j 1).isLt
  refine (pay5_apply _ _ _ j).trans (G_of_block (V c main_v21) (V c main_v2) (V c main_v3) _ _ _ (((cfg5.win 3).blk t).view.emb j) j ?_ ?_ ?_)
  · intro k
    show V c main_v21 (((cfg5.win 0).blk t).view.emb (lhsAt j k)) = V c main_v21 (lhsAt (((cfg5.win 3).blk t).view.emb j) k)
    refine congrArg _ (funext fun a => Fin.ext ?_)
    match a with
    | ⟨0, _⟩ => show win5_0.index t (0 : Fin 2) * 4096 + 1 * (j 0).val = win5_3.index t (0 : Fin 2) * 4096 + 1 * (j 0).val; omega
    | ⟨1, _⟩ => show win5_0.index t (1 : Fin 2) * 256 + 1 * k.val = k.val; omega
  · intro k
    show V c main_v2 (((cfg5.win 1).blk t).view.emb (rhsAt j k)) = V c main_v2 (rhsAt (((cfg5.win 3).blk t).view.emb j) k)
    refine congrArg _ (funext fun a => Fin.ext ?_)
    match a with
    | ⟨0, _⟩ => show win5_1.index t (0 : Fin 2) * 256 + 1 * k.val = k.val; omega
    | ⟨1, _⟩ => show win5_1.index t (1 : Fin 2) * 128 + 1 * (j 1).val = win5_3.index t (1 : Fin 2) * 128 + 1 * (j 1).val; omega
  · show V c main_v3 (((cfg5.win 2).blk t).view.emb (rowAt j)) = V c main_v3 (rowAt (((cfg5.win 3).blk t).view.emb j))
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega

/-- An index of the output array is in point t's block iff each coordinate is in the block's range on its axis. -/
theorem mem_blk (t : Fin cfg5.N) (i : S16384x128.Idx) :
    i ∈ ((cfg5.win 3).blk t).view.set ↔ ∀ a : Fin 2, win5_3.index t a * S4096x128.size a ≤ (i a).val ∧ (i a).val < win5_3.index t a * S4096x128.size a + S4096x128.size a := by
  show i ∈ ((View.whole main_v22).slice (win5_3.rect t)).set ↔ _
  rw [View.set_slice_whole, Rect.mem_set_unit]
  exact Iff.rfl

/-- Row r of the output is written by the point r / 4096. -/
theorem cover (i : S16384x128.Idx) : ∃ t : Fin cfg5.N, (cfg5.win 3).flush t = true ∧ i ∈ ((cfg5.win 3).blk t).view.set := by
  have hi0 : (i 0).val < 16384 := (i 0).isLt
  have hi1 : (i 1).val < 128 := (i 1).isLt
  have hN : cfg5.N = 4 := N_5
  have ht : (i 0).val / 4096 < cfg5.N := by rw [hN]; omega
  refine ⟨⟨(i 0).val / 4096, ht⟩, flush5_3 _, ?_⟩
  rw [mem_blk]
  obtain ⟨e0, e1, -⟩ := idx_facts ⟨(i 0).val / 4096, ht⟩
  intro a
  match a with
  | ⟨0, _⟩ =>
    show win5_3.index ⟨(i 0).val / 4096, ht⟩ (0 : Fin 2) * 4096 ≤ (i 0).val ∧ (i 0).val < win5_3.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win5_3.index ⟨(i 0).val / 4096, ht⟩ (1 : Fin 2) * 128 ≤ (i 1).val ∧ (i 1).val < win5_3.index ⟨(i 0).val / 4096, ht⟩ (1 : Fin 2) * 128 + 128
    rw [e1]
    omega

/-- The output array after the launch is the layer of the arrays the launch found. -/
theorem final (c : Dev nD) : (dat5 V c).arrAt 3 cfg5.N = G (V c main_v21) (V c main_v2) (V c main_v3) :=
  (dat5 V c).arrAt_eq_of_cover 3 (G (V c main_v21) (V c main_v2) (V c main_v3)) (fun t _ => flushed_eq V c t) cover

end Cert.KernelIdeal.Region5

end
-- ==== Proof.Region6.lean ====
/-
  Launch 6 of the idealized kernel: the whole output array after the launch.

  The launch walks 2 grid points; point t loads rows 4096·t … 4096·t + 4095 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region6

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S8192x256.Idx → EReal) (W : S256x128.Idx → EReal) (b : S1x128.Idx → EReal) : S8192x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S8192x256.Idx → EReal) (W : S256x128.Idx → EReal) (b : S1x128.Idx → EReal)
    (x0 : S4096x256.Idx → EReal) (x1 : S256x128.Idx → EReal) (x2 : S1x128.Idx → EReal) (i : S8192x128.Idx) (j : S4096x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S8192x256.Idx → EReal) (W : S256x128.Idx → EReal) (b : S1x128.Idx → EReal) (Xt Wt : ℕ → ℕ → EReal) (bt : ℕ → EReal) (i : S8192x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg6.N, win6_3.index t (0 : Fin 2) = t.val ∧ win6_3.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- What point t writes back is block t of the layer of the arrays the launch found. -/
theorem flushed_eq (c : Dev nD) (t : Fin cfg6.N) :
    (dat6 V c).flushed 3 t = ((cfg6.win 3).blk t).view.read (Elt Ideal) (G (V c main_v24) (V c main_v2) (V c main_v3)) := by
  show (cfg6.win 3).cut (grid6.coords t) ((dat6 V c).after 3 t) = _
  rw [after6_3]
  unfold out6_3
  rw [View.canon_unit_zero hz]
  simp only [View.ld_unit_zero (S := S4096x256) hz, View.ld_unit_zero (S := S256x128) hz, View.ld_unit_zero (S := S1x128) hz]
  obtain ⟨e0, e1, e2, e3, e4, e5, e6, e7⟩ := idx_facts t
  funext j
  have hj0 : (j 0).val < 4096 := (j 0).isLt
  have hj1 : (j 1).val < 128 := (j 1).isLt
  refine (pay6_apply _ _ _ j).trans (G_of_block (V c main_v24) (V c main_v2) (V c main_v3) _ _ _ (((cfg6.win 3).blk t).view.emb j) j ?_ ?_ ?_)
  · intro k
    show V c main_v24 (((cfg6.win 0).blk t).view.emb (lhsAt j k)) = V c main_v24 (lhsAt (((cfg6.win 3).blk t).view.emb j) k)
    refine congrArg _ (funext fun a => Fin.ext ?_)
    match a with
    | ⟨0, _⟩ => show win6_0.index t (0 : Fin 2) * 4096 + 1 * (j 0).val = win6_3.index t (0 : Fin 2) * 4096 + 1 * (j 0).val; omega
    | ⟨1, _⟩ => show win6_0.index t (1 : Fin 2) * 256 + 1 * k.val = k.val; omega
  · intro k
    show V c main_v2 (((cfg6.win 1).blk t).view.emb (rhsAt j k)) = V c main_v2 (rhsAt (((cfg6.win 3).blk t).view.emb j) k)
    refine congrArg _ (funext fun a => Fin.ext ?_)
    match a with
    | ⟨0, _⟩ => show win6_1.index t (0 : Fin 2) * 256 + 1 * k.val = k.val; omega
    | ⟨1, _⟩ => show win6_1.index t (1 : Fin 2) * 128 + 1 * (j 1).val = win6_3.index t (1 : Fin 2) * 128 + 1 * (j 1).val; omega
  · show V c main_v3 (((cfg6.win 2).blk t).view.emb (rowAt j)) = V c main_v3 (rowAt (((cfg6.win 3).blk t).view.emb j))
    refine congrArg _ (funext fun a => Fin.ext ?_)
    match a with
    | ⟨0, _⟩ => show win6_2.index t (0 : Fin 2) * 1 + 1 * 0 = 0; omega
    | ⟨1, _⟩ => show win6_2.index t (1 : Fin 2) * 128 + 1 * (j 1).val = win6_3.index t (1 : Fin 2) * 128 + 1 * (j 1).val; omega

/-- An index of the output array is in point t's block iff each coordinate is in the block's range on its axis. -/
theorem mem_blk (t : Fin cfg6.N) (i : S8192x128.Idx) :
    i ∈ ((cfg6.win 3).blk t).view.set ↔ ∀ a : Fin 2, win6_3.index t a * S4096x128.size a ≤ (i a).val ∧ (i a).val < win6_3.index t a * S4096x128.size a + S4096x128.size a := by
  show i ∈ ((View.whole main_v25).slice (win6_3.rect t)).set ↔ _
  rw [View.set_slice_whole, Rect.mem_set_unit]
  exact Iff.rfl

/-- Row r of the output is written by the point r / 4096. -/
theorem cover (i : S8192x128.Idx) : ∃ t : Fin cfg6.N, (cfg6.win 3).flush t = true ∧ i ∈ ((cfg6.win 3).blk t).view.set := by
  have hi0 : (i 0).val < 8192 := (i 0).isLt
  have hi1 : (i 1).val < 128 := (i 1).isLt
  have hN : cfg6.N = 2 := N_6
  have ht : (i 0).val / 4096 < cfg6.N := by rw [hN]; omega
  refine ⟨⟨(i 0).val / 4096, ht⟩, flush6_3 _, ?_⟩
  rw [mem_blk]
  obtain ⟨e0, e1, -⟩ := idx_facts ⟨(i 0).val / 4096, ht⟩
  intro a
  match a with
  | ⟨0, _⟩ =>
    show win6_3.index ⟨(i 0).val / 4096, ht⟩ (0 : Fin 2) * 4096 ≤ (i 0).val ∧ (i 0).val < win6_3.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win6_3.index ⟨(i 0).val / 4096, ht⟩ (1 : Fin 2) * 128 ≤ (i 1).val ∧ (i 1).val < win6_3.index ⟨(i 0).val / 4096, ht⟩ (1 : Fin 2) * 128 + 128
    rw [e1]
    omega

/-- The output array after the launch is the layer of the arrays the launch found. -/
theorem final (c : Dev nD) : (dat6 V c).arrAt 3 cfg6.N = G (V c main_v24) (V c main_v2) (V c main_v3) :=
  (dat6 V c).arrAt_eq_of_cover 3 (G (V c main_v24) (V c main_v2) (V c main_v3)) (fun t _ => flushed_eq V c t) cover

end Cert.KernelIdeal.Region6

end
-- ==== Proof.Region7.lean ====
/-
  Launch 7 of the idealized kernel: the whole output array after the launch.

  The launch walks 1 grid point; point t loads rows 4096·t … 4096·t + 4095 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region7

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S4096x256.Idx → EReal) (W : S256x128.Idx → EReal) (b : S1x128.Idx → EReal) : S4096x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S4096x256.Idx → EReal) (W : S256x128.Idx → EReal) (b : S1x128.Idx → EReal)
    (x0 : S4096x256.Idx → EReal) (x1 : S256x128.Idx → EReal) (x2 : S1x128.Idx → EReal) (i : S4096x128.Idx) (j : S4096x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S4096x256.Idx → EReal) (W : S256x128.Idx → EReal) (b : S1x128.Idx → EReal) (Xt Wt : ℕ → ℕ → EReal) (bt : ℕ → EReal) (i : S4096x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg7.N, win7_3.index t (0 : Fin 2) = t.val ∧ win7_3.index t (1 : Fin 2) = 0
    ∧ win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0 :=
  (by decide +kernel : ∀ t : Fin grid7.N, _)

/-- What point t writes back is block t of the layer of the arrays the launch found. -/
theorem flushed_eq (c : Dev nD) (t : Fin cfg7.N) :
    (dat7 V c).flushed 3 t = ((cfg7.win 3).blk t).view.read (Elt Ideal) (G (V c main_v27) (V c main_v2) (V c main_v3)) := by
  show (cfg7.win 3).cut (grid7.coords t) ((dat7 V c).after 3 t) = _
  rw [after7_3]
  unfold out7_3
  rw [View.canon_unit_zero hz]
  simp only [View.ld_unit_zero (S := S4096x256) hz, View.ld_unit_zero (S := S256x128) hz, View.ld_unit_zero (S := S1x128) hz]
  obtain ⟨e0, e1, e2, e3, e4, e5, e6, e7⟩ := idx_facts t
  funext j
  have hj0 : (j 0).val < 4096 := (j 0).isLt
  have hj1 : (j 1).val < 128 := (j 1).isLt
  refine (pay7_apply _ _ _ j).trans (G_of_block (V c main_v27) (V c main_v2) (V c main_v3) _ _ _ (((cfg7.win 3).blk t).view.emb j) j ?_ ?_ ?_)
  · intro k
    show V c main_v27 (((cfg7.win 0).blk t).view.emb (lhsAt j k)) = V c main_v27 (lhsAt (((cfg7.win 3).blk t).view.emb j) k)
    refine congrArg _ (funext fun a => Fin.ext ?_)
    match a with
    | ⟨0, _⟩ => show win7_0.index t (0 : Fin 2) * 4096 + 1 * (j 0).val = win7_3.index t (0 : Fin 2) * 4096 + 1 * (j 0).val; omega
    | ⟨1, _⟩ => show win7_0.index t (1 : Fin 2) * 256 + 1 * k.val = k.val; omega
  · intro k
    show V c main_v2 (((cfg7.win 1).blk t).view.emb (rhsAt j k)) = V c main_v2 (rhsAt (((cfg7.win 3).blk t).view.emb j) k)
    refine congrArg _ (funext fun a => Fin.ext ?_)
    match a with
    | ⟨0, _⟩ => show win7_1.index t (0 : Fin 2) * 256 + 1 * k.val = k.val; omega
    | ⟨1, _⟩ => show win7_1.index t (1 : Fin 2) * 128 + 1 * (j 1).val = win7_3.index t (1 : Fin 2) * 128 + 1 * (j 1).val; omega
  · show V c main_v3 (((cfg7.win 2).blk t).view.emb (rowAt j)) = V c main_v3 (rowAt (((cfg7.win 3).blk t).view.emb j))
    refine congrArg _ (funext fun a => Fin.ext ?_)
    match a with
    | ⟨0, _⟩ => show win7_2.index t (0 : Fin 2) * 1 + 1 * 0 = 0; omega
    | ⟨1, _⟩ => show win7_2.index t (1 : Fin 2) * 128 + 1 * (j 1).val = win7_3.index t (1 : Fin 2) * 128 + 1 * (j 1).val; omega

/-- An index of the output array is in point t's block iff each coordinate is in the block's range on its axis. -/
theorem mem_blk (t : Fin cfg7.N) (i : S4096x128.Idx) :
    i ∈ ((cfg7.win 3).blk t).view.set ↔ ∀ a : Fin 2, win7_3.index t a * S4096x128.size a ≤ (i a).val ∧ (i a).val < win7_3.index t a * S4096x128.size a + S4096x128.size a := by
  show i ∈ ((View.whole main_v28).slice (win7_3.rect t)).set ↔ _
  rw [View.set_slice_whole, Rect.mem_set_unit]
  exact Iff.rfl

/-- Row r of the output is written by the point r / 4096. -/
theorem cover (i : S4096x128.Idx) : ∃ t : Fin cfg7.N, (cfg7.win 3).flush t = true ∧ i ∈ ((cfg7.win 3).blk t).view.set := by
  have hi0 : (i 0).val < 4096 := (i 0).isLt
  have hi1 : (i 1).val < 128 := (i 1).isLt
  have hN : cfg7.N = 1 := N_7
  have ht : (i 0).val / 4096 < cfg7.N := by rw [hN]; omega
  refine ⟨⟨(i 0).val / 4096, ht⟩, flush7_3 _, ?_⟩
  rw [mem_blk]
  obtain ⟨e0, e1, -⟩ := idx_facts ⟨(i 0).val / 4096, ht⟩
  intro a
  match a with
  | ⟨0, _⟩ =>
    show win7_3.index ⟨(i 0).val / 4096, ht⟩ (0 : Fin 2) * 4096 ≤ (i 0).val ∧ (i 0).val < win7_3.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win7_3.index ⟨(i 0).val / 4096, ht⟩ (1 : Fin 2) * 128 ≤ (i 1).val ∧ (i 1).val < win7_3.index ⟨(i 0).val / 4096, ht⟩ (1 : Fin 2) * 128 + 128
    rw [e1]
    omega

/-- The output array after the launch is the layer of the arrays the launch found. -/
theorem final (c : Dev nD) : (dat7 V c).arrAt 3 cfg7.N = G (V c main_v27) (V c main_v2) (V c main_v3) :=
  (dat7 V c).arrAt_eq_of_cover 3 (G (V c main_v27) (V c main_v2) (V c main_v3)) (fun t _ => flushed_eq V c t) cover

end Cert.KernelIdeal.Region7

end
-- ==== Proof.Region8.lean ====
/-
  Launch 8 of the idealized kernel: the whole output array after the launch.

  The launch walks 1 grid point; point t loads rows 2048·t … 2048·t + 2047 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region8

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S2048x256.Idx → EReal) (W : S256x128.Idx → EReal) (b : S1x128.Idx → EReal) : S2048x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S2048x256.Idx → EReal) (W : S256x128.Idx → EReal) (b : S1x128.Idx → EReal)
    (x0 : S2048x256.Idx → EReal) (x1 : S256x128.Idx → EReal) (x2 : S1x128.Idx → EReal) (i : S2048x128.Idx) (j : S2048x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S2048x256.Idx → EReal) (W : S256x128.Idx → EReal) (b : S1x128.Idx → EReal) (Xt Wt : ℕ → ℕ → EReal) (bt : ℕ → EReal) (i : S2048x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg8.N, win8_3.index t (0 : Fin 2) = t.val ∧ win8_3.index t (1 : Fin 2) = 0
    ∧ win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0 :=
  (by decide +kernel : ∀ t : Fin grid8.N, _)

/-- What point t writes back is block t of the layer of the arrays the launch found. -/
theorem flushed_eq (c : Dev nD) (t : Fin cfg8.N) :
    (dat8 V c).flushed 3 t = ((cfg8.win 3).blk t).view.read (Elt Ideal) (G (V c main_v30) (V c main_v2) (V c main_v3)) := by
  show (cfg8.win 3).cut (grid8.coords t) ((dat8 V c).after 3 t) = _
  rw [after8_3]
  unfold out8_3
  rw [View.canon_unit_zero hz]
  simp only [View.ld_unit_zero (S := S2048x256) hz, View.ld_unit_zero (S := S256x128) hz, View.ld_unit_zero (S := S1x128) hz]
  obtain ⟨e0, e1, e2, e3, e4, e5, e6, e7⟩ := idx_facts t
  funext j
  have hj0 : (j 0).val < 2048 := (j 0).isLt
  have hj1 : (j 1).val < 128 := (j 1).isLt
  refine (pay8_apply _ _ _ j).trans (G_of_block (V c main_v30) (V c main_v2) (V c main_v3) _ _ _ (((cfg8.win 3).blk t).view.emb j) j ?_ ?_ ?_)
  · intro k
    show V c main_v30 (((cfg8.win 0).blk t).view.emb (lhsAt j k)) = V c main_v30 (lhsAt (((cfg8.win 3).blk t).view.emb j) k)
    refine congrArg _ (funext fun a => Fin.ext ?_)
    match a with
    | ⟨0, _⟩ => show win8_0.index t (0 : Fin 2) * 2048 + 1 * (j 0).val = win8_3.index t (0 : Fin 2) * 2048 + 1 * (j 0).val; omega
    | ⟨1, _⟩ => show win8_0.index t (1 : Fin 2) * 256 + 1 * k.val = k.val; omega
  · intro k
    show V c main_v2 (((cfg8.win 1).blk t).view.emb (rhsAt j k)) = V c main_v2 (rhsAt (((cfg8.win 3).blk t).view.emb j) k)
    refine congrArg _ (funext fun a => Fin.ext ?_)
    match a with
    | ⟨0, _⟩ => show win8_1.index t (0 : Fin 2) * 256 + 1 * k.val = k.val; omega
    | ⟨1, _⟩ => show win8_1.index t (1 : Fin 2) * 128 + 1 * (j 1).val = win8_3.index t (1 : Fin 2) * 128 + 1 * (j 1).val; omega
  · show V c main_v3 (((cfg8.win 2).blk t).view.emb (rowAt j)) = V c main_v3 (rowAt (((cfg8.win 3).blk t).view.emb j))
    refine congrArg _ (funext fun a => Fin.ext ?_)
    match a with
    | ⟨0, _⟩ => show win8_2.index t (0 : Fin 2) * 1 + 1 * 0 = 0; omega
    | ⟨1, _⟩ => show win8_2.index t (1 : Fin 2) * 128 + 1 * (j 1).val = win8_3.index t (1 : Fin 2) * 128 + 1 * (j 1).val; omega

/-- An index of the output array is in point t's block iff each coordinate is in the block's range on its axis. -/
theorem mem_blk (t : Fin cfg8.N) (i : S2048x128.Idx) :
    i ∈ ((cfg8.win 3).blk t).view.set ↔ ∀ a : Fin 2, win8_3.index t a * S2048x128.size a ≤ (i a).val ∧ (i a).val < win8_3.index t a * S2048x128.size a + S2048x128.size a := by
  show i ∈ ((View.whole main_v31).slice (win8_3.rect t)).set ↔ _
  rw [View.set_slice_whole, Rect.mem_set_unit]
  exact Iff.rfl

/-- Row r of the output is written by the point r / 2048. -/
theorem cover (i : S2048x128.Idx) : ∃ t : Fin cfg8.N, (cfg8.win 3).flush t = true ∧ i ∈ ((cfg8.win 3).blk t).view.set := by
  have hi0 : (i 0).val < 2048 := (i 0).isLt
  have hi1 : (i 1).val < 128 := (i 1).isLt
  have hN : cfg8.N = 1 := N_8
  have ht : (i 0).val / 2048 < cfg8.N := by rw [hN]; omega
  refine ⟨⟨(i 0).val / 2048, ht⟩, flush8_3 _, ?_⟩
  rw [mem_blk]
  obtain ⟨e0, e1, -⟩ := idx_facts ⟨(i 0).val / 2048, ht⟩
  intro a
  match a with
  | ⟨0, _⟩ =>
    show win8_3.index ⟨(i 0).val / 2048, ht⟩ (0 : Fin 2) * 2048 ≤ (i 0).val ∧ (i 0).val < win8_3.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win8_3.index ⟨(i 0).val / 2048, ht⟩ (1 : Fin 2) * 128 ≤ (i 1).val ∧ (i 1).val < win8_3.index ⟨(i 0).val / 2048, ht⟩ (1 : Fin 2) * 128 + 128
    rw [e1]
    omega

/-- The output array after the launch is the layer of the arrays the launch found. -/
theorem final (c : Dev nD) : (dat8 V c).arrAt 3 cfg8.N = G (V c main_v30) (V c main_v2) (V c main_v3) :=
  (dat8 V c).arrAt_eq_of_cover 3 (G (V c main_v30) (V c main_v2) (V c main_v3)) (fun t _ => flushed_eq V c t) cover

end Cert.KernelIdeal.Region8

end
-- ==== Proof.Region9.lean ====
/-
  Launch 9 of the idealized kernel: the whole output array after the launch.

  The launch walks 1 grid point; point t loads rows 1024·t … 1024·t + 1023 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region9

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S1024x256.Idx → EReal) (W : S256x128.Idx → EReal) (b : S1x128.Idx → EReal) : S1024x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S1024x256.Idx → EReal) (W : S256x128.Idx → EReal) (b : S1x128.Idx → EReal)
    (x0 : S1024x256.Idx → EReal) (x1 : S256x128.Idx → EReal) (x2 : S1x128.Idx → EReal) (i : S1024x128.Idx) (j : S1024x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S1024x256.Idx → EReal) (W : S256x128.Idx → EReal) (b : S1x128.Idx → EReal) (Xt Wt : ℕ → ℕ → EReal) (bt : ℕ → EReal) (i : S1024x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg9.N, win9_3.index t (0 : Fin 2) = t.val ∧ win9_3.index t (1 : Fin 2) = 0
    ∧ win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0 :=
  (by decide +kernel : ∀ t : Fin grid9.N, _)

/-- What point t writes back is block t of the layer of the arrays the launch found. -/
theorem flushed_eq (c : Dev nD) (t : Fin cfg9.N) :
    (dat9 V c).flushed 3 t = ((cfg9.win 3).blk t).view.read (Elt Ideal) (G (V c main_v33) (V c main_v2) (V c main_v3)) := by
  show (cfg9.win 3).cut (grid9.coords t) ((dat9 V c).after 3 t) = _
  rw [after9_3]
  unfold out9_3
  rw [View.canon_unit_zero hz]
  simp only [View.ld_unit_zero (S := S1024x256) hz, View.ld_unit_zero (S := S256x128) hz, View.ld_unit_zero (S := S1x128) hz]
  obtain ⟨e0, e1, e2, e3, e4, e5, e6, e7⟩ := idx_facts t
  funext j
  have hj0 : (j 0).val < 1024 := (j 0).isLt
  have hj1 : (j 1).val < 128 := (j 1).isLt
  refine (pay9_apply _ _ _ j).trans (G_of_block (V c main_v33) (V c main_v2) (V c main_v3) _ _ _ (((cfg9.win 3).blk t).view.emb j) j ?_ ?_ ?_)
  · intro k
    show V c main_v33 (((cfg9.win 0).blk t).view.emb (lhsAt j k)) = V c main_v33 (lhsAt (((cfg9.win 3).blk t).view.emb j) k)
    refine congrArg _ (funext fun a => Fin.ext ?_)
    match a with
    | ⟨0, _⟩ => show win9_0.index t (0 : Fin 2) * 1024 + 1 * (j 0).val = win9_3.index t (0 : Fin 2) * 1024 + 1 * (j 0).val; omega
    | ⟨1, _⟩ => show win9_0.index t (1 : Fin 2) * 256 + 1 * k.val = k.val; omega
  · intro k
    show V c main_v2 (((cfg9.win 1).blk t).view.emb (rhsAt j k)) = V c main_v2 (rhsAt (((cfg9.win 3).blk t).view.emb j) k)
    refine congrArg _ (funext fun a => Fin.ext ?_)
    match a with
    | ⟨0, _⟩ => show win9_1.index t (0 : Fin 2) * 256 + 1 * k.val = k.val; omega
    | ⟨1, _⟩ => show win9_1.index t (1 : Fin 2) * 128 + 1 * (j 1).val = win9_3.index t (1 : Fin 2) * 128 + 1 * (j 1).val; omega
  · show V c main_v3 (((cfg9.win 2).blk t).view.emb (rowAt j)) = V c main_v3 (rowAt (((cfg9.win 3).blk t).view.emb j))
    refine congrArg _ (funext fun a => Fin.ext ?_)
    match a with
    | ⟨0, _⟩ => show win9_2.index t (0 : Fin 2) * 1 + 1 * 0 = 0; omega
    | ⟨1, _⟩ => show win9_2.index t (1 : Fin 2) * 128 + 1 * (j 1).val = win9_3.index t (1 : Fin 2) * 128 + 1 * (j 1).val; omega

/-- An index of the output array is in point t's block iff each coordinate is in the block's range on its axis. -/
theorem mem_blk (t : Fin cfg9.N) (i : S1024x128.Idx) :
    i ∈ ((cfg9.win 3).blk t).view.set ↔ ∀ a : Fin 2, win9_3.index t a * S1024x128.size a ≤ (i a).val ∧ (i a).val < win9_3.index t a * S1024x128.size a + S1024x128.size a := by
  show i ∈ ((View.whole main_v34).slice (win9_3.rect t)).set ↔ _
  rw [View.set_slice_whole, Rect.mem_set_unit]
  exact Iff.rfl

/-- Row r of the output is written by the point r / 1024. -/
theorem cover (i : S1024x128.Idx) : ∃ t : Fin cfg9.N, (cfg9.win 3).flush t = true ∧ i ∈ ((cfg9.win 3).blk t).view.set := by
  have hi0 : (i 0).val < 1024 := (i 0).isLt
  have hi1 : (i 1).val < 128 := (i 1).isLt
  have hN : cfg9.N = 1 := N_9
  have ht : (i 0).val / 1024 < cfg9.N := by rw [hN]; omega
  refine ⟨⟨(i 0).val / 1024, ht⟩, flush9_3 _, ?_⟩
  rw [mem_blk]
  obtain ⟨e0, e1, -⟩ := idx_facts ⟨(i 0).val / 1024, ht⟩
  intro a
  match a with
  | ⟨0, _⟩ =>
    show win9_3.index ⟨(i 0).val / 1024, ht⟩ (0 : Fin 2) * 1024 ≤ (i 0).val ∧ (i 0).val < win9_3.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win9_3.index ⟨(i 0).val / 1024, ht⟩ (1 : Fin 2) * 128 ≤ (i 1).val ∧ (i 1).val < win9_3.index ⟨(i 0).val / 1024, ht⟩ (1 : Fin 2) * 128 + 128
    rw [e1]
    omega

/-- The output array after the launch is the layer of the arrays the launch found. -/
theorem final (c : Dev nD) : (dat9 V c).arrAt 3 cfg9.N = G (V c main_v33) (V c main_v2) (V c main_v3) :=
  (dat9 V c).arrAt_eq_of_cover 3 (G (V c main_v33) (V c main_v2) (V c main_v3)) (fun t _ => flushed_eq V c t) cover

end Cert.KernelIdeal.Region9

end
-- ==== Proof.Region10.lean ====
/-
  Launch 10 of the idealized kernel: the whole output array after the launch.

  The launch walks 1 grid point; point t loads rows 512·t … 512·t + 511 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region10

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S512x256.Idx → EReal) (W : S256x128.Idx → EReal) (b : S1x128.Idx → EReal) : S512x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S512x256.Idx → EReal) (W : S256x128.Idx → EReal) (b : S1x128.Idx → EReal)
    (x0 : S512x256.Idx → EReal) (x1 : S256x128.Idx → EReal) (x2 : S1x128.Idx → EReal) (i : S512x128.Idx) (j : S512x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S512x256.Idx → EReal) (W : S256x128.Idx → EReal) (b : S1x128.Idx → EReal) (Xt Wt : ℕ → ℕ → EReal) (bt : ℕ → EReal) (i : S512x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg10.N, win10_3.index t (0 : Fin 2) = t.val ∧ win10_3.index t (1 : Fin 2) = 0
    ∧ win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0 :=
  (by decide +kernel : ∀ t : Fin grid10.N, _)

/-- What point t writes back is block t of the layer of the arrays the launch found. -/
theorem flushed_eq (c : Dev nD) (t : Fin cfg10.N) :
    (dat10 V c).flushed 3 t = ((cfg10.win 3).blk t).view.read (Elt Ideal) (G (V c main_v36) (V c main_v2) (V c main_v3)) := by
  show (cfg10.win 3).cut (grid10.coords t) ((dat10 V c).after 3 t) = _
  rw [after10_3]
  unfold out10_3
  rw [View.canon_unit_zero hz]
  simp only [View.ld_unit_zero (S := S512x256) hz, View.ld_unit_zero (S := S256x128) hz, View.ld_unit_zero (S := S1x128) hz]
  obtain ⟨e0, e1, e2, e3, e4, e5, e6, e7⟩ := idx_facts t
  funext j
  have hj0 : (j 0).val < 512 := (j 0).isLt
  have hj1 : (j 1).val < 128 := (j 1).isLt
  refine (pay10_apply _ _ _ j).trans (G_of_block (V c main_v36) (V c main_v2) (V c main_v3) _ _ _ (((cfg10.win 3).blk t).view.emb j) j ?_ ?_ ?_)
  · intro k
    show V c main_v36 (((cfg10.win 0).blk t).view.emb (lhsAt j k)) = V c main_v36 (lhsAt (((cfg10.win 3).blk t).view.emb j) k)
    refine congrArg _ (funext fun a => Fin.ext ?_)
    match a with
    | ⟨0, _⟩ => show win10_0.index t (0 : Fin 2) * 512 + 1 * (j 0).val = win10_3.index t (0 : Fin 2) * 512 + 1 * (j 0).val; omega
    | ⟨1, _⟩ => show win10_0.index t (1 : Fin 2) * 256 + 1 * k.val = k.val; omega
  · intro k
    show V c main_v2 (((cfg10.win 1).blk t).view.emb (rhsAt j k)) = V c main_v2 (rhsAt (((cfg10.win 3).blk t).view.emb j) k)
    refine congrArg _ (funext fun a => Fin.ext ?_)
    match a with
    | ⟨0, _⟩ => show win10_1.index t (0 : Fin 2) * 256 + 1 * k.val = k.val; omega
    | ⟨1, _⟩ => show win10_1.index t (1 : Fin 2) * 128 + 1 * (j 1).val = win10_3.index t (1 : Fin 2) * 128 + 1 * (j 1).val; omega
  · show V c main_v3 (((cfg10.win 2).blk t).view.emb (rowAt j)) = V c main_v3 (rowAt (((cfg10.win 3).blk t).view.emb j))
    refine congrArg _ (funext fun a => Fin.ext ?_)
    match a with
    | ⟨0, _⟩ => show win10_2.index t (0 : Fin 2) * 1 + 1 * 0 = 0; omega
    | ⟨1, _⟩ => show win10_2.index t (1 : Fin 2) * 128 + 1 * (j 1).val = win10_3.index t (1 : Fin 2) * 128 + 1 * (j 1).val; omega

/-- An index of the output array is in point t's block iff each coordinate is in the block's range on its axis. -/
theorem mem_blk (t : Fin cfg10.N) (i : S512x128.Idx) :
    i ∈ ((cfg10.win 3).blk t).view.set ↔ ∀ a : Fin 2, win10_3.index t a * S512x128.size a ≤ (i a).val ∧ (i a).val < win10_3.index t a * S512x128.size a + S512x128.size a := by
  show i ∈ ((View.whole main_v37).slice (win10_3.rect t)).set ↔ _
  rw [View.set_slice_whole, Rect.mem_set_unit]
  exact Iff.rfl

/-- Row r of the output is written by the point r / 512. -/
theorem cover (i : S512x128.Idx) : ∃ t : Fin cfg10.N, (cfg10.win 3).flush t = true ∧ i ∈ ((cfg10.win 3).blk t).view.set := by
  have hi0 : (i 0).val < 512 := (i 0).isLt
  have hi1 : (i 1).val < 128 := (i 1).isLt
  have hN : cfg10.N = 1 := N_10
  have ht : (i 0).val / 512 < cfg10.N := by rw [hN]; omega
  refine ⟨⟨(i 0).val / 512, ht⟩, flush10_3 _, ?_⟩
  rw [mem_blk]
  obtain ⟨e0, e1, -⟩ := idx_facts ⟨(i 0).val / 512, ht⟩
  intro a
  match a with
  | ⟨0, _⟩ =>
    show win10_3.index ⟨(i 0).val / 512, ht⟩ (0 : Fin 2) * 512 ≤ (i 0).val ∧ (i 0).val < win10_3.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win10_3.index ⟨(i 0).val / 512, ht⟩ (1 : Fin 2) * 128 ≤ (i 1).val ∧ (i 1).val < win10_3.index ⟨(i 0).val / 512, ht⟩ (1 : Fin 2) * 128 + 128
    rw [e1]
    omega

/-- The output array after the launch is the layer of the arrays the launch found. -/
theorem final (c : Dev nD) : (dat10 V c).arrAt 3 cfg10.N = G (V c main_v36) (V c main_v2) (V c main_v3) :=
  (dat10 V c).arrAt_eq_of_cover 3 (G (V c main_v36) (V c main_v2) (V c main_v3)) (fun t _ => flushed_eq V c t) cover

end Cert.KernelIdeal.Region10

end
-- ==== Proof.Region11.lean ====
/-
  Launch 11 of the idealized kernel: the whole output array after the launch.

  The launch walks 1 grid point; point t loads rows 256·t … 256·t + 255 of the input array, the whole weight matrix
  and the one-row bias, and writes back the same rows of the output. Entry (r, d) of a written block is
  the rectifier of the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region11

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S256x256.Idx → EReal) (W : S256x128.Idx → EReal) (b : S1x128.Idx → EReal) : S256x128.Idx → EReal :=
  fun i => relu ((∑ k : Fin 256, X (lhsAt i k) * W (rhsAt i k)) + b (rowAt i))

/-- A block's entry j is the array's entry i once the block's three operands, read where entry j reads them, are the
    arrays read where entry i reads them. -/
theorem G_of_block (X : S256x256.Idx → EReal) (W : S256x128.Idx → EReal) (b : S1x128.Idx → EReal)
    (x0 : S256x256.Idx → EReal) (x1 : S256x128.Idx → EReal) (x2 : S1x128.Idx → EReal) (i : S256x128.Idx) (j : S256x128.Idx)
    (h0 : ∀ k : Fin 256, x0 (lhsAt j k) = X (lhsAt i k)) (h1 : ∀ k : Fin 256, x1 (rhsAt j k) = W (rhsAt i k)) (h2 : x2 (rowAt j) = b (rowAt i)) :
    relu ((∑ k : Fin 256, x0 (lhsAt j k) * x1 (rhsAt j k)) + x2 (rowAt j)) = G X W b i := by
  unfold G
  rw [h2]
  exact congrArg (fun s => relu (s + b (rowAt i))) (Finset.sum_congr rfl fun k _ => by rw [h0 k, h1 k])

/-- The layer of arrays that hold tables is the layer of the tables: the input by (row, shared coordinate), the weights
    by (output column, shared coordinate), the bias by output column. -/
theorem G_tab (X : S256x256.Idx → EReal) (W : S256x128.Idx → EReal) (b : S1x128.Idx → EReal) (Xt Wt : ℕ → ℕ → EReal) (bt : ℕ → EReal) (i : S256x128.Idx)
    (hX : ∀ k : Fin 256, X (lhsAt i k) = Xt (i 0).val k.val) (hW : ∀ k : Fin 256, W (rhsAt i k) = Wt (i 1).val k.val)
    (hb : b (rowAt i) = bt (i 1).val) : G X W b i = layer relu 256 Xt Wt bt (i 0).val (i 1).val := by
  unfold G layer
  rw [hb]
  exact congrArg (fun s => relu (s + bt (i 1).val)) (Finset.sum_congr rfl fun k _ => by rw [hX k, hW k])

/-- The windows' block indices over the grid: the input and the output move together down the rows, the weights and
    the bias stay at block 0. -/
theorem idx_facts : ∀ t : Fin cfg11.N, win11_3.index t (0 : Fin 2) = t.val ∧ win11_3.index t (1 : Fin 2) = 0
    ∧ win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0 :=
  (by decide +kernel : ∀ t : Fin grid11.N, _)

/-- What point t writes back is block t of the layer of the arrays the launch found. -/
theorem flushed_eq (c : Dev nD) (t : Fin cfg11.N) :
    (dat11 V c).flushed 3 t = ((cfg11.win 3).blk t).view.read (Elt Ideal) (G (V c main_v39) (V c main_v2) (V c main_v3)) := by
  show (cfg11.win 3).cut (grid11.coords t) ((dat11 V c).after 3 t) = _
  rw [after11_3]
  unfold out11_3
  rw [View.canon_unit_zero hz]
  simp only [View.ld_unit_zero (S := S256x256) hz, View.ld_unit_zero (S := S256x128) hz, View.ld_unit_zero (S := S1x128) hz]
  obtain ⟨e0, e1, e2, e3, e4, e5, e6, e7⟩ := idx_facts t
  funext j
  have hj0 : (j 0).val < 256 := (j 0).isLt
  have hj1 : (j 1).val < 128 := (j 1).isLt
  refine (pay11_apply _ _ _ j).trans (G_of_block (V c main_v39) (V c main_v2) (V c main_v3) _ _ _ (((cfg11.win 3).blk t).view.emb j) j ?_ ?_ ?_)
  · intro k
    show V c main_v39 (((cfg11.win 0).blk t).view.emb (lhsAt j k)) = V c main_v39 (lhsAt (((cfg11.win 3).blk t).view.emb j) k)
    refine congrArg _ (funext fun a => Fin.ext ?_)
    match a with
    | ⟨0, _⟩ => show win11_0.index t (0 : Fin 2) * 256 + 1 * (j 0).val = win11_3.index t (0 : Fin 2) * 256 + 1 * (j 0).val; omega
    | ⟨1, _⟩ => show win11_0.index t (1 : Fin 2) * 256 + 1 * k.val = k.val; omega
  · intro k
    show V c main_v2 (((cfg11.win 1).blk t).view.emb (rhsAt j k)) = V c main_v2 (rhsAt (((cfg11.win 3).blk t).view.emb j) k)
    refine congrArg _ (funext fun a => Fin.ext ?_)
    match a with
    | ⟨0, _⟩ => show win11_1.index t (0 : Fin 2) * 256 + 1 * k.val = k.val; omega
    | ⟨1, _⟩ => show win11_1.index t (1 : Fin 2) * 128 + 1 * (j 1).val = win11_3.index t (1 : Fin 2) * 128 + 1 * (j 1).val; omega
  · show V c main_v3 (((cfg11.win 2).blk t).view.emb (rowAt j)) = V c main_v3 (rowAt (((cfg11.win 3).blk t).view.emb j))
    refine congrArg _ (funext fun a => Fin.ext ?_)
    match a with
    | ⟨0, _⟩ => show win11_2.index t (0 : Fin 2) * 1 + 1 * 0 = 0; omega
    | ⟨1, _⟩ => show win11_2.index t (1 : Fin 2) * 128 + 1 * (j 1).val = win11_3.index t (1 : Fin 2) * 128 + 1 * (j 1).val; omega

/-- An index of the output array is in point t's block iff each coordinate is in the block's range on its axis. -/
theorem mem_blk (t : Fin cfg11.N) (i : S256x128.Idx) :
    i ∈ ((cfg11.win 3).blk t).view.set ↔ ∀ a : Fin 2, win11_3.index t a * S256x128.size a ≤ (i a).val ∧ (i a).val < win11_3.index t a * S256x128.size a + S256x128.size a := by
  show i ∈ ((View.whole main_v40).slice (win11_3.rect t)).set ↔ _
  rw [View.set_slice_whole, Rect.mem_set_unit]
  exact Iff.rfl

/-- Row r of the output is written by the point r / 256. -/
theorem cover (i : S256x128.Idx) : ∃ t : Fin cfg11.N, (cfg11.win 3).flush t = true ∧ i ∈ ((cfg11.win 3).blk t).view.set := by
  have hi0 : (i 0).val < 256 := (i 0).isLt
  have hi1 : (i 1).val < 128 := (i 1).isLt
  have hN : cfg11.N = 1 := N_11
  have ht : (i 0).val / 256 < cfg11.N := by rw [hN]; omega
  refine ⟨⟨(i 0).val / 256, ht⟩, flush11_3 _, ?_⟩
  rw [mem_blk]
  obtain ⟨e0, e1, -⟩ := idx_facts ⟨(i 0).val / 256, ht⟩
  intro a
  match a with
  | ⟨0, _⟩ =>
    show win11_3.index ⟨(i 0).val / 256, ht⟩ (0 : Fin 2) * 256 ≤ (i 0).val ∧ (i 0).val < win11_3.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win11_3.index ⟨(i 0).val / 256, ht⟩ (1 : Fin 2) * 128 ≤ (i 1).val ∧ (i 1).val < win11_3.index ⟨(i 0).val / 256, ht⟩ (1 : Fin 2) * 128 + 128
    rw [e1]
    omega

/-- The output array after the launch is the layer of the arrays the launch found. -/
theorem final (c : Dev nD) : (dat11 V c).arrAt 3 cfg11.N = G (V c main_v39) (V c main_v2) (V c main_v3) :=
  (dat11 V c).arrAt_eq_of_cover 3 (G (V c main_v39) (V c main_v2) (V c main_v3)) (fun t _ => flushed_eq V c t) cover

end Cert.KernelIdeal.Region11

end
-- ==== Proof.Region12.lean ====
/-
  Launch 12 of the idealized kernel: the whole output array after the launch.

  The launch walks 1 grid point; point t loads rows 256·t … 256·t + 255 of the input array, the whole weight matrix
  and the one-row bias, and writes back the same rows of the output. Entry (r, d) of a written block is
  the sum over k of input (r, k) · weight (k, d), plus bias (0, d); the blocks tile the output, so the
  output array ends as that one function of the three arrays the launch found.
-/
import proofs.«117629_j40149354283017_1_alg».proof.Proof.Gen.KernelIdeal.Frame
import proofs.«117629_j40149354283017_1_alg».proof.Proof.DenseBody
import Idealize.ShloMosaic.Lib.Pipeline.Value

noncomputable section

open scoped BigOperators

namespace Cert.KernelIdeal.Region12

open Idealize.ShloMosaic Idealize.ShloMosaic.PlainDot Idealize.ShloMosaic.ValueIdx Idealize.ShloMosaic.TcCoe Idealize.SL.Sem Cert.KernelIdeal Cert.KernelIdeal.Gen Cert.TreeSpec Cert.KernelIdeal.DenseBody
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, d) from row r of the input, column d of the weights and of the bias. -/
def G (X : S256x128.Idx → EReal) (W : S128x1.Idx → EReal) (b : S1x1.Idx → EReal) : S256x1.Idx → EReal :=
  fun i => id ((∑ k : Fin 128, X (lhsAt i k) * W (rhsAt i k)) + b (rowAt i))

/-- A block's entry j is the array's entry i once the block's three operands, read where entry j reads them, are the
    arrays read where entry i reads them. -/
theorem G_of_block (X : S256x128.Idx → EReal) (W : S128x1.Idx → EReal) (b : S1x1.Idx → EReal)
    (x0 : S256x128.Idx → EReal) (x1 : S128x1.Idx → EReal) (x2 : S1x1.Idx → EReal) (i : S256x1.Idx) (j : S256x1.Idx)
    (h0 : ∀ k : Fin 128, x0 (lhsAt j k) = X (lhsAt i k)) (h1 : ∀ k : Fin 128, x1 (rhsAt j k) = W (rhsAt i k)) (h2 : x2 (rowAt j) = b (rowAt i)) :
    id ((∑ k : Fin 128, x0 (lhsAt j k) * x1 (rhsAt j k)) + x2 (rowAt j)) = G X W b i := by
  unfold G
  rw [h2]
  exact congrArg (fun s => id (s + b (rowAt i))) (Finset.sum_congr rfl fun k _ => by rw [h0 k, h1 k])

/-- The layer of arrays that hold tables is the layer of the tables: the input by (row, shared coordinate), the weights
    by (output column, shared coordinate), the bias by output column. -/
theorem G_tab (X : S256x128.Idx → EReal) (W : S128x1.Idx → EReal) (b : S1x1.Idx → EReal) (Xt Wt : ℕ → ℕ → EReal) (bt : ℕ → EReal) (i : S256x1.Idx)
    (hX : ∀ k : Fin 128, X (lhsAt i k) = Xt (i 0).val k.val) (hW : ∀ k : Fin 128, W (rhsAt i k) = Wt (i 1).val k.val)
    (hb : b (rowAt i) = bt (i 1).val) : G X W b i = layer id 128 Xt Wt bt (i 0).val (i 1).val := by
  unfold G layer
  rw [hb]
  exact congrArg (fun s => id (s + bt (i 1).val)) (Finset.sum_congr rfl fun k _ => by rw [hX k, hW k])

/-- The windows' block indices over the grid: the input and the output move together down the rows, the weights and
    the bias stay at block 0. -/
theorem idx_facts : ∀ t : Fin cfg12.N, win12_3.index t (0 : Fin 2) = t.val ∧ win12_3.index t (1 : Fin 2) = 0
    ∧ win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0 :=
  (by decide +kernel : ∀ t : Fin grid12.N, _)

/-- What point t writes back is block t of the layer of the arrays the launch found. -/
theorem flushed_eq (c : Dev nD) (t : Fin cfg12.N) :
    (dat12 V c).flushed 3 t = ((cfg12.win 3).blk t).view.read (Elt Ideal) (G (V c main_v42) (V c main_v4) (V c main_v5)) := by
  show (cfg12.win 3).cut (grid12.coords t) ((dat12 V c).after 3 t) = _
  rw [after12_3]
  unfold out12_3
  rw [View.canon_unit_zero hz]
  simp only [View.ld_unit_zero (S := S256x128) hz, View.ld_unit_zero (S := S128x1) hz, View.ld_unit_zero (S := S1x1) hz]
  obtain ⟨e0, e1, e2, e3, e4, e5, e6, e7⟩ := idx_facts t
  funext j
  have hj0 : (j 0).val < 256 := (j 0).isLt
  have hj1 : (j 1).val < 1 := (j 1).isLt
  refine (pay12_apply _ _ _ j).trans (G_of_block (V c main_v42) (V c main_v4) (V c main_v5) _ _ _ (((cfg12.win 3).blk t).view.emb j) j ?_ ?_ ?_)
  · intro k
    show V c main_v42 (((cfg12.win 0).blk t).view.emb (lhsAt j k)) = V c main_v42 (lhsAt (((cfg12.win 3).blk t).view.emb j) k)
    refine congrArg _ (funext fun a => Fin.ext ?_)
    match a with
    | ⟨0, _⟩ => show win12_0.index t (0 : Fin 2) * 256 + 1 * (j 0).val = win12_3.index t (0 : Fin 2) * 256 + 1 * (j 0).val; omega
    | ⟨1, _⟩ => show win12_0.index t (1 : Fin 2) * 128 + 1 * k.val = k.val; omega
  · intro k
    show V c main_v4 (((cfg12.win 1).blk t).view.emb (rhsAt j k)) = V c main_v4 (rhsAt (((cfg12.win 3).blk t).view.emb j) k)
    refine congrArg _ (funext fun a => Fin.ext ?_)
    match a with
    | ⟨0, _⟩ => show win12_1.index t (0 : Fin 2) * 128 + 1 * k.val = k.val; omega
    | ⟨1, _⟩ => show win12_1.index t (1 : Fin 2) * 1 + 1 * (j 1).val = win12_3.index t (1 : Fin 2) * 1 + 1 * (j 1).val; omega
  · show V c main_v5 (((cfg12.win 2).blk t).view.emb (rowAt j)) = V c main_v5 (rowAt (((cfg12.win 3).blk t).view.emb j))
    refine congrArg _ (funext fun a => Fin.ext ?_)
    match a with
    | ⟨0, _⟩ => show win12_2.index t (0 : Fin 2) * 1 + 1 * 0 = 0; omega
    | ⟨1, _⟩ => show win12_2.index t (1 : Fin 2) * 1 + 1 * (j 1).val = win12_3.index t (1 : Fin 2) * 1 + 1 * (j 1).val; omega

/-- An index of the output array is in point t's block iff each coordinate is in the block's range on its axis. -/
theorem mem_blk (t : Fin cfg12.N) (i : S256x1.Idx) :
    i ∈ ((cfg12.win 3).blk t).view.set ↔ ∀ a : Fin 2, win12_3.index t a * S256x1.size a ≤ (i a).val ∧ (i a).val < win12_3.index t a * S256x1.size a + S256x1.size a := by
  show i ∈ ((View.whole main_v43).slice (win12_3.rect t)).set ↔ _
  rw [View.set_slice_whole, Rect.mem_set_unit]
  exact Iff.rfl

/-- Row r of the output is written by the point r / 256. -/
theorem cover (i : S256x1.Idx) : ∃ t : Fin cfg12.N, (cfg12.win 3).flush t = true ∧ i ∈ ((cfg12.win 3).blk t).view.set := by
  have hi0 : (i 0).val < 256 := (i 0).isLt
  have hi1 : (i 1).val < 1 := (i 1).isLt
  have hN : cfg12.N = 1 := N_12
  have ht : (i 0).val / 256 < cfg12.N := by rw [hN]; omega
  refine ⟨⟨(i 0).val / 256, ht⟩, flush12_3 _, ?_⟩
  rw [mem_blk]
  obtain ⟨e0, e1, -⟩ := idx_facts ⟨(i 0).val / 256, ht⟩
  intro a
  match a with
  | ⟨0, _⟩ =>
    show win12_3.index ⟨(i 0).val / 256, ht⟩ (0 : Fin 2) * 256 ≤ (i 0).val ∧ (i 0).val < win12_3.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win12_3.index ⟨(i 0).val / 256, ht⟩ (1 : Fin 2) * 1 ≤ (i 1).val ∧ (i 1).val < win12_3.index ⟨(i 0).val / 256, ht⟩ (1 : Fin 2) * 1 + 1
    rw [e1]
    omega

/-- The output array after the launch is the layer of the arrays the launch found. -/
theorem final (c : Dev nD) : (dat12 V c).arrAt 3 cfg12.N = G (V c main_v42) (V c main_v4) (V c main_v5) :=
  (dat12 V c).arrAt_eq_of_cover 3 (G (V c main_v42) (V c main_v4) (V c main_v5)) (fun t _ => flushed_eq V c t) cover

end Cert.KernelIdeal.Region12

end
-- ==== Proof.LibPairRows.lean ====
/-
  Row-major regroupings read as tables.

  A shape cast keeps every entry's row-major position, and so do two casts in a row. Regrouping an [A, 128] array as
  [B, 256] with A = 2B therefore puts rows 2r and 2r+1 of the source side by side as row r; the same holds with a
  leading batch axis, [T, 2n, 128] regrouped as [T, n, 256], when the rows are numbered t · (rows per tree) + j.
  Dropping a unit middle axis, [T, 1, 128] as [T, 128], keeps the table. Transposing a matrix swaps its table's indices.
-/
import Idealize.ShloMosaic.Lib.ValueIdx
import Idealize.ShloMosaic.Lib.Pipeline.Value
import proofs.«117629_j40149354283017_1_alg».proof.Proof.TreeSpec
import proofs.«117629_j40149354283017_1_alg».proof.Proof.LibRowForms

noncomputable section

open scoped BigOperators

namespace Cert.TreeSpec

open Idealize.ShloMosaic Idealize.ShloMosaic.ValueIdx

variable {α : Type}

/-- Two shape casts in a row read the source at the index with the same row-major position. -/
theorem shapeCast_shapeCast_apply {s t u : Shape} (x : s.Idx → α) (h1 : s.ShapeCasts t) (h2 : t.ShapeCasts u) (j : u.Idx) (k : s.Idx)
    (hk : (s.rowMajor k).val = (u.rowMajor j).val) : shapeCast u (shapeCast t x h1) h2 j = x k := by
  unfold shapeCast
  exact congrArg x (Shape.reshapeEquiv_eq_of_rowMajor h1 (hk.trans (Shape.rowMajor_reshapeEquiv h2 j).symm))

/-- An [A, 128] array holding a table, regrouped (through any intermediate shape) as [B, 256] with A = 2B, holds the
    paired table. -/
theorem pair_of_casts {A B : ℕ} {t : Shape} (Y : (⟨2, ![A, 128]⟩ : Shape).Idx → EReal) (T : ℕ → ℕ → EReal)
    (hY : ∀ i, Y i = T (i 0).val (i 1).val) (h1 : (⟨2, ![A, 128]⟩ : Shape).ShapeCasts t) (h2 : t.ShapeCasts ⟨2, ![B, 256]⟩)
    (hAB : A = 2 * B) (j : (⟨2, ![B, 256]⟩ : Shape).Idx) :
    shapeCast ⟨2, ![B, 256]⟩ (shapeCast t Y h1) h2 j = pair T (j 0).val (j 1).val := by
  have hj0 : (j 0).val < B := (j 0).isLt
  have hj1 : (j 1).val < 256 := (j 1).isLt
  have hr : 2 * (j 0).val + (j 1).val / 128 < A := by omega
  have hc : (j 1).val % 128 < 128 := Nat.mod_lt _ (by omega)
  rw [shapeCast_shapeCast_apply Y h1 h2 j (fun a => match a with | ⟨0, _⟩ => ⟨2 * (j 0).val + (j 1).val / 128, hr⟩ | ⟨1, _⟩ => ⟨(j 1).val % 128, hc⟩) (by
    rw [Shape.rowMajor_val_two, Shape.rowMajor_val_two]
    show (2 * (j 0).val + (j 1).val / 128) * 128 + (j 1).val % 128 = (j 0).val * 256 + (j 1).val
    omega), hY]
  rfl

/-- A [T, n, 128] array holding a table by rows t · n + j, regrouped as [T, n', 256] with n = 2n', holds the paired
    table by rows t · n' + j. -/
theorem pair_of_cast3 {T n n' : ℕ} (Y : (⟨3, ![T, n, 128]⟩ : Shape).Idx → EReal) (Tb : ℕ → ℕ → EReal)
    (hY : ∀ i, Y i = Tb ((i 0).val * n + (i 1).val) (i 2).val) (h : (⟨3, ![T, n, 128]⟩ : Shape).ShapeCasts ⟨3, ![T, n', 256]⟩)
    (hn : n = 2 * n') (j : (⟨3, ![T, n', 256]⟩ : Shape).Idx) :
    shapeCast ⟨3, ![T, n', 256]⟩ Y h j = pair Tb ((j 0).val * n' + (j 1).val) (j 2).val := by
  subst hn
  have hj0 : (j 0).val < T := (j 0).isLt
  have hj1 : (j 1).val < n' := (j 1).isLt
  have hj2 : (j 2).val < 256 := (j 2).isLt
  have hr : 2 * (j 1).val + (j 2).val / 128 < 2 * n' := by omega
  have hc : (j 2).val % 128 < 128 := Nat.mod_lt _ (by omega)
  have hmul : (j 0).val * (2 * n') = 2 * ((j 0).val * n') := Nat.mul_left_comm _ _ _
  rw [shapeCast_apply Y h j (fun a => match a with | ⟨0, _⟩ => ⟨(j 0).val, hj0⟩ | ⟨1, _⟩ => ⟨2 * (j 1).val + (j 2).val / 128, hr⟩ | ⟨2, _⟩ => ⟨(j 2).val % 128, hc⟩) (by
    rw [Shape.rowMajor_val_three, Shape.rowMajor_val_three]
    show ((j 0).val * (2 * n') + (2 * (j 1).val + (j 2).val / 128)) * 128 + (j 2).val % 128 = ((j 0).val * n' + (j 1).val) * 256 + (j 2).val
    rw [hmul]
    generalize (j 0).val * n' = q
    omega), hY]
  show Tb ((j 0).val * (2 * n') + (2 * (j 1).val + (j 2).val / 128)) ((j 2).val % 128) = Tb (2 * ((j 0).val * n' + (j 1).val) + (j 2).val / 128) ((j 2).val % 128)
  rw [hmul]
  refine congrArg (fun r => Tb r ((j 2).val % 128)) ?_
  generalize (j 0).val * n' = q
  omega

/-- A [T, 1, 128] array holding a table by rows t · 1 + 0, with the unit axis dropped, holds the same table. -/
theorem drop_unit_axis {T : ℕ} (Y : (⟨3, ![T, 1, 128]⟩ : Shape).Idx → EReal) (Tb : ℕ → ℕ → EReal)
    (hY : ∀ i, Y i = Tb ((i 0).val * 1 + (i 1).val) (i 2).val) (h : (⟨3, ![T, 1, 128]⟩ : Shape).ShapeCasts ⟨2, ![T, 128]⟩)
    (j : (⟨2, ![T, 128]⟩ : Shape).Idx) : shapeCast ⟨2, ![T, 128]⟩ Y h j = Tb (j 0).val (j 1).val := by
  rw [shapeCast_apply Y h j (fun a => match a with | ⟨0, _⟩ => ⟨(j 0).val, (j 0).isLt⟩ | ⟨1, _⟩ => ⟨0, Nat.one_pos⟩ | ⟨2, _⟩ => ⟨(j 1).val, (j 1).isLt⟩) (by
    rw [Shape.rowMajor_val_three, Shape.rowMajor_val_two]
    show ((j 0).val * 1 + 0) * 128 + (j 1).val = (j 0).val * 128 + (j 1).val
    omega), hY]
  show Tb ((j 0).val * 1 + 0) (j 1).val = _
  rw [Nat.mul_one, Nat.add_zero]

/-- A [T, n, K] array regrouped as [T · n, K] (the row count given as a literal R) reads row r at (r / n, r % n). -/
theorem flatten_rows {T n K R : ℕ} (x : (⟨3, ![T, n, K]⟩ : Shape).Idx → EReal) (h : (⟨3, ![T, n, K]⟩ : Shape).ShapeCasts ⟨2, ![R, K]⟩)
    (hR : R = T * n) (hn : 0 < n) (j : (⟨2, ![R, K]⟩ : Shape).Idx) :
    shapeCast ⟨2, ![R, K]⟩ x h j = tab3 x ((j 0).val / n) ((j 0).val % n) (j 1).val := by
  have hj0 : (j 0).val < R := (j 0).isLt
  have hq : (j 0).val / n < T := Nat.div_lt_of_lt_mul (by rw [Nat.mul_comm, ← hR]; exact hj0)
  have hm : (j 0).val % n < n := Nat.mod_lt _ hn
  rw [shapeCast_apply x h j (fun a => match a with | ⟨0, _⟩ => ⟨(j 0).val / n, hq⟩ | ⟨1, _⟩ => ⟨(j 0).val % n, hm⟩ | ⟨2, _⟩ => ⟨(j 1).val, (j 1).isLt⟩) (by
    rw [Shape.rowMajor_val_three, Shape.rowMajor_val_two]
    show ((j 0).val / n * n + (j 0).val % n) * K + (j 1).val = (j 0).val * K + (j 1).val
    rw [Nat.div_add_mod' (j 0).val n])]
  exact (tab3_apply x _ _ _ _ rfl rfl rfl).symm

/-- A transposed matrix holds the source's table with its two indices swapped. -/
theorem transpose_table {A B : ℕ} (x : (⟨2, ![A, B]⟩ : Shape).Idx → EReal) (h : (⟨2, ![A, B]⟩ : Shape).Transposes [1, 0] ⟨2, ![B, A]⟩)
    (j : (⟨2, ![B, A]⟩ : Shape).Idx) : transpose ⟨2, ![B, A]⟩ [1, 0] x h j = tab2 x (j 1).val (j 0).val := by
  rw [transpose_apply [1, 0] x h j (fun a => match a with | ⟨0, _⟩ => ⟨(j 1).val, (j 1).isLt⟩ | ⟨1, _⟩ => ⟨(j 0).val, (j 0).isLt⟩) (fun b => by
    match b with
    | ⟨0, _⟩ => rfl
    | ⟨1, _⟩ => rfl)]
  exact (tab2_apply x _ _ _ rfl rfl).symm

/-- A vector cast to a one-row matrix holds the vector's table in its column index. -/
theorem rowvec_table {B : ℕ} (x : (⟨1, ![B]⟩ : Shape).Idx → EReal) (h : (⟨1, ![B]⟩ : Shape).ShapeCasts ⟨2, ![1, B]⟩)
    (j : (⟨2, ![1, B]⟩ : Shape).Idx) : shapeCast ⟨2, ![1, B]⟩ x h j = tab1 x (j 1).val := by
  rw [PlainDot.shapeCast_rowvec_apply x h j]
  exact (tab1_apply x _ _ rfl).symm

end Cert.TreeSpec

end
-- ==== Proof.KernelChain.lean ====
/-
  The boundary contents of the idealized kernel, read as tables.

  At the first boundary the host has transposed the three weight matrices, cast the three biases to one-row matrices
  and flattened the leaves to one row per leaf. Each launch then applies one dense layer to what it finds, and each
  stretch of host operations between two launches regroups the previous output's rows in pairs; the transposed
  weights and the biases are written once and never again. So the output of launch p holds level p of the tree, and
  the last launch's output holds the tree's result.
-/
import proofs.«117629_j40149354283017_1_alg».proof.Proof.Gen.KernelIdeal.Frame
import proofs.«117629_j40149354283017_1_alg».proof.Proof.Region0
import proofs.«117629_j40149354283017_1_alg».proof.Proof.Region1
import proofs.«117629_j40149354283017_1_alg».proof.Proof.Region2
import proofs.«117629_j40149354283017_1_alg».proof.Proof.Region3
import proofs.«117629_j40149354283017_1_alg».proof.Proof.Region4
import proofs.«117629_j40149354283017_1_alg».proof.Proof.Region5
import proofs.«117629_j40149354283017_1_alg».proof.Proof.Region6
import proofs.«117629_j40149354283017_1_alg».proof.Proof.Region7
import proofs.«117629_j40149354283017_1_alg».proof.Proof.Region8
import proofs.«117629_j40149354283017_1_alg».proof.Proof.Region9
import proofs.«117629_j40149354283017_1_alg».proof.Proof.Region10
import proofs.«117629_j40149354283017_1_alg».proof.Proof.Region11
import proofs.«117629_j40149354283017_1_alg».proof.Proof.Region12
import proofs.«117629_j40149354283017_1_alg».proof.Proof.LibPairRows
import Idealize.ShloMosaic.Lib.StableHlo.Run

noncomputable section

open scoped BigOperators

namespace Cert.KernelIdeal.Chain

open Idealize.ShloMosaic Idealize.ShloMosaic.PlainDot Idealize.ShloMosaic.ValueIdx Idealize.ShloMosaic.TcCoe Idealize.SL.Sem Idealize.ShloMosaic.StableHlo Cert.KernelIdeal Cert.KernelIdeal.Gen Cert.TreeSpec

variable (m : (ℓ : Loc nD τ sig) → Buf (Elt Ideal) ℓ) (ρ : Dev nD → PrngReg)

/-! ## The arguments as tables -/

/-- One row per leaf: row b · 2048 + n is leaf n of tree b. -/
def leafT (c : Dev nD) : ℕ → ℕ → EReal := leafTable (m ((c : Thread nD τ).loc main_arg0))
/-- The embedding's weights, by (output column, feature). -/
def WeT (c : Dev nD) : ℕ → ℕ → EReal := tab2 (m ((c : Thread nD τ).loc main_arg1))
def beT (c : Dev nD) : ℕ → EReal := tab1 (m ((c : Thread nD τ).loc main_arg2))
/-- The combiner's weights, by (output column, paired feature). -/
def WcT (c : Dev nD) : ℕ → ℕ → EReal := tab2 (m ((c : Thread nD τ).loc main_arg3))
def bcT (c : Dev nD) : ℕ → EReal := tab1 (m ((c : Thread nD τ).loc main_arg4))
/-- The projection's weights, by (class, feature). -/
def WpT (c : Dev nD) : ℕ → ℕ → EReal := tab2 (m ((c : Thread nD τ).loc main_arg5))
def bpT (c : Dev nD) : ℕ → EReal := tab1 (m ((c : Thread nD τ).loc main_arg6))

/-- Level l of the tree over the argument tables. -/
abbrev lvl (c : Dev nD) (l : ℕ) : ℕ → ℕ → EReal := level (leafT m c) (WeT m c) (beT m c) (WcT m c) (bcT m c) l

/-! ## The first boundary: what the host prepared -/

theorem v0_eq (c : Dev nD) : (W1 m ρ c (Proc.devRef .tc main_v0) : S16x128.Idx → EReal)
    = transpose S16x128 [1, 0] (m ((c : Thread nD τ).loc main_arg1)) transposes_S128x16_S16x128_1_0 := by
  show StableHlo.after hostOps0 (W0 m ρ c) (Proc.devRef .tc main_v0) = _
  after_results
theorem v1_eq (c : Dev nD) : (W1 m ρ c (Proc.devRef .tc main_v1) : S1x128.Idx → EReal)
    = shapeCast S1x128 (m ((c : Thread nD τ).loc main_arg2)) shapeCasts_S128_S1x128 := by
  show StableHlo.after hostOps0 (W0 m ρ c) (Proc.devRef .tc main_v1) = _
  after_results
  rfl
theorem v2_eq (c : Dev nD) : (W1 m ρ c (Proc.devRef .tc main_v2) : S256x128.Idx → EReal)
    = transpose S256x128 [1, 0] (m ((c : Thread nD τ).loc main_arg3)) transposes_S128x256_S256x128_1_0 := by
  show StableHlo.after hostOps0 (W0 m ρ c) (Proc.devRef .tc main_v2) = _
  after_results
theorem v3_eq (c : Dev nD) : (W1 m ρ c (Proc.devRef .tc main_v3) : S1x128.Idx → EReal)
    = shapeCast S1x128 (m ((c : Thread nD τ).loc main_arg4)) shapeCasts_S128_S1x128 := by
  show StableHlo.after hostOps0 (W0 m ρ c) (Proc.devRef .tc main_v3) = _
  after_results
  rfl
theorem v4_eq (c : Dev nD) : (W1 m ρ c (Proc.devRef .tc main_v4) : S128x1.Idx → EReal)
    = transpose S128x1 [1, 0] (m ((c : Thread nD τ).loc main_arg5)) transposes_S1x128_S128x1_1_0 := by
  show StableHlo.after hostOps0 (W0 m ρ c) (Proc.devRef .tc main_v4) = _
  after_results
theorem v5_eq (c : Dev nD) : (W1 m ρ c (Proc.devRef .tc main_v5) : S1x1.Idx → EReal)
    = shapeCast S1x1 (m ((c : Thread nD τ).loc main_arg6)) shapeCasts_S1_S1x1 := by
  show StableHlo.after hostOps0 (W0 m ρ c) (Proc.devRef .tc main_v5) = _
  after_results
  rfl
theorem v6_eq (c : Dev nD) : (W1 m ρ c (Proc.devRef .tc main_v6) : S524288x16.Idx → EReal)
    = shapeCast S524288x16 (m ((c : Thread nD τ).loc main_arg0)) shapeCasts_S256x2048x16_S524288x16 := by
  show StableHlo.after hostOps0 (W0 m ρ c) (Proc.devRef .tc main_v6) = _
  after_results
  rfl

/-- The transposed embedding weights at (k, d) are the weights' table at (d, k). -/
theorem v0_tab (c : Dev nD) (j : S16x128.Idx) : (W1 m ρ c (Proc.devRef .tc main_v0) : S16x128.Idx → EReal) j = WeT m c (j 1).val (j 0).val :=
  (congrFun (v0_eq m ρ c) j).trans (transpose_table _ _ j)
theorem v1_tab (c : Dev nD) (j : S1x128.Idx) : (W1 m ρ c (Proc.devRef .tc main_v1) : S1x128.Idx → EReal) j = beT m c (j 1).val :=
  (congrFun (v1_eq m ρ c) j).trans (rowvec_table _ _ j)
theorem v2_tab (c : Dev nD) (j : S256x128.Idx) : (W1 m ρ c (Proc.devRef .tc main_v2) : S256x128.Idx → EReal) j = WcT m c (j 1).val (j 0).val :=
  (congrFun (v2_eq m ρ c) j).trans (transpose_table _ _ j)
theorem v3_tab (c : Dev nD) (j : S1x128.Idx) : (W1 m ρ c (Proc.devRef .tc main_v3) : S1x128.Idx → EReal) j = bcT m c (j 1).val :=
  (congrFun (v3_eq m ρ c) j).trans (rowvec_table _ _ j)
theorem v4_tab (c : Dev nD) (j : S128x1.Idx) : (W1 m ρ c (Proc.devRef .tc main_v4) : S128x1.Idx → EReal) j = WpT m c (j 1).val (j 0).val :=
  (congrFun (v4_eq m ρ c) j).trans (transpose_table _ _ j)
theorem v5_tab (c : Dev nD) (j : S1x1.Idx) : (W1 m ρ c (Proc.devRef .tc main_v5) : S1x1.Idx → EReal) j = bpT m c (j 1).val :=
  (congrFun (v5_eq m ρ c) j).trans (rowvec_table _ _ j)
/-- The flattened leaves at (r, k) are the leaf table. -/
theorem v6_tab (c : Dev nD) (j : S524288x16.Idx) : (W1 m ρ c (Proc.devRef .tc main_v6) : S524288x16.Idx → EReal) j = leafT m c (j 0).val (j 1).val :=
  (congrFun (v6_eq m ρ c) j).trans (flatten_rows _ _ (by decide) (by decide) j)

/-! ## The transposed weights and the biases are never written again -/
theorem v2_at3 (c : Dev nD) : W3 m ρ c (Proc.devRef .tc main_v2) = W1 m ρ c (Proc.devRef .tc main_v2) :=
  (StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v2 (by decide))
theorem v2_at5 (c : Dev nD) : W5 m ρ c (Proc.devRef .tc main_v2) = W1 m ρ c (Proc.devRef .tc main_v2) :=
  (StableHlo.after_of_forall_not_mem (b := Proc.devRef .tc main_v2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W4_arr m ρ c 1).trans (((dat1 (V3 m ρ) c).arrAt_in 1 rfl _).trans (A_eq1 (V3 m ρ) c 1))).trans (v2_at3 m ρ c))
theorem v2_at7 (c : Dev nD) : W7 m ρ c (Proc.devRef .tc main_v2) = W1 m ρ c (Proc.devRef .tc main_v2) :=
  (StableHlo.after_of_forall_not_mem (b := Proc.devRef .tc main_v2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W6_arr m ρ c 1).trans (((dat2 (V5 m ρ) c).arrAt_in 1 rfl _).trans (A_eq2 (V5 m ρ) c 1))).trans (v2_at5 m ρ c))
theorem v2_at9 (c : Dev nD) : W9 m ρ c (Proc.devRef .tc main_v2) = W1 m ρ c (Proc.devRef .tc main_v2) :=
  (StableHlo.after_of_forall_not_mem (b := Proc.devRef .tc main_v2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W8_arr m ρ c 1).trans (((dat3 (V7 m ρ) c).arrAt_in 1 rfl _).trans (A_eq3 (V7 m ρ) c 1))).trans (v2_at7 m ρ c))
theorem v2_at11 (c : Dev nD) : W11 m ρ c (Proc.devRef .tc main_v2) = W1 m ρ c (Proc.devRef .tc main_v2) :=
  (StableHlo.after_of_forall_not_mem (b := Proc.devRef .tc main_v2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W10_arr m ρ c 1).trans (((dat4 (V9 m ρ) c).arrAt_in 1 rfl _).trans (A_eq4 (V9 m ρ) c 1))).trans (v2_at9 m ρ c))
theorem v2_at13 (c : Dev nD) : W13 m ρ c (Proc.devRef .tc main_v2) = W1 m ρ c (Proc.devRef .tc main_v2) :=
  (StableHlo.after_of_forall_not_mem (b := Proc.devRef .tc main_v2) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W12_arr m ρ c 1).trans (((dat5 (V11 m ρ) c).arrAt_in 1 rfl _).trans (A_eq5 (V11 m ρ) c 1))).trans (v2_at11 m ρ c))
theorem v2_at15 (c : Dev nD) : W15 m ρ c (Proc.devRef .tc main_v2) = W1 m ρ c (Proc.devRef .tc main_v2) :=
  (StableHlo.after_of_forall_not_mem (b := Proc.devRef .tc main_v2) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W14_arr m ρ c 1).trans (((dat6 (V13 m ρ) c).arrAt_in 1 rfl _).trans (A_eq6 (V13 m ρ) c 1))).trans (v2_at13 m ρ c))
theorem v2_at17 (c : Dev nD) : W17 m ρ c (Proc.devRef .tc main_v2) = W1 m ρ c (Proc.devRef .tc main_v2) :=
  (StableHlo.after_of_forall_not_mem (b := Proc.devRef .tc main_v2) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W16_arr m ρ c 1).trans (((dat7 (V15 m ρ) c).arrAt_in 1 rfl _).trans (A_eq7 (V15 m ρ) c 1))).trans (v2_at15 m ρ c))
theorem v2_at19 (c : Dev nD) : W19 m ρ c (Proc.devRef .tc main_v2) = W1 m ρ c (Proc.devRef .tc main_v2) :=
  (StableHlo.after_of_forall_not_mem (b := Proc.devRef .tc main_v2) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W18_arr m ρ c 1).trans (((dat8 (V17 m ρ) c).arrAt_in 1 rfl _).trans (A_eq8 (V17 m ρ) c 1))).trans (v2_at17 m ρ c))
theorem v2_at21 (c : Dev nD) : W21 m ρ c (Proc.devRef .tc main_v2) = W1 m ρ c (Proc.devRef .tc main_v2) :=
  (StableHlo.after_of_forall_not_mem (b := Proc.devRef .tc main_v2) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W20_arr m ρ c 1).trans (((dat9 (V19 m ρ) c).arrAt_in 1 rfl _).trans (A_eq9 (V19 m ρ) c 1))).trans (v2_at19 m ρ c))
theorem v2_at23 (c : Dev nD) : W23 m ρ c (Proc.devRef .tc main_v2) = W1 m ρ c (Proc.devRef .tc main_v2) :=
  (StableHlo.after_of_forall_not_mem (b := Proc.devRef .tc main_v2) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W22_arr m ρ c 1).trans (((dat10 (V21 m ρ) c).arrAt_in 1 rfl _).trans (A_eq10 (V21 m ρ) c 1))).trans (v2_at21 m ρ c))
theorem v3_at3 (c : Dev nD) : W3 m ρ c (Proc.devRef .tc main_v3) = W1 m ρ c (Proc.devRef .tc main_v3) :=
  (StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v3 (by decide))
theorem v3_at5 (c : Dev nD) : W5 m ρ c (Proc.devRef .tc main_v3) = W1 m ρ c (Proc.devRef .tc main_v3) :=
  (StableHlo.after_of_forall_not_mem (b := Proc.devRef .tc main_v3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W4_arr m ρ c 2).trans (((dat1 (V3 m ρ) c).arrAt_in 2 rfl _).trans (A_eq1 (V3 m ρ) c 2))).trans (v3_at3 m ρ c))
theorem v3_at7 (c : Dev nD) : W7 m ρ c (Proc.devRef .tc main_v3) = W1 m ρ c (Proc.devRef .tc main_v3) :=
  (StableHlo.after_of_forall_not_mem (b := Proc.devRef .tc main_v3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W6_arr m ρ c 2).trans (((dat2 (V5 m ρ) c).arrAt_in 2 rfl _).trans (A_eq2 (V5 m ρ) c 2))).trans (v3_at5 m ρ c))
theorem v3_at9 (c : Dev nD) : W9 m ρ c (Proc.devRef .tc main_v3) = W1 m ρ c (Proc.devRef .tc main_v3) :=
  (StableHlo.after_of_forall_not_mem (b := Proc.devRef .tc main_v3) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W8_arr m ρ c 2).trans (((dat3 (V7 m ρ) c).arrAt_in 2 rfl _).trans (A_eq3 (V7 m ρ) c 2))).trans (v3_at7 m ρ c))
theorem v3_at11 (c : Dev nD) : W11 m ρ c (Proc.devRef .tc main_v3) = W1 m ρ c (Proc.devRef .tc main_v3) :=
  (StableHlo.after_of_forall_not_mem (b := Proc.devRef .tc main_v3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W10_arr m ρ c 2).trans (((dat4 (V9 m ρ) c).arrAt_in 2 rfl _).trans (A_eq4 (V9 m ρ) c 2))).trans (v3_at9 m ρ c))
theorem v3_at13 (c : Dev nD) : W13 m ρ c (Proc.devRef .tc main_v3) = W1 m ρ c (Proc.devRef .tc main_v3) :=
  (StableHlo.after_of_forall_not_mem (b := Proc.devRef .tc main_v3) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W12_arr m ρ c 2).trans (((dat5 (V11 m ρ) c).arrAt_in 2 rfl _).trans (A_eq5 (V11 m ρ) c 2))).trans (v3_at11 m ρ c))
theorem v3_at15 (c : Dev nD) : W15 m ρ c (Proc.devRef .tc main_v3) = W1 m ρ c (Proc.devRef .tc main_v3) :=
  (StableHlo.after_of_forall_not_mem (b := Proc.devRef .tc main_v3) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W14_arr m ρ c 2).trans (((dat6 (V13 m ρ) c).arrAt_in 2 rfl _).trans (A_eq6 (V13 m ρ) c 2))).trans (v3_at13 m ρ c))
theorem v3_at17 (c : Dev nD) : W17 m ρ c (Proc.devRef .tc main_v3) = W1 m ρ c (Proc.devRef .tc main_v3) :=
  (StableHlo.after_of_forall_not_mem (b := Proc.devRef .tc main_v3) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W16_arr m ρ c 2).trans (((dat7 (V15 m ρ) c).arrAt_in 2 rfl _).trans (A_eq7 (V15 m ρ) c 2))).trans (v3_at15 m ρ c))
theorem v3_at19 (c : Dev nD) : W19 m ρ c (Proc.devRef .tc main_v3) = W1 m ρ c (Proc.devRef .tc main_v3) :=
  (StableHlo.after_of_forall_not_mem (b := Proc.devRef .tc main_v3) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W18_arr m ρ c 2).trans (((dat8 (V17 m ρ) c).arrAt_in 2 rfl _).trans (A_eq8 (V17 m ρ) c 2))).trans (v3_at17 m ρ c))
theorem v3_at21 (c : Dev nD) : W21 m ρ c (Proc.devRef .tc main_v3) = W1 m ρ c (Proc.devRef .tc main_v3) :=
  (StableHlo.after_of_forall_not_mem (b := Proc.devRef .tc main_v3) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W20_arr m ρ c 2).trans (((dat9 (V19 m ρ) c).arrAt_in 2 rfl _).trans (A_eq9 (V19 m ρ) c 2))).trans (v3_at19 m ρ c))
theorem v3_at23 (c : Dev nD) : W23 m ρ c (Proc.devRef .tc main_v3) = W1 m ρ c (Proc.devRef .tc main_v3) :=
  (StableHlo.after_of_forall_not_mem (b := Proc.devRef .tc main_v3) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (((W22_arr m ρ c 2).trans (((dat10 (V21 m ρ) c).arrAt_in 2 rfl _).trans (A_eq10 (V21 m ρ) c 2))).trans (v3_at21 m ρ c))
theorem v4_at3 (c : Dev nD) : W3 m ρ c (Proc.devRef .tc main_v4) = W1 m ρ c (Proc.devRef .tc main_v4) :=
  (StableHlo.after_of_forall_not_mem (b := Proc.devRef .tc main_v4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v4 (by decide))
theorem v4_at5 (c : Dev nD) : W5 m ρ c (Proc.devRef .tc main_v4) = W1 m ρ c (Proc.devRef .tc main_v4) :=
  (StableHlo.after_of_forall_not_mem (b := Proc.devRef .tc main_v4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W4_of_ne m ρ c main_v4 (by decide)).trans (v4_at3 m ρ c))
theorem v4_at7 (c : Dev nD) : W7 m ρ c (Proc.devRef .tc main_v4) = W1 m ρ c (Proc.devRef .tc main_v4) :=
  (StableHlo.after_of_forall_not_mem (b := Proc.devRef .tc main_v4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W6_of_ne m ρ c main_v4 (by decide)).trans (v4_at5 m ρ c))
theorem v4_at9 (c : Dev nD) : W9 m ρ c (Proc.devRef .tc main_v4) = W1 m ρ c (Proc.devRef .tc main_v4) :=
  (StableHlo.after_of_forall_not_mem (b := Proc.devRef .tc main_v4) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W8_of_ne m ρ c main_v4 (by decide)).trans (v4_at7 m ρ c))
theorem v4_at11 (c : Dev nD) : W11 m ρ c (Proc.devRef .tc main_v4) = W1 m ρ c (Proc.devRef .tc main_v4) :=
  (StableHlo.after_of_forall_not_mem (b := Proc.devRef .tc main_v4) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W10_of_ne m ρ c main_v4 (by decide)).trans (v4_at9 m ρ c))
theorem v4_at13 (c : Dev nD) : W13 m ρ c (Proc.devRef .tc main_v4) = W1 m ρ c (Proc.devRef .tc main_v4) :=
  (StableHlo.after_of_forall_not_mem (b := Proc.devRef .tc main_v4) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W12_of_ne m ρ c main_v4 (by decide)).trans (v4_at11 m ρ c))
theorem v4_at15 (c : Dev nD) : W15 m ρ c (Proc.devRef .tc main_v4) = W1 m ρ c (Proc.devRef .tc main_v4) :=
  (StableHlo.after_of_forall_not_mem (b := Proc.devRef .tc main_v4) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W14_of_ne m ρ c main_v4 (by decide)).trans (v4_at13 m ρ c))
theorem v4_at17 (c : Dev nD) : W17 m ρ c (Proc.devRef .tc main_v4) = W1 m ρ c (Proc.devRef .tc main_v4) :=
  (StableHlo.after_of_forall_not_mem (b := Proc.devRef .tc main_v4) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W16_of_ne m ρ c main_v4 (by decide)).trans (v4_at15 m ρ c))
theorem v4_at19 (c : Dev nD) : W19 m ρ c (Proc.devRef .tc main_v4) = W1 m ρ c (Proc.devRef .tc main_v4) :=
  (StableHlo.after_of_forall_not_mem (b := Proc.devRef .tc main_v4) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W18_of_ne m ρ c main_v4 (by decide)).trans (v4_at17 m ρ c))
theorem v4_at21 (c : Dev nD) : W21 m ρ c (Proc.devRef .tc main_v4) = W1 m ρ c (Proc.devRef .tc main_v4) :=
  (StableHlo.after_of_forall_not_mem (b := Proc.devRef .tc main_v4) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W20_of_ne m ρ c main_v4 (by decide)).trans (v4_at19 m ρ c))
theorem v4_at23 (c : Dev nD) : W23 m ρ c (Proc.devRef .tc main_v4) = W1 m ρ c (Proc.devRef .tc main_v4) :=
  (StableHlo.after_of_forall_not_mem (b := Proc.devRef .tc main_v4) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W22_of_ne m ρ c main_v4 (by decide)).trans (v4_at21 m ρ c))
theorem v4_at25 (c : Dev nD) : W25 m ρ c (Proc.devRef .tc main_v4) = W1 m ρ c (Proc.devRef .tc main_v4) :=
  (StableHlo.after_of_forall_not_mem (b := Proc.devRef .tc main_v4) _ _ (List.forall_iff_forall_mem.mp (by
      simp only [hostOps12, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W24_of_ne m ρ c main_v4 (by decide)).trans (v4_at23 m ρ c))
theorem v5_at3 (c : Dev nD) : W3 m ρ c (Proc.devRef .tc main_v5) = W1 m ρ c (Proc.devRef .tc main_v5) :=
  (StableHlo.after_of_forall_not_mem (b := Proc.devRef .tc main_v5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v5 (by decide))
theorem v5_at5 (c : Dev nD) : W5 m ρ c (Proc.devRef .tc main_v5) = W1 m ρ c (Proc.devRef .tc main_v5) :=
  (StableHlo.after_of_forall_not_mem (b := Proc.devRef .tc main_v5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W4_of_ne m ρ c main_v5 (by decide)).trans (v5_at3 m ρ c))
theorem v5_at7 (c : Dev nD) : W7 m ρ c (Proc.devRef .tc main_v5) = W1 m ρ c (Proc.devRef .tc main_v5) :=
  (StableHlo.after_of_forall_not_mem (b := Proc.devRef .tc main_v5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W6_of_ne m ρ c main_v5 (by decide)).trans (v5_at5 m ρ c))
theorem v5_at9 (c : Dev nD) : W9 m ρ c (Proc.devRef .tc main_v5) = W1 m ρ c (Proc.devRef .tc main_v5) :=
  (StableHlo.after_of_forall_not_mem (b := Proc.devRef .tc main_v5) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W8_of_ne m ρ c main_v5 (by decide)).trans (v5_at7 m ρ c))
theorem v5_at11 (c : Dev nD) : W11 m ρ c (Proc.devRef .tc main_v5) = W1 m ρ c (Proc.devRef .tc main_v5) :=
  (StableHlo.after_of_forall_not_mem (b := Proc.devRef .tc main_v5) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W10_of_ne m ρ c main_v5 (by decide)).trans (v5_at9 m ρ c))
theorem v5_at13 (c : Dev nD) : W13 m ρ c (Proc.devRef .tc main_v5) = W1 m ρ c (Proc.devRef .tc main_v5) :=
  (StableHlo.after_of_forall_not_mem (b := Proc.devRef .tc main_v5) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W12_of_ne m ρ c main_v5 (by decide)).trans (v5_at11 m ρ c))
theorem v5_at15 (c : Dev nD) : W15 m ρ c (Proc.devRef .tc main_v5) = W1 m ρ c (Proc.devRef .tc main_v5) :=
  (StableHlo.after_of_forall_not_mem (b := Proc.devRef .tc main_v5) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W14_of_ne m ρ c main_v5 (by decide)).trans (v5_at13 m ρ c))
theorem v5_at17 (c : Dev nD) : W17 m ρ c (Proc.devRef .tc main_v5) = W1 m ρ c (Proc.devRef .tc main_v5) :=
  (StableHlo.after_of_forall_not_mem (b := Proc.devRef .tc main_v5) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W16_of_ne m ρ c main_v5 (by decide)).trans (v5_at15 m ρ c))
theorem v5_at19 (c : Dev nD) : W19 m ρ c (Proc.devRef .tc main_v5) = W1 m ρ c (Proc.devRef .tc main_v5) :=
  (StableHlo.after_of_forall_not_mem (b := Proc.devRef .tc main_v5) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W18_of_ne m ρ c main_v5 (by decide)).trans (v5_at17 m ρ c))
theorem v5_at21 (c : Dev nD) : W21 m ρ c (Proc.devRef .tc main_v5) = W1 m ρ c (Proc.devRef .tc main_v5) :=
  (StableHlo.after_of_forall_not_mem (b := Proc.devRef .tc main_v5) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W20_of_ne m ρ c main_v5 (by decide)).trans (v5_at19 m ρ c))
theorem v5_at23 (c : Dev nD) : W23 m ρ c (Proc.devRef .tc main_v5) = W1 m ρ c (Proc.devRef .tc main_v5) :=
  (StableHlo.after_of_forall_not_mem (b := Proc.devRef .tc main_v5) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W22_of_ne m ρ c main_v5 (by decide)).trans (v5_at21 m ρ c))
theorem v5_at25 (c : Dev nD) : W25 m ρ c (Proc.devRef .tc main_v5) = W1 m ρ c (Proc.devRef .tc main_v5) :=
  (StableHlo.after_of_forall_not_mem (b := Proc.devRef .tc main_v5) _ _ (List.forall_iff_forall_mem.mp (by
      simp only [hostOps12, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W24_of_ne m ρ c main_v5 (by decide)).trans (v5_at23 m ρ c))

/-! ## Each launch's output, and each regrouping -/

theorem out0_eq (c : Dev nD) : (W2 m ρ c (Proc.devRef .tc main_v7) : S524288x128.Idx → EReal)
    = Region0.G (V1 m ρ c main_v6) (V1 m ρ c main_v0) (V1 m ρ c main_v1) :=
  (W2_arr m ρ c 3).trans (Region0.final (V1 m ρ) c)

theorem out1_eq (c : Dev nD) : (W4 m ρ c (Proc.devRef .tc main_v10) : S262144x128.Idx → EReal)
    = Region1.G (V3 m ρ c main_v9) (V3 m ρ c main_v2) (V3 m ρ c main_v3) :=
  (W4_arr m ρ c 3).trans (Region1.final (V3 m ρ) c)
theorem in1_eq (c : Dev nD) : (W3 m ρ c (Proc.devRef .tc main_v9) : S262144x256.Idx → EReal)
    = shapeCast S262144x256 (shapeCast S256x2048x128 (W2 m ρ c (Proc.devRef .tc main_v7)) shapeCasts_S524288x128_S256x2048x128) shapeCasts_S256x2048x128_S262144x256 := by
  show StableHlo.after hostOps1 (W2 m ρ c) (Proc.devRef .tc main_v9) = _
  after_results
  rfl

theorem out2_eq (c : Dev nD) : (W6 m ρ c (Proc.devRef .tc main_v13) : S131072x128.Idx → EReal)
    = Region2.G (V5 m ρ c main_v12) (V5 m ρ c main_v2) (V5 m ρ c main_v3) :=
  (W6_arr m ρ c 3).trans (Region2.final (V5 m ρ) c)
theorem in2_eq (c : Dev nD) : (W5 m ρ c (Proc.devRef .tc main_v12) : S131072x256.Idx → EReal)
    = shapeCast S131072x256 (shapeCast S256x1024x128 (W4 m ρ c (Proc.devRef .tc main_v10)) shapeCasts_S262144x128_S256x1024x128) shapeCasts_S256x1024x128_S131072x256 := by
  show StableHlo.after hostOps2 (W4 m ρ c) (Proc.devRef .tc main_v12) = _
  after_results
  rfl

theorem out3_eq (c : Dev nD) : (W8 m ρ c (Proc.devRef .tc main_v16) : S65536x128.Idx → EReal)
    = Region3.G (V7 m ρ c main_v15) (V7 m ρ c main_v2) (V7 m ρ c main_v3) :=
  (W8_arr m ρ c 3).trans (Region3.final (V7 m ρ) c)
theorem in3_eq (c : Dev nD) : (W7 m ρ c (Proc.devRef .tc main_v15) : S65536x256.Idx → EReal)
    = shapeCast S65536x256 (shapeCast S256x512x128 (W6 m ρ c (Proc.devRef .tc main_v13)) shapeCasts_S131072x128_S256x512x128) shapeCasts_S256x512x128_S65536x256 := by
  show StableHlo.after hostOps3 (W6 m ρ c) (Proc.devRef .tc main_v15) = _
  after_results
  rfl

theorem out4_eq (c : Dev nD) : (W10 m ρ c (Proc.devRef .tc main_v19) : S32768x128.Idx → EReal)
    = Region4.G (V9 m ρ c main_v18) (V9 m ρ c main_v2) (V9 m ρ c main_v3) :=
  (W10_arr m ρ c 3).trans (Region4.final (V9 m ρ) c)
theorem in4_eq (c : Dev nD) : (W9 m ρ c (Proc.devRef .tc main_v18) : S32768x256.Idx → EReal)
    = shapeCast S32768x256 (shapeCast S256x256x128 (W8 m ρ c (Proc.devRef .tc main_v16)) shapeCasts_S65536x128_S256x256x128) shapeCasts_S256x256x128_S32768x256 := by
  show StableHlo.after hostOps4 (W8 m ρ c) (Proc.devRef .tc main_v18) = _
  after_results
  rfl

theorem out5_eq (c : Dev nD) : (W12 m ρ c (Proc.devRef .tc main_v22) : S16384x128.Idx → EReal)
    = Region5.G (V11 m ρ c main_v21) (V11 m ρ c main_v2) (V11 m ρ c main_v3) :=
  (W12_arr m ρ c 3).trans (Region5.final (V11 m ρ) c)
theorem in5_eq (c : Dev nD) : (W11 m ρ c (Proc.devRef .tc main_v21) : S16384x256.Idx → EReal)
    = shapeCast S16384x256 (shapeCast S256x128x128 (W10 m ρ c (Proc.devRef .tc main_v19)) shapeCasts_S32768x128_S256x128x128) shapeCasts_S256x128x128_S16384x256 := by
  show StableHlo.after hostOps5 (W10 m ρ c) (Proc.devRef .tc main_v21) = _
  after_results
  rfl

theorem out6_eq (c : Dev nD) : (W14 m ρ c (Proc.devRef .tc main_v25) : S8192x128.Idx → EReal)
    = Region6.G (V13 m ρ c main_v24) (V13 m ρ c main_v2) (V13 m ρ c main_v3) :=
  (W14_arr m ρ c 3).trans (Region6.final (V13 m ρ) c)
theorem in6_eq (c : Dev nD) : (W13 m ρ c (Proc.devRef .tc main_v24) : S8192x256.Idx → EReal)
    = shapeCast S8192x256 (shapeCast S256x64x128 (W12 m ρ c (Proc.devRef .tc main_v22)) shapeCasts_S16384x128_S256x64x128) shapeCasts_S256x64x128_S8192x256 := by
  show StableHlo.after hostOps6 (W12 m ρ c) (Proc.devRef .tc main_v24) = _
  after_results
  rfl

theorem out7_eq (c : Dev nD) : (W16 m ρ c (Proc.devRef .tc main_v28) : S4096x128.Idx → EReal)
    = Region7.G (V15 m ρ c main_v27) (V15 m ρ c main_v2) (V15 m ρ c main_v3) :=
  (W16_arr m ρ c 3).trans (Region7.final (V15 m ρ) c)
theorem in7_eq (c : Dev nD) : (W15 m ρ c (Proc.devRef .tc main_v27) : S4096x256.Idx → EReal)
    = shapeCast S4096x256 (shapeCast S256x32x128 (W14 m ρ c (Proc.devRef .tc main_v25)) shapeCasts_S8192x128_S256x32x128) shapeCasts_S256x32x128_S4096x256 := by
  show StableHlo.after hostOps7 (W14 m ρ c) (Proc.devRef .tc main_v27) = _
  after_results
  rfl

theorem out8_eq (c : Dev nD) : (W18 m ρ c (Proc.devRef .tc main_v31) : S2048x128.Idx → EReal)
    = Region8.G (V17 m ρ c main_v30) (V17 m ρ c main_v2) (V17 m ρ c main_v3) :=
  (W18_arr m ρ c 3).trans (Region8.final (V17 m ρ) c)
theorem in8_eq (c : Dev nD) : (W17 m ρ c (Proc.devRef .tc main_v30) : S2048x256.Idx → EReal)
    = shapeCast S2048x256 (shapeCast S256x16x128 (W16 m ρ c (Proc.devRef .tc main_v28)) shapeCasts_S4096x128_S256x16x128) shapeCasts_S256x16x128_S2048x256 := by
  show StableHlo.after hostOps8 (W16 m ρ c) (Proc.devRef .tc main_v30) = _
  after_results
  rfl

theorem out9_eq (c : Dev nD) : (W20 m ρ c (Proc.devRef .tc main_v34) : S1024x128.Idx → EReal)
    = Region9.G (V19 m ρ c main_v33) (V19 m ρ c main_v2) (V19 m ρ c main_v3) :=
  (W20_arr m ρ c 3).trans (Region9.final (V19 m ρ) c)
theorem in9_eq (c : Dev nD) : (W19 m ρ c (Proc.devRef .tc main_v33) : S1024x256.Idx → EReal)
    = shapeCast S1024x256 (shapeCast S256x8x128 (W18 m ρ c (Proc.devRef .tc main_v31)) shapeCasts_S2048x128_S256x8x128) shapeCasts_S256x8x128_S1024x256 := by
  show StableHlo.after hostOps9 (W18 m ρ c) (Proc.devRef .tc main_v33) = _
  after_results
  rfl

theorem out10_eq (c : Dev nD) : (W22 m ρ c (Proc.devRef .tc main_v37) : S512x128.Idx → EReal)
    = Region10.G (V21 m ρ c main_v36) (V21 m ρ c main_v2) (V21 m ρ c main_v3) :=
  (W22_arr m ρ c 3).trans (Region10.final (V21 m ρ) c)
theorem in10_eq (c : Dev nD) : (W21 m ρ c (Proc.devRef .tc main_v36) : S512x256.Idx → EReal)
    = shapeCast S512x256 (shapeCast S256x4x128 (W20 m ρ c (Proc.devRef .tc main_v34)) shapeCasts_S1024x128_S256x4x128) shapeCasts_S256x4x128_S512x256 := by
  show StableHlo.after hostOps10 (W20 m ρ c) (Proc.devRef .tc main_v36) = _
  after_results
  rfl

theorem out11_eq (c : Dev nD) : (W24 m ρ c (Proc.devRef .tc main_v40) : S256x128.Idx → EReal)
    = Region11.G (V23 m ρ c main_v39) (V23 m ρ c main_v2) (V23 m ρ c main_v3) :=
  (W24_arr m ρ c 3).trans (Region11.final (V23 m ρ) c)
theorem in11_eq (c : Dev nD) : (W23 m ρ c (Proc.devRef .tc main_v39) : S256x256.Idx → EReal)
    = shapeCast S256x256 (shapeCast S256x2x128 (W22 m ρ c (Proc.devRef .tc main_v37)) shapeCasts_S512x128_S256x2x128) shapeCasts_S256x2x128_S256x256 := by
  show StableHlo.after hostOps11 (W22 m ρ c) (Proc.devRef .tc main_v39) = _
  after_results
  rfl

theorem out12_eq (c : Dev nD) : (W26 m ρ c (Proc.devRef .tc main_v43) : S256x1.Idx → EReal)
    = Region12.G (V25 m ρ c main_v42) (V25 m ρ c main_v4) (V25 m ρ c main_v5) :=
  (W26_arr m ρ c 3).trans (Region12.final (V25 m ρ) c)
theorem in12_eq (c : Dev nD) : (W25 m ρ c (Proc.devRef .tc main_v42) : S256x128.Idx → EReal)
    = shapeCast S256x128 (shapeCast S256x1x128 (W24 m ρ c (Proc.devRef .tc main_v40)) shapeCasts_S256x128_S256x1x128) shapeCasts_S256x1x128_S256x128 := by
  show StableHlo.after hostOps12 (W24 m ρ c) (Proc.devRef .tc main_v42) = _
  after_results
  rfl

/-! ## The levels -/

/-- Launch 0's output holds level 0: the embedding of every leaf. -/
theorem lvl0 (c : Dev nD) (i : S524288x128.Idx) :
    (W2 m ρ c (Proc.devRef .tc main_v7) : S524288x128.Idx → EReal) i = lvl m c 0 (i 0).val (i 1).val :=
  (congrFun (out0_eq m ρ c) i).trans (Region0.G_tab _ _ _ (leafT m c) (WeT m c) (beT m c) i
    (fun k => v6_tab m ρ c (lhsAt i k)) (fun k => v0_tab m ρ c (rhsAt i k)) (v1_tab m ρ c (rowAt i)))

/-- Launch 1's output holds level 1: the previous level's rows paired, then combined. -/
theorem lvl1 (c : Dev nD) (i : S262144x128.Idx) :
    (W4 m ρ c (Proc.devRef .tc main_v10) : S262144x128.Idx → EReal) i = lvl m c 1 (i 0).val (i 1).val :=
  (congrFun (out1_eq m ρ c) i).trans (Region1.G_tab _ _ _ (pair (lvl m c 0)) (WcT m c) (bcT m c) i
    (fun k => (congrFun (in1_eq m ρ c) (lhsAt i k)).trans
      (pair_of_casts _ (lvl m c 0) (lvl0 m ρ c) shapeCasts_S524288x128_S256x2048x128 shapeCasts_S256x2048x128_S262144x256 (by decide) (lhsAt i k)))
    (fun k => (congrFun (v2_at3 m ρ c) (rhsAt i k)).trans (v2_tab m ρ c (rhsAt i k)))
    ((congrFun (v3_at3 m ρ c) (rowAt i)).trans (v3_tab m ρ c (rowAt i))))

/-- Launch 2's output holds level 2: the previous level's rows paired, then combined. -/
theorem lvl2 (c : Dev nD) (i : S131072x128.Idx) :
    (W6 m ρ c (Proc.devRef .tc main_v13) : S131072x128.Idx → EReal) i = lvl m c 2 (i 0).val (i 1).val :=
  (congrFun (out2_eq m ρ c) i).trans (Region2.G_tab _ _ _ (pair (lvl m c 1)) (WcT m c) (bcT m c) i
    (fun k => (congrFun (in2_eq m ρ c) (lhsAt i k)).trans
      (pair_of_casts _ (lvl m c 1) (lvl1 m ρ c) shapeCasts_S262144x128_S256x1024x128 shapeCasts_S256x1024x128_S131072x256 (by decide) (lhsAt i k)))
    (fun k => (congrFun (v2_at5 m ρ c) (rhsAt i k)).trans (v2_tab m ρ c (rhsAt i k)))
    ((congrFun (v3_at5 m ρ c) (rowAt i)).trans (v3_tab m ρ c (rowAt i))))

/-- Launch 3's output holds level 3: the previous level's rows paired, then combined. -/
theorem lvl3 (c : Dev nD) (i : S65536x128.Idx) :
    (W8 m ρ c (Proc.devRef .tc main_v16) : S65536x128.Idx → EReal) i = lvl m c 3 (i 0).val (i 1).val :=
  (congrFun (out3_eq m ρ c) i).trans (Region3.G_tab _ _ _ (pair (lvl m c 2)) (WcT m c) (bcT m c) i
    (fun k => (congrFun (in3_eq m ρ c) (lhsAt i k)).trans
      (pair_of_casts _ (lvl m c 2) (lvl2 m ρ c) shapeCasts_S131072x128_S256x512x128 shapeCasts_S256x512x128_S65536x256 (by decide) (lhsAt i k)))
    (fun k => (congrFun (v2_at7 m ρ c) (rhsAt i k)).trans (v2_tab m ρ c (rhsAt i k)))
    ((congrFun (v3_at7 m ρ c) (rowAt i)).trans (v3_tab m ρ c (rowAt i))))

/-- Launch 4's output holds level 4: the previous level's rows paired, then combined. -/
theorem lvl4 (c : Dev nD) (i : S32768x128.Idx) :
    (W10 m ρ c (Proc.devRef .tc main_v19) : S32768x128.Idx → EReal) i = lvl m c 4 (i 0).val (i 1).val :=
  (congrFun (out4_eq m ρ c) i).trans (Region4.G_tab _ _ _ (pair (lvl m c 3)) (WcT m c) (bcT m c) i
    (fun k => (congrFun (in4_eq m ρ c) (lhsAt i k)).trans
      (pair_of_casts _ (lvl m c 3) (lvl3 m ρ c) shapeCasts_S65536x128_S256x256x128 shapeCasts_S256x256x128_S32768x256 (by decide) (lhsAt i k)))
    (fun k => (congrFun (v2_at9 m ρ c) (rhsAt i k)).trans (v2_tab m ρ c (rhsAt i k)))
    ((congrFun (v3_at9 m ρ c) (rowAt i)).trans (v3_tab m ρ c (rowAt i))))

/-- Launch 5's output holds level 5: the previous level's rows paired, then combined. -/
theorem lvl5 (c : Dev nD) (i : S16384x128.Idx) :
    (W12 m ρ c (Proc.devRef .tc main_v22) : S16384x128.Idx → EReal) i = lvl m c 5 (i 0).val (i 1).val :=
  (congrFun (out5_eq m ρ c) i).trans (Region5.G_tab _ _ _ (pair (lvl m c 4)) (WcT m c) (bcT m c) i
    (fun k => (congrFun (in5_eq m ρ c) (lhsAt i k)).trans
      (pair_of_casts _ (lvl m c 4) (lvl4 m ρ c) shapeCasts_S32768x128_S256x128x128 shapeCasts_S256x128x128_S16384x256 (by decide) (lhsAt i k)))
    (fun k => (congrFun (v2_at11 m ρ c) (rhsAt i k)).trans (v2_tab m ρ c (rhsAt i k)))
    ((congrFun (v3_at11 m ρ c) (rowAt i)).trans (v3_tab m ρ c (rowAt i))))

/-- Launch 6's output holds level 6: the previous level's rows paired, then combined. -/
theorem lvl6 (c : Dev nD) (i : S8192x128.Idx) :
    (W14 m ρ c (Proc.devRef .tc main_v25) : S8192x128.Idx → EReal) i = lvl m c 6 (i 0).val (i 1).val :=
  (congrFun (out6_eq m ρ c) i).trans (Region6.G_tab _ _ _ (pair (lvl m c 5)) (WcT m c) (bcT m c) i
    (fun k => (congrFun (in6_eq m ρ c) (lhsAt i k)).trans
      (pair_of_casts _ (lvl m c 5) (lvl5 m ρ c) shapeCasts_S16384x128_S256x64x128 shapeCasts_S256x64x128_S8192x256 (by decide) (lhsAt i k)))
    (fun k => (congrFun (v2_at13 m ρ c) (rhsAt i k)).trans (v2_tab m ρ c (rhsAt i k)))
    ((congrFun (v3_at13 m ρ c) (rowAt i)).trans (v3_tab m ρ c (rowAt i))))

/-- Launch 7's output holds level 7: the previous level's rows paired, then combined. -/
theorem lvl7 (c : Dev nD) (i : S4096x128.Idx) :
    (W16 m ρ c (Proc.devRef .tc main_v28) : S4096x128.Idx → EReal) i = lvl m c 7 (i 0).val (i 1).val :=
  (congrFun (out7_eq m ρ c) i).trans (Region7.G_tab _ _ _ (pair (lvl m c 6)) (WcT m c) (bcT m c) i
    (fun k => (congrFun (in7_eq m ρ c) (lhsAt i k)).trans
      (pair_of_casts _ (lvl m c 6) (lvl6 m ρ c) shapeCasts_S8192x128_S256x32x128 shapeCasts_S256x32x128_S4096x256 (by decide) (lhsAt i k)))
    (fun k => (congrFun (v2_at15 m ρ c) (rhsAt i k)).trans (v2_tab m ρ c (rhsAt i k)))
    ((congrFun (v3_at15 m ρ c) (rowAt i)).trans (v3_tab m ρ c (rowAt i))))

/-- Launch 8's output holds level 8: the previous level's rows paired, then combined. -/
theorem lvl8 (c : Dev nD) (i : S2048x128.Idx) :
    (W18 m ρ c (Proc.devRef .tc main_v31) : S2048x128.Idx → EReal) i = lvl m c 8 (i 0).val (i 1).val :=
  (congrFun (out8_eq m ρ c) i).trans (Region8.G_tab _ _ _ (pair (lvl m c 7)) (WcT m c) (bcT m c) i
    (fun k => (congrFun (in8_eq m ρ c) (lhsAt i k)).trans
      (pair_of_casts _ (lvl m c 7) (lvl7 m ρ c) shapeCasts_S4096x128_S256x16x128 shapeCasts_S256x16x128_S2048x256 (by decide) (lhsAt i k)))
    (fun k => (congrFun (v2_at17 m ρ c) (rhsAt i k)).trans (v2_tab m ρ c (rhsAt i k)))
    ((congrFun (v3_at17 m ρ c) (rowAt i)).trans (v3_tab m ρ c (rowAt i))))

/-- Launch 9's output holds level 9: the previous level's rows paired, then combined. -/
theorem lvl9 (c : Dev nD) (i : S1024x128.Idx) :
    (W20 m ρ c (Proc.devRef .tc main_v34) : S1024x128.Idx → EReal) i = lvl m c 9 (i 0).val (i 1).val :=
  (congrFun (out9_eq m ρ c) i).trans (Region9.G_tab _ _ _ (pair (lvl m c 8)) (WcT m c) (bcT m c) i
    (fun k => (congrFun (in9_eq m ρ c) (lhsAt i k)).trans
      (pair_of_casts _ (lvl m c 8) (lvl8 m ρ c) shapeCasts_S2048x128_S256x8x128 shapeCasts_S256x8x128_S1024x256 (by decide) (lhsAt i k)))
    (fun k => (congrFun (v2_at19 m ρ c) (rhsAt i k)).trans (v2_tab m ρ c (rhsAt i k)))
    ((congrFun (v3_at19 m ρ c) (rowAt i)).trans (v3_tab m ρ c (rowAt i))))

/-- Launch 10's output holds level 10: the previous level's rows paired, then combined. -/
theorem lvl10 (c : Dev nD) (i : S512x128.Idx) :
    (W22 m ρ c (Proc.devRef .tc main_v37) : S512x128.Idx → EReal) i = lvl m c 10 (i 0).val (i 1).val :=
  (congrFun (out10_eq m ρ c) i).trans (Region10.G_tab _ _ _ (pair (lvl m c 9)) (WcT m c) (bcT m c) i
    (fun k => (congrFun (in10_eq m ρ c) (lhsAt i k)).trans
      (pair_of_casts _ (lvl m c 9) (lvl9 m ρ c) shapeCasts_S1024x128_S256x4x128 shapeCasts_S256x4x128_S512x256 (by decide) (lhsAt i k)))
    (fun k => (congrFun (v2_at21 m ρ c) (rhsAt i k)).trans (v2_tab m ρ c (rhsAt i k)))
    ((congrFun (v3_at21 m ρ c) (rowAt i)).trans (v3_tab m ρ c (rowAt i))))

/-- Launch 11's output holds level 11: the previous level's rows paired, then combined. -/
theorem lvl11 (c : Dev nD) (i : S256x128.Idx) :
    (W24 m ρ c (Proc.devRef .tc main_v40) : S256x128.Idx → EReal) i = lvl m c 11 (i 0).val (i 1).val :=
  (congrFun (out11_eq m ρ c) i).trans (Region11.G_tab _ _ _ (pair (lvl m c 10)) (WcT m c) (bcT m c) i
    (fun k => (congrFun (in11_eq m ρ c) (lhsAt i k)).trans
      (pair_of_casts _ (lvl m c 10) (lvl10 m ρ c) shapeCasts_S512x128_S256x2x128 shapeCasts_S256x2x128_S256x256 (by decide) (lhsAt i k)))
    (fun k => (congrFun (v2_at23 m ρ c) (rhsAt i k)).trans (v2_tab m ρ c (rhsAt i k)))
    ((congrFun (v3_at23 m ρ c) (rowAt i)).trans (v3_tab m ρ c (rowAt i))))

/-- The last launch's output holds the tree's result: each tree's root row, projected. -/
theorem result (c : Dev nD) (i : S256x1.Idx) :
    (W26 m ρ c (Proc.devRef .tc main_v43) : S256x1.Idx → EReal) i
      = root (leafT m c) (WeT m c) (beT m c) (WcT m c) (bcT m c) (WpT m c) (bpT m c) (i 0).val (i 1).val :=
  (congrFun (out12_eq m ρ c) i).trans (Region12.G_tab _ _ _ (lvl m c 11) (WpT m c) (bpT m c) i
    (fun k => (congrFun (in12_eq m ρ c) (lhsAt i k)).trans
      ((shapeCast_shapeCast_apply _ shapeCasts_S256x128_S256x1x128 shapeCasts_S256x1x128_S256x128 (lhsAt i k) (lhsAt i k) rfl).trans
        (lvl11 m ρ c (lhsAt i k))))
    (fun k => (congrFun (v4_at25 m ρ c) (rhsAt i k)).trans (v4_tab m ρ c (rhsAt i k)))
    ((congrFun (v5_at25 m ρ c) (rowAt i)).trans (v5_tab m ρ c (rowAt i))))

end Cert.KernelIdeal.Chain

end
-- ==== Proof.RefLevels.lean ====
/-
  The idealized reference, one level at a time, read as tables.

  The reference embeds every leaf with a contraction over the 16 features, adds the bias and rectifies; then eleven
  times it regroups [256, 2n, 128] as [256, n, 256] (rows 2j and 2j+1 of each tree side by side), contracts with the
  combiner's weights over the 256 paired features, adds the bias and rectifies; then it drops the unit axis and projects
  each root without rectifying. Numbering the rows of level l by (tree) · (rows per tree) + (row in tree), the array after level l
  holds level l of the tree over the argument tables, and the result holds the tree's result.
-/
import proofs.«117629_j40149354283017_1_alg».proof.Proof.Gen.ReferenceIdeal.Read
import proofs.«117629_j40149354283017_1_alg».proof.Proof.LibPairRows

noncomputable section

open scoped BigOperators

namespace Cert.ReferenceIdeal.Levels

open Idealize.ShloMosaic Idealize.ShloMosaic.ValueIdx Cert.ReferenceIdeal Cert.ReferenceIdeal.Gen Cert.ReferenceIdeal.Read Cert.TreeSpec

variable (x0 : (⟨S256x2048x16, .f32⟩ : BufTy).Contents (Elt Ideal)) (x1 : (⟨S128x16, .f32⟩ : BufTy).Contents (Elt Ideal))
  (x2 : (⟨S128, .f32⟩ : BufTy).Contents (Elt Ideal)) (x3 : (⟨S128x256, .f32⟩ : BufTy).Contents (Elt Ideal))
  (x4 : (⟨S128, .f32⟩ : BufTy).Contents (Elt Ideal)) (x5 : (⟨S1x128, .f32⟩ : BufTy).Contents (Elt Ideal))
  (x6 : (⟨S1, .f32⟩ : BufTy).Contents (Elt Ideal))

/-- Level l of the tree over the reference's argument tables. -/
abbrev lvl (l : ℕ) : ℕ → ℕ → EReal := level (leafTable x0) (tab2 x1) (tab1 x2) (tab2 x3) (tab1 x4) l

/-- The embedding: leaf n of tree b is row b · 2048 + n of level 0. -/
theorem ref0 (i : S256x2048x128.Idx) :
    val_main_v4 (F := Ideal) x0 x1 x2 i = lvl x0 x1 x2 x3 x4 0 ((i 0).val * 2048 + (i 1).val) (i 2).val := by
  rw [val_main_v4_apply, val_main_v3_apply, val_main_v0_apply, val_main_v2_apply, val_main_v1_apply, val_main_call0_v0_apply, val_main_call0_cst_apply]
  have h1 : (i 1).val < 2048 := (i 1).isLt
  refine congrArg₂ max (congrArg₂ (· + ·) (Finset.sum_congr rfl fun k _ => congrArg₂ (· * ·) ?_ ?_) ?_) rfl
  · exact (tab3_apply x0 (lidx_main_v0 i k) _ _ _ (by show (i 0).val = ((i 0).val * 2048 + (i 1).val) / 2048; omega)
      (by show (i 1).val = ((i 0).val * 2048 + (i 1).val) % 2048; omega) rfl).symm
  · exact (tab2_apply x1 (ridx_main_v0 i k) _ _ rfl rfl).symm
  · exact (tab1_apply x2 (idx_main_v1 (idx_main_v2 i)) _ rfl).symm

/-- Level 1: each tree's 2048 rows paired into 1024, then combined. -/
theorem ref1 (i : S256x1024x128.Idx) :
    val_main_v10 (F := Ideal) x0 x1 x2 x3 x4 i = lvl x0 x1 x2 x3 x4 1 ((i 0).val * 1024 + (i 1).val) (i 2).val := by
  rw [val_main_v10_apply, val_main_v9_apply, val_main_v6_apply, val_main_v8_apply, val_main_v7_apply, val_main_call1_v0_apply, val_main_call1_cst_apply]
  refine congrArg₂ max (congrArg₂ (· + ·) (Finset.sum_congr rfl fun k _ => congrArg₂ (· * ·) ?_ ?_) ?_) rfl
  · unfold val_main_v5
    exact pair_of_cast3 (val_main_v4 (F := Ideal) x0 x1 x2) (lvl x0 x1 x2 x3 x4 0) (ref0 x0 x1 x2 x3 x4) shapeCasts_S256x2048x128_S256x1024x256 rfl (lidx_main_v6 i k)
  · exact (tab2_apply x3 (ridx_main_v6 i k) _ _ rfl rfl).symm
  · exact (tab1_apply x4 (idx_main_v7 (idx_main_v8 i)) _ rfl).symm

/-- Level 2: each tree's 1024 rows paired into 512, then combined. -/
theorem ref2 (i : S256x512x128.Idx) :
    val_main_v16 (F := Ideal) x0 x1 x2 x3 x4 i = lvl x0 x1 x2 x3 x4 2 ((i 0).val * 512 + (i 1).val) (i 2).val := by
  rw [val_main_v16_apply, val_main_v15_apply, val_main_v12_apply, val_main_v14_apply, val_main_v13_apply, val_main_call2_v0_apply, val_main_call2_cst_apply]
  refine congrArg₂ max (congrArg₂ (· + ·) (Finset.sum_congr rfl fun k _ => congrArg₂ (· * ·) ?_ ?_) ?_) rfl
  · unfold val_main_v11
    exact pair_of_cast3 (val_main_v10 (F := Ideal) x0 x1 x2 x3 x4) (lvl x0 x1 x2 x3 x4 1) (ref1 x0 x1 x2 x3 x4) shapeCasts_S256x1024x128_S256x512x256 rfl (lidx_main_v12 i k)
  · exact (tab2_apply x3 (ridx_main_v12 i k) _ _ rfl rfl).symm
  · exact (tab1_apply x4 (idx_main_v13 (idx_main_v14 i)) _ rfl).symm

/-- Level 3: each tree's 512 rows paired into 256, then combined. -/
theorem ref3 (i : S256x256x128.Idx) :
    val_main_v22 (F := Ideal) x0 x1 x2 x3 x4 i = lvl x0 x1 x2 x3 x4 3 ((i 0).val * 256 + (i 1).val) (i 2).val := by
  rw [val_main_v22_apply, val_main_v21_apply, val_main_v18_apply, val_main_v20_apply, val_main_v19_apply, val_main_call3_v0_apply, val_main_call3_cst_apply]
  refine congrArg₂ max (congrArg₂ (· + ·) (Finset.sum_congr rfl fun k _ => congrArg₂ (· * ·) ?_ ?_) ?_) rfl
  · unfold val_main_v17
    exact pair_of_cast3 (val_main_v16 (F := Ideal) x0 x1 x2 x3 x4) (lvl x0 x1 x2 x3 x4 2) (ref2 x0 x1 x2 x3 x4) shapeCasts_S256x512x128_S256x256x256 rfl (lidx_main_v18 i k)
  · exact (tab2_apply x3 (ridx_main_v18 i k) _ _ rfl rfl).symm
  · exact (tab1_apply x4 (idx_main_v19 (idx_main_v20 i)) _ rfl).symm

/-- Level 4: each tree's 256 rows paired into 128, then combined. -/
theorem ref4 (i : S256x128x128.Idx) :
    val_main_v28 (F := Ideal) x0 x1 x2 x3 x4 i = lvl x0 x1 x2 x3 x4 4 ((i 0).val * 128 + (i 1).val) (i 2).val := by
  rw [val_main_v28_apply, val_main_v27_apply, val_main_v24_apply, val_main_v26_apply, val_main_v25_apply, val_main_call4_v0_apply, val_main_call4_cst_apply]
  refine congrArg₂ max (congrArg₂ (· + ·) (Finset.sum_congr rfl fun k _ => congrArg₂ (· * ·) ?_ ?_) ?_) rfl
  · unfold val_main_v23
    exact pair_of_cast3 (val_main_v22 (F := Ideal) x0 x1 x2 x3 x4) (lvl x0 x1 x2 x3 x4 3) (ref3 x0 x1 x2 x3 x4) shapeCasts_S256x256x128_S256x128x256 rfl (lidx_main_v24 i k)
  · exact (tab2_apply x3 (ridx_main_v24 i k) _ _ rfl rfl).symm
  · exact (tab1_apply x4 (idx_main_v25 (idx_main_v26 i)) _ rfl).symm

/-- Level 5: each tree's 128 rows paired into 64, then combined. -/
theorem ref5 (i : S256x64x128.Idx) :
    val_main_v34 (F := Ideal) x0 x1 x2 x3 x4 i = lvl x0 x1 x2 x3 x4 5 ((i 0).val * 64 + (i 1).val) (i 2).val := by
  rw [val_main_v34_apply, val_main_v33_apply, val_main_v30_apply, val_main_v32_apply, val_main_v31_apply, val_main_call5_v0_apply, val_main_call5_cst_apply]
  refine congrArg₂ max (congrArg₂ (· + ·) (Finset.sum_congr rfl fun k _ => congrArg₂ (· * ·) ?_ ?_) ?_) rfl
  · unfold val_main_v29
    exact pair_of_cast3 (val_main_v28 (F := Ideal) x0 x1 x2 x3 x4) (lvl x0 x1 x2 x3 x4 4) (ref4 x0 x1 x2 x3 x4) shapeCasts_S256x128x128_S256x64x256 rfl (lidx_main_v30 i k)
  · exact (tab2_apply x3 (ridx_main_v30 i k) _ _ rfl rfl).symm
  · exact (tab1_apply x4 (idx_main_v31 (idx_main_v32 i)) _ rfl).symm

/-- Level 6: each tree's 64 rows paired into 32, then combined. -/
theorem ref6 (i : S256x32x128.Idx) :
    val_main_v40 (F := Ideal) x0 x1 x2 x3 x4 i = lvl x0 x1 x2 x3 x4 6 ((i 0).val * 32 + (i 1).val) (i 2).val := by
  rw [val_main_v40_apply, val_main_v39_apply, val_main_v36_apply, val_main_v38_apply, val_main_v37_apply, val_main_call6_v0_apply, val_main_call6_cst_apply]
  refine congrArg₂ max (congrArg₂ (· + ·) (Finset.sum_congr rfl fun k _ => congrArg₂ (· * ·) ?_ ?_) ?_) rfl
  · unfold val_main_v35
    exact pair_of_cast3 (val_main_v34 (F := Ideal) x0 x1 x2 x3 x4) (lvl x0 x1 x2 x3 x4 5) (ref5 x0 x1 x2 x3 x4) shapeCasts_S256x64x128_S256x32x256 rfl (lidx_main_v36 i k)
  · exact (tab2_apply x3 (ridx_main_v36 i k) _ _ rfl rfl).symm
  · exact (tab1_apply x4 (idx_main_v37 (idx_main_v38 i)) _ rfl).symm

/-- Level 7: each tree's 32 rows paired into 16, then combined. -/
theorem ref7 (i : S256x16x128.Idx) :
    val_main_v46 (F := Ideal) x0 x1 x2 x3 x4 i = lvl x0 x1 x2 x3 x4 7 ((i 0).val * 16 + (i 1).val) (i 2).val := by
  rw [val_main_v46_apply, val_main_v45_apply, val_main_v42_apply, val_main_v44_apply, val_main_v43_apply, val_main_call7_v0_apply, val_main_call7_cst_apply]
  refine congrArg₂ max (congrArg₂ (· + ·) (Finset.sum_congr rfl fun k _ => congrArg₂ (· * ·) ?_ ?_) ?_) rfl
  · unfold val_main_v41
    exact pair_of_cast3 (val_main_v40 (F := Ideal) x0 x1 x2 x3 x4) (lvl x0 x1 x2 x3 x4 6) (ref6 x0 x1 x2 x3 x4) shapeCasts_S256x32x128_S256x16x256 rfl (lidx_main_v42 i k)
  · exact (tab2_apply x3 (ridx_main_v42 i k) _ _ rfl rfl).symm
  · exact (tab1_apply x4 (idx_main_v43 (idx_main_v44 i)) _ rfl).symm

/-- Level 8: each tree's 16 rows paired into 8, then combined. -/
theorem ref8 (i : S256x8x128.Idx) :
    val_main_v52 (F := Ideal) x0 x1 x2 x3 x4 i = lvl x0 x1 x2 x3 x4 8 ((i 0).val * 8 + (i 1).val) (i 2).val := by
  rw [val_main_v52_apply, val_main_v51_apply, val_main_v48_apply, val_main_v50_apply, val_main_v49_apply, val_main_call8_v0_apply, val_main_call8_cst_apply]
  refine congrArg₂ max (congrArg₂ (· + ·) (Finset.sum_congr rfl fun k _ => congrArg₂ (· * ·) ?_ ?_) ?_) rfl
  · unfold val_main_v47
    exact pair_of_cast3 (val_main_v46 (F := Ideal) x0 x1 x2 x3 x4) (lvl x0 x1 x2 x3 x4 7) (ref7 x0 x1 x2 x3 x4) shapeCasts_S256x16x128_S256x8x256 rfl (lidx_main_v48 i k)
  · exact (tab2_apply x3 (ridx_main_v48 i k) _ _ rfl rfl).symm
  · exact (tab1_apply x4 (idx_main_v49 (idx_main_v50 i)) _ rfl).symm

/-- Level 9: each tree's 8 rows paired into 4, then combined. -/
theorem ref9 (i : S256x4x128.Idx) :
    val_main_v58 (F := Ideal) x0 x1 x2 x3 x4 i = lvl x0 x1 x2 x3 x4 9 ((i 0).val * 4 + (i 1).val) (i 2).val := by
  rw [val_main_v58_apply, val_main_v57_apply, val_main_v54_apply, val_main_v56_apply, val_main_v55_apply, val_main_call9_v0_apply, val_main_call9_cst_apply]
  refine congrArg₂ max (congrArg₂ (· + ·) (Finset.sum_congr rfl fun k _ => congrArg₂ (· * ·) ?_ ?_) ?_) rfl
  · unfold val_main_v53
    exact pair_of_cast3 (val_main_v52 (F := Ideal) x0 x1 x2 x3 x4) (lvl x0 x1 x2 x3 x4 8) (ref8 x0 x1 x2 x3 x4) shapeCasts_S256x8x128_S256x4x256 rfl (lidx_main_v54 i k)
  · exact (tab2_apply x3 (ridx_main_v54 i k) _ _ rfl rfl).symm
  · exact (tab1_apply x4 (idx_main_v55 (idx_main_v56 i)) _ rfl).symm

/-- Level 10: each tree's 4 rows paired into 2, then combined. -/
theorem ref10 (i : S256x2x128.Idx) :
    val_main_v64 (F := Ideal) x0 x1 x2 x3 x4 i = lvl x0 x1 x2 x3 x4 10 ((i 0).val * 2 + (i 1).val) (i 2).val := by
  rw [val_main_v64_apply, val_main_v63_apply, val_main_v60_apply, val_main_v62_apply, val_main_v61_apply, val_main_call10_v0_apply, val_main_call10_cst_apply]
  refine congrArg₂ max (congrArg₂ (· + ·) (Finset.sum_congr rfl fun k _ => congrArg₂ (· * ·) ?_ ?_) ?_) rfl
  · unfold val_main_v59
    exact pair_of_cast3 (val_main_v58 (F := Ideal) x0 x1 x2 x3 x4) (lvl x0 x1 x2 x3 x4 9) (ref9 x0 x1 x2 x3 x4) shapeCasts_S256x4x128_S256x2x256 rfl (lidx_main_v60 i k)
  · exact (tab2_apply x3 (ridx_main_v60 i k) _ _ rfl rfl).symm
  · exact (tab1_apply x4 (idx_main_v61 (idx_main_v62 i)) _ rfl).symm

/-- Level 11: each tree's 2 rows paired into 1, then combined. -/
theorem ref11 (i : S256x1x128.Idx) :
    val_main_v70 (F := Ideal) x0 x1 x2 x3 x4 i = lvl x0 x1 x2 x3 x4 11 ((i 0).val * 1 + (i 1).val) (i 2).val := by
  rw [val_main_v70_apply, val_main_v69_apply, val_main_v66_apply, val_main_v68_apply, val_main_v67_apply, val_main_call11_v0_apply, val_main_call11_cst_apply]
  refine congrArg₂ max (congrArg₂ (· + ·) (Finset.sum_congr rfl fun k _ => congrArg₂ (· * ·) ?_ ?_) ?_) rfl
  · unfold val_main_v65
    exact pair_of_cast3 (val_main_v64 (F := Ideal) x0 x1 x2 x3 x4) (lvl x0 x1 x2 x3 x4 10) (ref10 x0 x1 x2 x3 x4) shapeCasts_S256x2x128_S256x1x256 rfl (lidx_main_v66 i k)
  · exact (tab2_apply x3 (ridx_main_v66 i k) _ _ rfl rfl).symm
  · exact (tab1_apply x4 (idx_main_v67 (idx_main_v68 i)) _ rfl).symm

/-- The result: each tree's root row, projected. -/
theorem result (i : S256x1.Idx) :
    val_main_v75 (F := Ideal) x0 x1 x2 x3 x4 x5 x6 i
      = root (leafTable x0) (tab2 x1) (tab1 x2) (tab2 x3) (tab1 x4) (tab2 x5) (tab1 x6) (i 0).val (i 1).val := by
  rw [val_main_v75_apply, val_main_v72_apply, val_main_v74_apply, val_main_v73_apply]
  have h1 : (i 1).val < 1 := (i 1).isLt
  refine congrArg₂ (· + ·) (Finset.sum_congr rfl fun k _ => congrArg₂ (· * ·) ?_ ?_) ?_
  · unfold val_main_v71
    exact drop_unit_axis (val_main_v70 (F := Ideal) x0 x1 x2 x3 x4) (lvl x0 x1 x2 x3 x4 11) (ref11 x0 x1 x2 x3 x4) shapeCasts_S256x1x128_S256x128 (lidx_main_v72 i k)
  · exact (tab2_apply x5 (ridx_main_v72 i k) _ _ rfl rfl).symm
  · exact (tab1_apply x6 (idx_main_v73 (idx_main_v74 i)) _ (by show 0 = (i 1).val; omega)).symm

end Cert.ReferenceIdeal.Levels

end
-- ==== Proof.lean ====
/-
  A binary tree of dense layers, computed by thirteen tiled launches, against its array-level reference.

  Both programs embed each of 256 × 2048 leaves by a dense layer over 16 features (with the rectifier), then eleven
  times put adjacent rows side by side and apply one shared dense layer over the 256 paired features (with the
  rectifier), and finally project each tree's single remaining row (without the rectifier). The kernel keeps every
  level as a matrix with one row per node and regroups rows between launches; the reference keeps a tree axis and
  regroups within each tree. Both regroupings are row-major, so with rows numbered (tree) · (rows per tree) + (row in
  tree) the two programs hold the same table at every level: at the extended reals each entry on either side is the
  same sum of products plus the same bias under the same maximum, with no law of arithmetic needed beyond reading both
  sides at the same indices. The precondition is not used by the value claim.

  The frames of the two kernel programs are the generated frame certificates; the reference's frame is its generated
  run with the result dropped; the idealization rewrote nothing, so it is preserved trivially.
-/
import proofs.«117629_j40149354283017_1_alg».proof.Defs
import proofs.«117629_j40149354283017_1_alg».proof.Proof.Gen.Kernel
import proofs.«117629_j40149354283017_1_alg».proof.Proof.Gen.Kernel.Skeleton
import proofs.«117629_j40149354283017_1_alg».proof.Proof.Gen.Kernel.Launch
import proofs.«117629_j40149354283017_1_alg».proof.Proof.Gen.Kernel.Points
import proofs.«117629_j40149354283017_1_alg».proof.Proof.Gen.Kernel.Frame
import proofs.«117629_j40149354283017_1_alg».proof.Proof.Gen.KernelIdeal
import proofs.«117629_j40149354283017_1_alg».proof.Proof.Gen.KernelIdeal.Skeleton
import proofs.«117629_j40149354283017_1_alg».proof.Proof.Gen.KernelIdeal.Launch
import proofs.«117629_j40149354283017_1_alg».proof.Proof.Gen.KernelIdeal.Points
import proofs.«117629_j40149354283017_1_alg».proof.Proof.Gen.KernelIdeal.Frame
import proofs.«117629_j40149354283017_1_alg».proof.Proof.Gen.ReferenceIdeal
import proofs.«117629_j40149354283017_1_alg».proof.Proof.Gen.ReferenceIdeal.Run
import proofs.«117629_j40149354283017_1_alg».proof.Proof.Gen.ReferenceIdeal.Read
import proofs.«117629_j40149354283017_1_alg».proof.Proof.Gen.Pre_finite_inputs
import proofs.«117629_j40149354283017_1_alg».proof.Proof.TreeRun
import proofs.«117629_j40149354283017_1_alg».proof.Proof.KernelChain
import proofs.«117629_j40149354283017_1_alg».proof.Proof.RefLevels
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference's run, with what it says about the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the arguments both idealized programs end with the tree's result: the kernel's last
    launch leaves it in its output array, the reference's last addition computes it. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, (θ_run Cert.KernelIdeal.defs _ _).mono
      (fun r h c => ⟨(h c).1.trans (funext fun i => Cert.KernelIdeal.Chain.result m ρ c i), (h c).2⟩)
      (Cert.KernelIdeal.TreeRun.run (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2.1, (hagree c).2.2.2.2.2.1, (hagree c).2.2.2.2.2.2]
  funext i
  exact Cert.ReferenceIdeal.Levels.result _ _ _ _ _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
